-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x1 : Shape := ⟨2, ![8192, 1]⟩
abbrev S512x1024 : Shape := ⟨2, ![512, 1024]⟩
abbrev S2048x1024 : Shape := ⟨2, ![2048, 1024]⟩
abbrev S2048x1 : Shape := ⟨2, ![2048, 1]⟩
abbrev S2048x512 : Shape := ⟨2, ![2048, 512]⟩
abbrev S2048 : Shape := ⟨1, ![2048]⟩
abbrev S1x8192 : Shape := ⟨2, ![1, 8192]⟩
abbrev S1x512 : Shape := ⟨2, ![1, 512]⟩
abbrev S1024x512 : Shape := ⟨2, ![1024, 512]⟩

abbrev nBuf : Space → Nat
  | .hbm => 23
  | .vmem => 39
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S8192x1024, .bf16⟩
  | .hbm, ⟨16, _⟩ => ⟨S1x1024, .f32⟩
  | .hbm, ⟨17, _⟩ => ⟨S8192x1024, .bf16⟩
  | .hbm, ⟨18, _⟩ => ⟨S1x1024, .f32⟩
  | .hbm, ⟨19, _⟩ => ⟨S8192x1024, .bf16⟩
  | .hbm, ⟨20, _⟩ => ⟨S8192x1, .f32⟩
  | .hbm, ⟨21, _⟩ => ⟨S1x8192, .f32⟩
  | .hbm, ⟨22, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S512x1024, .bf16⟩
  | .local _ .vmem, ⟨19, _⟩ => ⟨S512x1024, .bf16⟩
  | .local _ .vmem, ⟨20, _⟩ => ⟨S2048x1024, .bf16⟩
  | .local _ .vmem, ⟨21, _⟩ => ⟨S2048x1024, .bf16⟩
  | .local _ .vmem, ⟨22, _⟩ => ⟨S2048x1, .f32⟩
  | .local _ .vmem, ⟨23, _⟩ => ⟨S2048x1, .f32⟩
  | .local _ .vmem, ⟨24, _⟩ => ⟨S2048x1, .f32⟩
  | .local _ .vmem, ⟨25, _⟩ => ⟨S2048x1, .f32⟩
  | .local _ .vmem, ⟨26, _⟩ => ⟨S1024x1024, .bf16⟩
  | .local _ .vmem, ⟨27, _⟩ => ⟨S1024x1024, .bf16⟩
  | .local _ .vmem, ⟨28, _⟩ => ⟨S512x1024, .bf16⟩
  | .local _ .vmem, ⟨29, _⟩ => ⟨S512x1024, .bf16⟩
  | .local _ .vmem, ⟨30, _⟩ => ⟨S1x512, .f32⟩
  | .local _ .vmem, ⟨31, _⟩ => ⟨S1x512, .f32⟩
  | .local _ .vmem, ⟨32, _⟩ => ⟨S512x1024, .bf16⟩
  | .local _ .vmem, ⟨33, _⟩ => ⟨S512x1024, .bf16⟩
  | .local _ .vmem, ⟨34, _⟩ => ⟨S1024x1024, .f32⟩
  | .local _ .vmem, ⟨35, _⟩ => ⟨S1024x1024, .f32⟩
  | .local _ .vmem, ⟨36, _⟩ => ⟨S1024x1024, .f32⟩
  | .local _ .vmem, ⟨37, _⟩ => ⟨S1024x1024, .f32⟩
  | .local _ .vmem, ⟨38, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc3_scratch1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc4_stg5_0 : Ref sig .tc := ⟨.vmem, 36, rfl⟩
abbrev cc4_stg5_1 : Ref sig .tc := ⟨.vmem, 37, rfl⟩
abbrev cc4_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 16], ![false, false]⟩

def k3_cond2 (i : grid3.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_16 : BitVec 32 := 0#32
  let v31 : BitVec 1 := Scalar.cmpi .ne v30 c0_i32_16
  v31

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![8, 16], ![false, false]⟩

def k4_cond2 (i : grid4.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_13 : BitVec 32 := 0#32
  let v24 : BitVec 1 := Scalar.cmpi .ne v23 c0_i32_13
  v24

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1024x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S1024x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x512_S2048 : S2048x512.Reduces [1] S2048
  shapeCasts_S2048_S2048x1 : S2048.ShapeCasts S2048x1
  broadcasts_S2048x1_S2048x512 : S2048x1.Broadcasts S2048x512
  shapeCasts_S8192x1_S1x8192 : S8192x1.ShapeCasts S1x8192
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x1024_S1024x1024_S1024x1024_1_0_0_1_n_n_wf : DotDims.WF S1024x1024 S1024x1024 S1024x1024 [1] [0] [0] [1] [] []
  dot_S2048x1024_S512x1024_S2048x512_1_1_0_0_n_n_wf : DotDims.WF S2048x1024 S512x1024 S2048x512 [1] [1] [0] [0] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S8192x1024.size a
  hwx3_0 : ∀ i : grid3.Coords, EltTy.bits .bf16 = 32 ∨ (Rect.block (s := S8192x1024) S512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S8192x1024.size a
  hwx3_1 : ∀ i : grid3.Coords, EltTy.bits .bf16 = 32 ∨ (Rect.block (s := S8192x1024) S2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S8192x1.size a
  hwx3_2 : ∀ i : grid3.Coords, EltTy.bits .f32 = 32 ∨ (Rect.block (s := S8192x1) S2048x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x1024.size a ≤ S8192x1024.size a
  hwx4_1 : ∀ i : grid4.Coords, EltTy.bits .bf16 = 32 ∨ (Rect.block (s := S8192x1024) S512x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x8192.size a
  hwx4_2 : ∀ i : grid4.Coords, EltTy.bits .f32 = 32 ∨ (Rect.block (s := S1x8192) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x1024.size a
  hwx4_3 : ∀ i : grid4.Coords, EltTy.bits .bf16 = 32 ∨ (Rect.block (s := S8192x1024) S512x1024.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x1024.size a ≤ S8192x1024.size a
  hwx4_4 : ∀ i : grid4.Coords, EltTy.bits .f32 = 32 ∨ (Rect.block (s := S8192x1024) S1024x1024.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x1024.size a ≤ S8192x1024.size a
  hwx4_5 : ∀ i : grid4.Coords, EltTy.bits .f32 = 32 ∨ (Rect.block (s := S8192x1024) S1024x1024.size (cc4_transform_5 i) (hinb4_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2048x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v7) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S512x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S1x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v11) S512x1024.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg0) S1024x1024.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v14) S1024x1024.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S1x8192 : Shape := ⟨2, ![1, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S1024x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S1x8192, .f32⟩
  | .hbm, ⟨37, _⟩ => ⟨S8192x8192, .f32⟩
  | .hbm, ⟨38, _⟩ => ⟨S8192x8192, .f32⟩
  | .hbm, ⟨39, _⟩ => ⟨S8192x1024, .f32⟩
  | .hbm, ⟨40, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  reducesTo_S8192x8192_S8192_d0 : S8192x8192.ReducesTo [0] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Kernel.Reg0.lean ====
import proofs.«101729_j45303315038988_2_alg».proof.Proof.Gen.Kernel.Launch
import proofs.«101729_j45303315038988_2_alg».proof.Proof.Gen.Kernel.Skeleton
import proofs.«101729_j45303315038988_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The linear map of the first projection, q = p·Whᵀ + bh: one row block of 1024 rows per grid point, the weight and the bias held across the grid -/

/-! ## The windows' blocks -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left factor (window 0, fetched at every point) is in its current staging buffer at every
    point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix (window 1) is fetched at the first point only; its block index never moves, so its staging
    buffer holds the same (whole) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row (window 2), likewise fetched once and held. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rblk0 : Rect S1024x1024 := Rect.unit (s := S1024x1024) ![0, 0] S1024x1024.size inb_S1024x1024_S1024x1024_0_0
abbrev rrow0 : Rect S1x1024 := Rect.unit (s := S1x1024) ![0, 0] S1x1024.size inb_S1x1024_S1x1024_0_0

/-! ## What the body leaves in the output window's buffer -/

/-- The output block after the body: its one store, of the rounded product-plus-bias of the three input blocks,
    over the whole buffer. -/
def out0_3 (x0 : Vec F S1024x1024 .f32) (x1 : Vec F S1024x1024 .bf16) (x2 : Vec F S1x1024 .f32) : Vec F S1024x1024 .bf16 :=
  View.canon [⟨rblk0, k0_pay1 (View.ld x0 rblk0) (View.ld x1 rblk0) (View.ld x2 rrow0)⟩]

/-- The one store covers the buffer. -/
theorem cover0_3 (p0 : Vec F S1024x1024 .bf16) (y : S1024x1024.Idx) :
    ∃ pc ∈ ([⟨rblk0, p0⟩] : List (View.Piece (Elt F) S1024x1024 .bf16)), y ∈ pc.1.set :=
  View.cover_of_tiled [⟨rblk0, p0⟩] S1024x1024.size (by rfl) y

/-! ## The body's triple -/

set_option maxHeartbeats 1000000 in
/-- The body on whole staging memrefs — the three inputs' at read contents `x0 x1 x2`, the output's at anything — runs to
    the continuation holding the inputs' as they were and the output's at `out0_3` of them. The body also reads the
    output buffer before overwriting it; nothing depends on what it reads there. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them (`V`); after the body at point `t`
    each input's buffer still at its block, and the output's at `out0_3` of the three input blocks; the invariant is the
    untouched rest of the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- The invariant is the untouched rest of the core's state at every point: entering and leaving the region are identities. -/
theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Hand

end
-- ==== Proof.Kernel.Reg1.lean ====
import proofs.«101729_j45303315038988_2_alg».proof.Proof.Gen.Kernel.Launch
import proofs.«101729_j45303315038988_2_alg».proof.Proof.Gen.Kernel.Skeleton
import proofs.«101729_j45303315038988_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The linear map of the second projection, k = r·Wlᵀ + bl: one row block of 1024 rows per grid point, the weight and the bias held across the grid -/

/-! ## The windows' blocks -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left factor (window 0, fetched at every point) is in its current staging buffer at every
    point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix (window 1) is fetched at the first point only; its block index never moves, so its staging
    buffer holds the same (whole) block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row (window 2), likewise fetched once and held. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rblk1 : Rect S1024x1024 := Rect.unit (s := S1024x1024) ![0, 0] S1024x1024.size inb_S1024x1024_S1024x1024_0_0
abbrev rrow1 : Rect S1x1024 := Rect.unit (s := S1x1024) ![0, 0] S1x1024.size inb_S1x1024_S1x1024_0_0

/-! ## What the body leaves in the output window's buffer -/

/-- The output block after the body: its one store, of the rounded product-plus-bias of the three input blocks,
    over the whole buffer. -/
def out1_3 (x0 : Vec F S1024x1024 .f32) (x1 : Vec F S1024x1024 .bf16) (x2 : Vec F S1x1024 .f32) : Vec F S1024x1024 .bf16 :=
  View.canon [⟨rblk1, k1_pay1 (View.ld x0 rblk1) (View.ld x1 rblk1) (View.ld x2 rrow1)⟩]

/-- The one store covers the buffer. -/
theorem cover1_3 (p0 : Vec F S1024x1024 .bf16) (y : S1024x1024.Idx) :
    ∃ pc ∈ ([⟨rblk1, p0⟩] : List (View.Piece (Elt F) S1024x1024 .bf16)), y ∈ pc.1.set :=
  View.cover_of_tiled [⟨rblk1, p0⟩] S1024x1024.size (by rfl) y

/-! ## The body's triple -/

set_option maxHeartbeats 1000000 in
/-- The body on whole staging memrefs — the three inputs' at read contents `x0 x1 x2`, the output's at anything — runs to
    the continuation holding the inputs' as they were and the output's at `out1_3` of them. The body also reads the
    output buffer before overwriting it; nothing depends on what it reads there. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them (`V`); after the body at point `t`
    each input's buffer still at its block, and the output's at `out1_3` of the three input blocks; the invariant is the
    untouched rest of the core's state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- The invariant is the untouched rest of the core's state at every point: entering and leaving the region are identities. -/
theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.Kernel.Hand

end
-- ==== Proof.Kernel.Reg2.lean ====
import proofs.«101729_j45303315038988_2_alg».proof.Proof.Gen.Kernel.Launch
import proofs.«101729_j45303315038988_2_alg».proof.Proof.Gen.Kernel.Skeleton
import proofs.«101729_j45303315038988_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The linear map of the third projection, v = p·Wgᵀ + bg: one row block of 1024 rows per grid point, the weight and the bias held across the grid -/

/-! ## The windows' blocks -/

/-- Window `w`'s block at grid point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the left factor (window 0, fetched at every point) is in its current staging buffer at every
    point, for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix (window 1) is fetched at the first point only; its block index never moves, so its staging
    buffer holds the same (whole) block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row (window 2), likewise fetched once and held. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev rblk2 : Rect S1024x1024 := Rect.unit (s := S1024x1024) ![0, 0] S1024x1024.size inb_S1024x1024_S1024x1024_0_0
abbrev rrow2 : Rect S1x1024 := Rect.unit (s := S1x1024) ![0, 0] S1x1024.size inb_S1x1024_S1x1024_0_0

/-! ## What the body leaves in the output window's buffer -/

/-- The output block after the body: its one store, of the rounded product-plus-bias of the three input blocks,
    over the whole buffer. -/
def out2_3 (x0 : Vec F S1024x1024 .f32) (x1 : Vec F S1024x1024 .bf16) (x2 : Vec F S1x1024 .f32) : Vec F S1024x1024 .bf16 :=
  View.canon [⟨rblk2, k2_pay1 (View.ld x0 rblk2) (View.ld x1 rblk2) (View.ld x2 rrow2)⟩]

/-- The one store covers the buffer. -/
theorem cover2_3 (p0 : Vec F S1024x1024 .bf16) (y : S1024x1024.Idx) :
    ∃ pc ∈ ([⟨rblk2, p0⟩] : List (View.Piece (Elt F) S1024x1024 .bf16)), y ∈ pc.1.set :=
  View.cover_of_tiled [⟨rblk2, p0⟩] S1024x1024.size (by rfl) y

/-! ## The body's triple -/

set_option maxHeartbeats 1000000 in
/-- The body on whole staging memrefs — the three inputs' at read contents `x0 x1 x2`, the output's at anything — runs to
    the continuation holding the inputs' as they were and the output's at `out2_3` of them. The body also reads the
    output buffer before overwriting it; nothing depends on what it reads there. -/
theorem sound_kernel2 (c : Dev nD) (E : Set ℕ) (i : grid2.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them (`V`); after the body at point `t`
    each input's buffer still at its block, and the output's at `out2_3` of the three input blocks; the invariant is the
    untouched rest of the core's state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- The invariant is the untouched rest of the core's state at every point: entering and leaving the region are identities. -/
theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.Kernel.Hand

end
-- ==== Proof.Kernel.Reg3.Runs.lean ====
import proofs.«101729_j45303315038988_2_alg».proof.Proof.Gen.Kernel.Launch
import proofs.«101729_j45303315038988_2_alg».proof.Proof.Gen.Kernel.Skeleton
import proofs.«101729_j45303315038988_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 3 (the log-sum-exp over query blocks): what its three cases' runs share -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query block's staging buffer holds its block at every point, for any proof data whose array is `V`'s
    and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The key block's staging buffer holds its block at every point, fetched there (the first query block of a
    row) or not (the block index has not moved since). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions: the first query block of a row, the last one -/

/-- The reset branch's condition (the query-block coordinate is 0), as the kernel computes it. -/
abbrev cond3_0 (i : grid3.Coords) : Prop := (Scalar.cmpi .ne (Scalar.extui (Scalar.cmpi .eq (BitVec.ofNat 32 (i 1).val) 0#32)) 0#32) = 1#1
/-- It holds at the points ≡ 0 (mod 16). -/
theorem hcond3_0 : ∀ t : Fin cfg3.N, cond3_0 (grid3.coords t) ↔ t.val % 16 = 0 :=
  (by decide +kernel : ∀ t : Fin grid3.N, cond3_0 (grid3.coords t) ↔ t.val % 16 = 0)

/-- The final branch's condition (the query-block coordinate is 15). -/
abbrev cond3_1 (i : grid3.Coords) : Prop := k3_cond2 i = 1#1
/-- It holds at the points ≡ 15 (mod 16). -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle -/

/-- The query and key windows are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
/-- At a row's first query block the output block is idle and not written back. -/
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
/-- At a row's middle query blocks the output block is idle and not written back. -/
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
/-- At a row's last query block the output block is live: the log-sum-exp is stored there. -/
theorem liveAt3_2_C : ∀ t : Fin cfg3.N, ¬cond3_0 (grid3.coords t) → cond3_1 (grid3.coords t) → cfg3.idle 2 (grid3.coords t) = false := by decide +kernel

/-! ## The memrefs the body is called with -/

/-- One staging buffer of the output window, through which its contents are stated. -/
abbrev VO3_2 : View sig .tc .vmem S2048x1 .f32 := (Memref.whole cc3_stg2_0 : Memref sig .tc .vmem S2048x1 .f32).view
/-- Each window's current staging memref at point `t`, and its wholeness. -/
abbrev ms3_0 (t : Fin cfg3.N) : Memref sig .tc .vmem S512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
/-- The running maximum and the running sum: whole scoped buffers of the kernel's own. -/
abbrev scM3_0 : Memref sig .tc .vmem S2048x1 .f32 := Memref.whole cc3_scratch0
abbrev scM3_1 : Memref sig .tc .vmem S2048x1 .f32 := Memref.whole cc3_scratch1
/-- The same as views: what they hold is stated through these. -/
abbrev VS3_0 : View sig .tc .vmem S2048x1 .f32 := scM3_0.view
abbrev VS3_1 : View sig .tc .vmem S2048x1 .f32 := scM3_1.view

/-- The rest of the core's scoped buffers beside the running maximum and sum: untouched by this region. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The region's entry invariant with the two carried buffers as memrefs owned at some contents, the untouched
    remainder of the scoped buffers, and the generator register. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 c) ∗ (∃ r, prngReg c r)) := by
  unfold Pipeline.ΦA; rw [scopedRest3_split]; simp only [scM3_0, scM3_1, owns_whole]; try rfl

end Cert.Kernel.Hand

end
-- ==== Proof.Kernel.Reg3.RunA.lean ====
import proofs.«101729_j45303315038988_2_alg».proof.Proof.Gen.Kernel.Launch
import proofs.«101729_j45303315038988_2_alg».proof.Proof.Gen.Kernel.Skeleton
import proofs.«101729_j45303315038988_2_alg».proof.Proof.Gen.Kernel.Points
import proofs.«101729_j45303315038988_2_alg».proof.Proof.Kernel.Reg3.Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 3, a row's FIRST query block: the running maximum and sum are reset, then updated -/

set_option maxHeartbeats 4000000 in
/-- What the body's stores leave in the output block, the running maximum and the running sum (as pieces, last
    first) at a row's first query block — the reset branch taken, the final one not —, with the proof that on whole
    memrefs (the query and key blocks at `x0`, `x1`; the output block at `xi2`, handed back untouched; the running
    maximum and sum at anything: both are reset before they are read) the body runs to the continuation holding
    the inputs as they were and the two carried buffers with their pieces written. -/
noncomputable def kernelRun3_A (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) :
    Σ' (L2 : List (View.Piece (Elt F) S2048x1 .f32)) (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3_kernel i arg2 harg2 arg3 harg3 arg4 harg4 arg5 harg5 arg6 harg6) K } := by
  refine ⟨[], ?_, ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.Kernel.Reg3.RunB.lean ====
import proofs.«101729_j45303315038988_2_alg».proof.Proof.Gen.Kernel.Launch
import proofs.«101729_j45303315038988_2_alg».proof.Proof.Gen.Kernel.Skeleton
import proofs.«101729_j45303315038988_2_alg».proof.Proof.Gen.Kernel.Points
import proofs.«101729_j45303315038988_2_alg».proof.Proof.Kernel.Reg3.Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 3, a row's MIDDLE query blocks: the running maximum and sum are updated -/

set_option maxHeartbeats 4000000 in
/-- What the body's stores leave in the output block, the running maximum and the running sum (as pieces, last
    first) at a row's middle query blocks — neither branch taken —, with the proof that on whole memrefs (the query
    and key blocks at `x0`, `x1`; the output block at `xi2`, handed back untouched; the running maximum and sum at
    what the point before left, `xs0`, `xs1`) the body runs to the continuation holding the inputs as they were and
    the two carried buffers with their pieces written. -/
noncomputable def kernelRun3_B (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) :
    Σ' (L2 : List (View.Piece (Elt F) S2048x1 .f32)) (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3_kernel i arg2 harg2 arg3 harg3 arg4 harg4 arg5 harg5 arg6 harg6) K } := by
  refine ⟨[], ?_, ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.Kernel.Reg3.RunC.lean ====
import proofs.«101729_j45303315038988_2_alg».proof.Proof.Gen.Kernel.Launch
import proofs.«101729_j45303315038988_2_alg».proof.Proof.Gen.Kernel.Skeleton
import proofs.«101729_j45303315038988_2_alg».proof.Proof.Gen.Kernel.Points
import proofs.«101729_j45303315038988_2_alg».proof.Proof.Kernel.Reg3.Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 3, a row's LAST query block: the running maximum and sum are updated, the log-sum-exp is stored -/

set_option maxHeartbeats 4000000 in
/-- What the body's stores leave in the output block, the running maximum and the running sum (as pieces, last
    first) at a row's last query block — the final branch taken, the reset one not —, with the proof that on whole
    memrefs (the query and key blocks at `x0`, `x1`; the output block at anything; the running maximum and sum at
    what the point before left, `xs0`, `xs1`) the body runs to the continuation holding the inputs as they were
    and the output block and the two carried buffers with their pieces written. -/
noncomputable def kernelRun3_C (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) :
    Σ' (L2 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3_kernel i arg2 harg2 arg3 harg3 arg4 harg4 arg5 harg5 arg6 harg6) K } := by
  refine ⟨?_, ?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.Kernel.Reg3.lean ====
import proofs.«101729_j45303315038988_2_alg».proof.Proof.Gen.Kernel.Launch
import proofs.«101729_j45303315038988_2_alg».proof.Proof.Gen.Kernel.Skeleton
import proofs.«101729_j45303315038988_2_alg».proof.Proof.Gen.Kernel.Points
import proofs.«101729_j45303315038988_2_alg».proof.Proof.Kernel.Reg3.RunA
import proofs.«101729_j45303315038988_2_alg».proof.Proof.Kernel.Reg3.RunB
import proofs.«101729_j45303315038988_2_alg».proof.Proof.Kernel.Reg3.RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 3: per key row, the log-sum-exp over the queries, by a running maximum and a running sum carried
   over the sixteen query blocks of the row — the frame half, at the region-entry contents `V` -/

/-! ## What each case leaves in the output block and in the two carried buffers -/

/-- The first query block stores nothing into the output block (idle there, not written back): no pieces, a
    placeholder nothing consults. -/
def out3_A_2 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) : Vec F S2048x1 .f32 :=
  VO3_2.read (Elt F) (VO3_2.writes (Elt F) VO3_2.junk (kernelRun3_A c i arg2 harg2 arg3 harg3 arg4 harg4 arg5 harg5 arg6 harg6 hc0 hc1 x0 x1).1)

/-- The first query block's pieces for the running maximum cover it (whole-block stores). -/
theorem scover3_A_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) (y : S2048x1.Idx) :
    ∃ pc ∈ (kernelRun3_A c i arg2 harg2 arg3 harg3 arg4 harg4 arg5 harg5 arg6 harg6 hc0 hc1 x0 x1).2.1, y ∈ pc.1.set :=
  View.cover_of_tiledL (kernelRun3_A c i arg2 harg2 arg3 harg3 arg4 harg4 arg5 harg5 arg6 harg6 hc0 hc1 x0 x1).2.1 S2048x1.size (by sl_kernel_rfl) y

/-- What the first query block leaves in the running maximum. -/
def sout3_A_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) : Vec F S2048x1 .f32 :=
  VS3_0.read (Elt F) (VS3_0.writes (Elt F) VS3_0.junk (kernelRun3_A c i arg2 harg2 arg3 harg3 arg4 harg4 arg5 harg5 arg6 harg6 hc0 hc1 x0 x1).2.1)

/-- The first query block's pieces for the running sum cover it (whole-block stores). -/
theorem scover3_A_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) (y : S2048x1.Idx) :
    ∃ pc ∈ (kernelRun3_A c i arg2 harg2 arg3 harg3 arg4 harg4 arg5 harg5 arg6 harg6 hc0 hc1 x0 x1).2.2.1, y ∈ pc.1.set :=
  View.cover_of_tiledL (kernelRun3_A c i arg2 harg2 arg3 harg3 arg4 harg4 arg5 harg5 arg6 harg6 hc0 hc1 x0 x1).2.2.1 S2048x1.size (by sl_kernel_rfl) y

/-- What the first query block leaves in the running sum. -/
def sout3_A_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) : Vec F S2048x1 .f32 :=
  VS3_1.read (Elt F) (VS3_1.writes (Elt F) VS3_1.junk (kernelRun3_A c i arg2 harg2 arg3 harg3 arg4 harg4 arg5 harg5 arg6 harg6 hc0 hc1 x0 x1).2.2.1)

/-- The middle query block stores nothing into the output block (idle there, not written back): no pieces, a
    placeholder nothing consults. -/
def out3_B_2 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) : Vec F S2048x1 .f32 :=
  VO3_2.read (Elt F) (VO3_2.writes (Elt F) VO3_2.junk (kernelRun3_B c i arg2 harg2 arg3 harg3 arg4 harg4 arg5 harg5 arg6 harg6 hc0 hc1 x0 x1 xs0 xs1).1)

/-- The middle query block's pieces for the running maximum cover it (whole-block stores). -/
theorem scover3_B_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) (y : S2048x1.Idx) :
    ∃ pc ∈ (kernelRun3_B c i arg2 harg2 arg3 harg3 arg4 harg4 arg5 harg5 arg6 harg6 hc0 hc1 x0 x1 xs0 xs1).2.1, y ∈ pc.1.set :=
  View.cover_of_tiledL (kernelRun3_B c i arg2 harg2 arg3 harg3 arg4 harg4 arg5 harg5 arg6 harg6 hc0 hc1 x0 x1 xs0 xs1).2.1 S2048x1.size (by sl_kernel_rfl) y

/-- What the middle query block leaves in the running maximum. -/
def sout3_B_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) : Vec F S2048x1 .f32 :=
  VS3_0.read (Elt F) (VS3_0.writes (Elt F) VS3_0.junk (kernelRun3_B c i arg2 harg2 arg3 harg3 arg4 harg4 arg5 harg5 arg6 harg6 hc0 hc1 x0 x1 xs0 xs1).2.1)

/-- The middle query block's pieces for the running sum cover it (whole-block stores). -/
theorem scover3_B_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) (y : S2048x1.Idx) :
    ∃ pc ∈ (kernelRun3_B c i arg2 harg2 arg3 harg3 arg4 harg4 arg5 harg5 arg6 harg6 hc0 hc1 x0 x1 xs0 xs1).2.2.1, y ∈ pc.1.set :=
  View.cover_of_tiledL (kernelRun3_B c i arg2 harg2 arg3 harg3 arg4 harg4 arg5 harg5 arg6 harg6 hc0 hc1 x0 x1 xs0 xs1).2.2.1 S2048x1.size (by sl_kernel_rfl) y

/-- What the middle query block leaves in the running sum. -/
def sout3_B_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) : Vec F S2048x1 .f32 :=
  VS3_1.read (Elt F) (VS3_1.writes (Elt F) VS3_1.junk (kernelRun3_B c i arg2 harg2 arg3 harg3 arg4 harg4 arg5 harg5 arg6 harg6 hc0 hc1 x0 x1 xs0 xs1).2.2.1)

/-- The last query block's pieces for the output block tile it (one whole-block store), so they cover it. -/
theorem cover3_C_2 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) (y : S2048x1.Idx) :
    ∃ pc ∈ (kernelRun3_C c i arg2 harg2 arg3 harg3 arg4 harg4 arg5 harg5 arg6 harg6 hc0 hc1 x0 x1 xs0 xs1).1, y ∈ pc.1.set :=
  View.cover_of_tiledL (kernelRun3_C c i arg2 harg2 arg3 harg3 arg4 harg4 arg5 harg5 arg6 harg6 hc0 hc1 x0 x1 xs0 xs1).1 S2048x1.size (by sl_kernel_rfl) y

/-- What the last query block leaves in the output block: the log-sum-exp of the row, its pieces read back. -/
def out3_C_2 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) : Vec F S2048x1 .f32 :=
  VO3_2.read (Elt F) (VO3_2.writes (Elt F) VO3_2.junk (kernelRun3_C c i arg2 harg2 arg3 harg3 arg4 harg4 arg5 harg5 arg6 harg6 hc0 hc1 x0 x1 xs0 xs1).1)

/-- The last query block's pieces for the running maximum cover it (whole-block stores). -/
theorem scover3_C_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) (y : S2048x1.Idx) :
    ∃ pc ∈ (kernelRun3_C c i arg2 harg2 arg3 harg3 arg4 harg4 arg5 harg5 arg6 harg6 hc0 hc1 x0 x1 xs0 xs1).2.1, y ∈ pc.1.set :=
  View.cover_of_tiledL (kernelRun3_C c i arg2 harg2 arg3 harg3 arg4 harg4 arg5 harg5 arg6 harg6 hc0 hc1 x0 x1 xs0 xs1).2.1 S2048x1.size (by sl_kernel_rfl) y

/-- What the last query block leaves in the running maximum. -/
def sout3_C_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) : Vec F S2048x1 .f32 :=
  VS3_0.read (Elt F) (VS3_0.writes (Elt F) VS3_0.junk (kernelRun3_C c i arg2 harg2 arg3 harg3 arg4 harg4 arg5 harg5 arg6 harg6 hc0 hc1 x0 x1 xs0 xs1).2.1)

/-- The last query block's pieces for the running sum cover it (whole-block stores). -/
theorem scover3_C_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) (y : S2048x1.Idx) :
    ∃ pc ∈ (kernelRun3_C c i arg2 harg2 arg3 harg3 arg4 harg4 arg5 harg5 arg6 harg6 hc0 hc1 x0 x1 xs0 xs1).2.2.1, y ∈ pc.1.set :=
  View.cover_of_tiledL (kernelRun3_C c i arg2 harg2 arg3 harg3 arg4 harg4 arg5 harg5 arg6 harg6 hc0 hc1 x0 x1 xs0 xs1).2.2.1 S2048x1.size (by sl_kernel_rfl) y

/-- What the last query block leaves in the running sum. -/
def sout3_C_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) : Vec F S2048x1 .f32 :=
  VS3_1.read (Elt F) (VS3_1.writes (Elt F) VS3_1.junk (kernelRun3_C c i arg2 harg2 arg3 harg3 arg4 harg4 arg5 harg5 arg6 harg6 hc0 hc1 x0 x1 xs0 xs1).2.2.1)

/-! ## What the output block, the running maximum and the running sum hold after each point -/

/-- THE RECURRENCE. What the output block's staging buffer, the running maximum and the running sum hold after the
    body at position `n`: the case the position's query-block coordinate selects, run at the point's memrefs and
    input blocks, the carried buffers at what position `n - 1` left. Both conditions at once meet no point. -/
def outsAt3 (c : Dev nD) : (n : ℕ) → n < cfg3.N → Vec F S2048x1 .f32 × Vec F S2048x1 .f32 × Vec F S2048x1 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 16 = 0 then
      if h1 : (n + 1) % 16 = 15 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 16 = 15 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2.1 (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2.1 (outsAt3 c n (Nat.lt_of_succ_lt hn)).2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2.1 (outsAt3 c n (Nat.lt_of_succ_lt hn)).2.2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2.1 (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2.1 (outsAt3 c n (Nat.lt_of_succ_lt hn)).2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2.1 (outsAt3 c n (Nat.lt_of_succ_lt hn)).2.2)

/-- `outsAt3` at a row's first query block. -/
theorem outsAt3_A (c : Dev nD) (t : Fin cfg3.N) (h0 : t.val % 16 = 0) (h1 : ¬t.val % 16 = 15) :
    outsAt3 V c t.val t.isLt = (out3_A_2 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t), sout3_A_1 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a row's middle query blocks: over what the point before left. -/
theorem outsAt3_B (c : Dev nD) (t : Fin cfg3.N) (h0 : ¬t.val % 16 = 0) (h1 : ¬t.val % 16 = 15) :
    outsAt3 V c t.val t.isLt = (out3_B_2 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2, sout3_B_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a row's last query block: over what the point before left. -/
theorem outsAt3_C (c : Dev nD) (t : Fin cfg3.N) (h0 : ¬t.val % 16 = 0) (h1 : t.val % 16 = 15) :
    outsAt3 V c t.val t.isLt = (out3_C_2 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2, sout3_C_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant before position `n`: before the first point what the launch hands the region; afterwards the running
    maximum and the running sum at what the point before left in them, the other scoped buffers untouched, the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2)) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2)) ∗ rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2)) ∗ rest3 c) ∗ (∃ r, prngReg c r)) := by
  cases n with
  | zero => exact absurd rfl hz
  | succ n => rfl

/-! ## The region's proof data -/

/-- The proof data of region 3 on core `c`: the arrays as the region finds them; after the body at point `t` the
    query and key buffers at their blocks and the output buffer at `outsAt3`'s first component; the invariant
    `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
/-- The body at any point: the query and key memrefs hold their blocks; the point's query-block coordinate says which
    case it is in; the invariant hands the body the running maximum and sum at what the point before left (at anything
    at the very first point) and takes them back at this point's contents; the other scoped buffers, the generator
    register and the core's debts pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 16 = 0
  · by_cases h1 : t.val % 16 = 15
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0 sout3_A_1; (try dsimp only)
      by_cases hz : t.val = 0
      · rw [PhiS3_castSucc V c t, PhiS3_zero V c _ _ hz, PhiA3_eq]
        iintro ⟨⟨⟨⟨HS0, HS1⟩, HR⟩, Hg⟩, Ho, ⟨%d0, H0⟩, ⟨%d1, H1⟩, ⟨%d2, H2⟩⟩
        iapply ((kernelRun3_A c (grid3.coords t) _ _ _ _ _ _ _ _ _ _ ((hcond3_0 t).mpr h0) (fun h => h1 ((hcond3_1 t).mp h)) (iblk3 V c 0 t) (iblk3 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_A_0 c _ _ _ _ _ _ _ _ _ _ _ _ _ _ _)
              · unfold owns; iexists _; isplitr
                swap; · iexact HS1
                ipureintro; exact View.read_writes_of_cover _ _ _ _ _ (scover3_A_1 c _ _ _ _ _ _ _ _ _ _ _ _ _ _ _)
            iexact HR
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨⟨HS0, HS1⟩, HR⟩, Hg⟩, Ho, ⟨%d0, H0⟩, ⟨%d1, H1⟩, ⟨%d2, H2⟩⟩
        iapply ((kernelRun3_A c (grid3.coords t) _ _ _ _ _ _ _ _ _ _ ((hcond3_0 t).mpr h0) (fun h => h1 ((hcond3_1 t).mp h)) (iblk3 V c 0 t) (iblk3 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_A_0 c _ _ _ _ _ _ _ _ _ _ _ _ _ _ _)
              · unfold owns; iexists _; isplitr
                swap; · iexact HS1
                ipureintro; exact View.read_writes_of_cover _ _ _ _ _ (scover3_A_1 c _ _ _ _ _ _ _ _ _ _ _ _ _ _ _)
            iexact HR
          iexact Hg
        isplitl [Ho]; · iexact Ho
        isplitl [H0]; · iexact H0
        isplitl [H1]; · iexact H1
        iexists _; iexact H2
  · by_cases h1 : t.val % 16 = 15
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0 sout3_C_1; (try dsimp only)
      by_cases hz : t.val = 0
      · exfalso; omega
      · rw [PhiS3_castSucc V c t, PhiS3_pos V c _ _ hz]
        iintro ⟨⟨⟨⟨HS0, HS1⟩, HR⟩, Hg⟩, Ho, ⟨%d0, H0⟩, ⟨%d1, H1⟩, ⟨%d2, H2⟩⟩
        iapply ((kernelRun3_C c (grid3.coords t) _ _ _ _ _ _ _ _ _ _ (fun h => h0 ((hcond3_0 t).mp h)) ((hcond3_1 t).mpr h1) (iblk3 V c 0 t) (iblk3 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_C_0 c _ _ _ _ _ _ _ _ _ _ _ _ _ _ _ _ _)
              · unfold owns; iexists _; isplitr
                swap; · iexact HS1
                ipureintro; exact View.read_writes_of_cover _ _ _ _ _ (scover3_C_1 c _ _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0 sout3_B_1; (try dsimp only)
      by_cases hz : t.val = 0
      · exfalso; omega
      · rw [PhiS3_castSucc V c t, PhiS3_pos V c _ _ hz]
        iintro ⟨⟨⟨⟨HS0, HS1⟩, HR⟩, Hg⟩, Ho, ⟨%d0, H0⟩, ⟨%d1, H1⟩, ⟨%d2, H2⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_B_0 c _ _ _ _ _ _ _ _ _ _ _ _ _ _ _ _ _)
              · unfold owns; iexists _; isplitr
                swap; · iexact HS1
                ipureintro; exact View.read_writes_of_cover _ _ _ _ _ (scover3_B_1 c _ _ _ _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the entry invariant back: what the running maximum and sum
    hold is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.Kernel.Hand

end
-- ==== Proof.Kernel.Reg4.Runs.lean ====
import proofs.«101729_j45303315038988_2_alg».proof.Proof.Gen.Kernel.Launch
import proofs.«101729_j45303315038988_2_alg».proof.Proof.Gen.Kernel.Skeleton
import proofs.«101729_j45303315038988_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 4: the weighted accumulation exp(s − lse)·v over the key blocks, plus the residual

What the three cases of the body share: the windows' blocks, the closed forms of the two branch conditions over the
grid (both on the key-block coordinate, the point's index mod 16), where the output window is idle, the staging and
scratch memrefs, and the region invariant with the accumulator's buffer singled out of the scoped rest. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (unfetched, the
    block index has not moved), for any proof data whose array is the entry contents and whose body leaves the block
    in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (unfetched, the
    block index has not moved), for any proof data whose array is the entry contents and whose body leaves the block
    in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (unfetched, the
    block index has not moved), for any proof data whose array is the entry contents and whose body leaves the block
    in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (unfetched, the
    block index has not moved), for any proof data whose array is the entry contents and whose body leaves the block
    in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (unfetched, the
    block index has not moved), for any proof data whose array is the entry contents and whose body leaves the block
    in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, in closed form -/

/-- The reset condition (key block 0), as the body computes it from the grid coordinates. -/
abbrev cond4_0 (i : grid4.Coords) : Prop := (Scalar.cmpi .ne (Scalar.extui (Scalar.cmpi .eq (BitVec.ofNat 32 (i 1).val) 0#32)) 0#32) = 1#1
/-- It holds exactly at the first key block of each query block: the points ≡ 0 (mod 16). -/
theorem hcond4_0 : ∀ t : Fin cfg4.N, cond4_0 (grid4.coords t) ↔ t.val % 16 = 0 :=
  (by decide +kernel : ∀ t : Fin grid4.N, cond4_0 (grid4.coords t) ↔ t.val % 16 = 0)

/-- The final condition (key block 15), as the body computes it. -/
abbrev cond4_1 (i : grid4.Coords) : Prop := k4_cond2 i = 1#1
/-- It holds exactly at the last key block of each query block: the points ≡ 15 (mod 16). -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

/-- The five input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- At a first key block the output window is idle (nothing is stored into it) and not written back. -/
theorem idleAt4_5_A : ∀ t : Fin cfg4.N, cond4_0 (grid4.coords t) → ¬cond4_1 (grid4.coords t) → cfg4.idle 5 (grid4.coords t) = true := by decide +kernel
theorem noFlush4_5_A : ∀ t : Fin cfg4.N, cond4_0 (grid4.coords t) → ¬cond4_1 (grid4.coords t) → (cfg4.win 5).flush t = false := by decide +kernel
/-- At a middle key block likewise. -/
theorem idleAt4_5_B : ∀ t : Fin cfg4.N, ¬cond4_0 (grid4.coords t) → ¬cond4_1 (grid4.coords t) → cfg4.idle 5 (grid4.coords t) = true := by decide +kernel
theorem noFlush4_5_B : ∀ t : Fin cfg4.N, ¬cond4_0 (grid4.coords t) → ¬cond4_1 (grid4.coords t) → (cfg4.win 5).flush t = false := by decide +kernel
/-- At a last key block the output window is live: the body stores the finished block into it. -/
theorem liveAt4_5_C : ∀ t : Fin cfg4.N, ¬cond4_0 (grid4.coords t) → cond4_1 (grid4.coords t) → cfg4.idle 5 (grid4.coords t) = false := by decide +kernel

/-! ## The staging and scratch memrefs -/

/-- One staging buffer of the output window, through which its contents are stated (the choice does not matter once
    the stores cover the block). -/
abbrev VO4_5 : View sig .tc .vmem S1024x1024 .f32 := (Memref.whole cc4_stg5_0 : Memref sig .tc .vmem S1024x1024 .f32).view
/-- Each window's current staging memref at point `t`, spelled as the pipeline passes it, and its wholeness. -/
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x1024 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x1024 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x1024 .f32 := win4_5.stage (cfg4.slots t 5)
abbrev hs4_5 (t : Fin cfg4.N) : (ms4_5 t).IsWhole := hstage4_5 ((cfg4.slots t 5).cast nbuf4_5)
/-- The accumulator: a whole scoped buffer of the kernel's own, passed beside the windows and carried between points. -/
abbrev scM4_0 : Memref sig .tc .vmem S1024x1024 .f32 := Memref.whole cc4_scratch0
/-- The accumulator as a view: what it holds is stated through it. -/
abbrev VS4_0 : View sig .tc .vmem S1024x1024 .f32 := scM4_0.view

/-- The region invariant with the accumulator singled out: the accumulator's buffer owned at some contents, the
    rest of the scoped buffers (the other calls' staging and scratch) unopened, and the generator register at some
    state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.Kernel.Reg4.RunA.lean ====
import proofs.«101729_j45303315038988_2_alg».proof.Proof.Kernel.Reg4.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- The body at a FIRST key block (the reset taken, the final branch not): on whole staging memrefs — the five inputs'
    at their contents `x·`, the output's at contents `xi5` handed back untouched (nothing is stored into it), the
    accumulator's at anything (it is reset before it is read) — the body runs to the continuation holding the inputs' and
    the output's as they were and the accumulator with its pieces `LS0` written. The pieces are found by the run. -/
noncomputable def kernelRun4_A (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) :
    Σ' (L5 : List (View.Piece (Elt F) S1024x1024 .f32)), { LS0 : List (View.Piece (Elt F) S1024x1024 .f32) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8) K } := by
  refine ⟨[], ?_, fun xi5 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Kernel.Reg4.RunB.lean ====
import proofs.«101729_j45303315038988_2_alg».proof.Proof.Kernel.Reg4.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- The body at a MIDDLE key block (neither branch taken): the five inputs' staging memrefs at their contents `x·`, the
    output's at contents `xi5` handed back untouched, the accumulator's at what the point before left (`xs0`); the body
    runs to the continuation holding the inputs' and the output's as they were and the accumulator with its pieces
    `LS0` written. The pieces are found by the run. -/
noncomputable def kernelRun4_B (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) :
    Σ' (L5 : List (View.Piece (Elt F) S1024x1024 .f32)), { LS0 : List (View.Piece (Elt F) S1024x1024 .f32) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8) K } := by
  refine ⟨[], ?_, fun xi5 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Kernel.Reg4.RunC.lean ====
import proofs.«101729_j45303315038988_2_alg».proof.Proof.Kernel.Reg4.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- The body at a LAST key block (the final branch taken, the reset not): the five inputs' staging memrefs at their
    contents `x·`, the output's at anything, the accumulator's at what the point before left (`xs0`); the body runs to
    the continuation holding the inputs' as they were, the output's with its pieces `L5` written (residual plus
    accumulator) and the accumulator with its pieces `LS0` written. The pieces are found by the run. -/
noncomputable def kernelRun4_C (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.Kernel.Reg4.lean ====
import proofs.«101729_j45303315038988_2_alg».proof.Proof.Kernel.Reg4.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 4, the frame half: what each case leaves, the accumulation point by point, the proof data and the body
obligation

Per query block the body sweeps the 16 key blocks: it resets the accumulator at the first, adds exp(s − lse)·v at
every one, and at the last stores residual + accumulator into the output block. So the accumulator is carried from
point to point, and the output block is stored (and written back) at the last key block only. -/

/-- At a first key block nothing is stored into the output window (it is idle there and not written back): no pieces — a
    placeholder (junk read back) that nothing consults. -/
def out4_A_5 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) : Vec F S1024x1024 .f32 :=
  VO4_5.read (Elt F) (VO4_5.writes (Elt F) VO4_5.junk (kernelRun4_A c i arg2 harg2 arg3 harg3 arg4 harg4 arg5 harg5 arg6 harg6 arg7 harg7 arg8 harg8 hc0 hc1 x0 x1 x2 x3 x4).1)

/-- The stores into the accumulator at a first key block are of the whole buffer, so their pieces cover it. -/
theorem scover4_A_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) (y : S1024x1024.Idx) :
    ∃ pc ∈ (kernelRun4_A c i arg2 harg2 arg3 harg3 arg4 harg4 arg5 harg5 arg6 harg6 arg7 harg7 arg8 harg8 hc0 hc1 x0 x1 x2 x3 x4).2.1, y ∈ pc.1.set :=
  View.cover_of_tiledL (kernelRun4_A c i arg2 harg2 arg3 harg3 arg4 harg4 arg5 harg5 arg6 harg6 arg7 harg7 arg8 harg8 hc0 hc1 x0 x1 x2 x3 x4).2.1 S1024x1024.size (by sl_kernel_rfl) y

/-- What a first key block leaves in the accumulator: its pieces read back over junk. -/
def sout4_A_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) : Vec F S1024x1024 .f32 :=
  VS4_0.read (Elt F) (VS4_0.writes (Elt F) VS4_0.junk (kernelRun4_A c i arg2 harg2 arg3 harg3 arg4 harg4 arg5 harg5 arg6 harg6 arg7 harg7 arg8 harg8 hc0 hc1 x0 x1 x2 x3 x4).2.1)

/-- At a middle key block nothing is stored into the output window (it is idle there and not written back): no pieces — a
    placeholder (junk read back) that nothing consults. -/
def out4_B_5 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) : Vec F S1024x1024 .f32 :=
  VO4_5.read (Elt F) (VO4_5.writes (Elt F) VO4_5.junk (kernelRun4_B c i arg2 harg2 arg3 harg3 arg4 harg4 arg5 harg5 arg6 harg6 arg7 harg7 arg8 harg8 hc0 hc1 x0 x1 x2 x3 x4 xs0).1)

/-- The stores into the accumulator at a middle key block are of the whole buffer, so their pieces cover it. -/
theorem scover4_B_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) (y : S1024x1024.Idx) :
    ∃ pc ∈ (kernelRun4_B c i arg2 harg2 arg3 harg3 arg4 harg4 arg5 harg5 arg6 harg6 arg7 harg7 arg8 harg8 hc0 hc1 x0 x1 x2 x3 x4 xs0).2.1, y ∈ pc.1.set :=
  View.cover_of_tiledL (kernelRun4_B c i arg2 harg2 arg3 harg3 arg4 harg4 arg5 harg5 arg6 harg6 arg7 harg7 arg8 harg8 hc0 hc1 x0 x1 x2 x3 x4 xs0).2.1 S1024x1024.size (by sl_kernel_rfl) y

/-- What a middle key block leaves in the accumulator: its pieces read back over junk. -/
def sout4_B_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) : Vec F S1024x1024 .f32 :=
  VS4_0.read (Elt F) (VS4_0.writes (Elt F) VS4_0.junk (kernelRun4_B c i arg2 harg2 arg3 harg3 arg4 harg4 arg5 harg5 arg6 harg6 arg7 harg7 arg8 harg8 hc0 hc1 x0 x1 x2 x3 x4 xs0).2.1)

/-- At a last key block the one store into the output window is of the whole block, so its pieces cover it. -/
theorem cover4_C_5 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) (y : S1024x1024.Idx) :
    ∃ pc ∈ (kernelRun4_C c i arg2 harg2 arg3 harg3 arg4 harg4 arg5 harg5 arg6 harg6 arg7 harg7 arg8 harg8 hc0 hc1 x0 x1 x2 x3 x4 xs0).1, y ∈ pc.1.set :=
  View.cover_of_tiledL (kernelRun4_C c i arg2 harg2 arg3 harg3 arg4 harg4 arg5 harg5 arg6 harg6 arg7 harg7 arg8 harg8 hc0 hc1 x0 x1 x2 x3 x4 xs0).1 S1024x1024.size (by sl_kernel_rfl) y

/-- What a last key block leaves in the output window's staging buffer (the residual plus the finished accumulator):
    its pieces read back over junk. -/
def out4_C_5 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) : Vec F S1024x1024 .f32 :=
  VO4_5.read (Elt F) (VO4_5.writes (Elt F) VO4_5.junk (kernelRun4_C c i arg2 harg2 arg3 harg3 arg4 harg4 arg5 harg5 arg6 harg6 arg7 harg7 arg8 harg8 hc0 hc1 x0 x1 x2 x3 x4 xs0).1)

/-- The stores into the accumulator at a last key block are of the whole buffer, so their pieces cover it. -/
theorem scover4_C_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) (y : S1024x1024.Idx) :
    ∃ pc ∈ (kernelRun4_C c i arg2 harg2 arg3 harg3 arg4 harg4 arg5 harg5 arg6 harg6 arg7 harg7 arg8 harg8 hc0 hc1 x0 x1 x2 x3 x4 xs0).2.1, y ∈ pc.1.set :=
  View.cover_of_tiledL (kernelRun4_C c i arg2 harg2 arg3 harg3 arg4 harg4 arg5 harg5 arg6 harg6 arg7 harg7 arg8 harg8 hc0 hc1 x0 x1 x2 x3 x4 xs0).2.1 S1024x1024.size (by sl_kernel_rfl) y

/-- What a last key block leaves in the accumulator: its pieces read back over junk. -/
def sout4_C_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) : Vec F S1024x1024 .f32 :=
  VS4_0.read (Elt F) (VS4_0.writes (Elt F) VS4_0.junk (kernelRun4_C c i arg2 harg2 arg3 harg3 arg4 harg4 arg5 harg5 arg6 harg6 arg7 harg7 arg8 harg8 hc0 hc1 x0 x1 x2 x3 x4 xs0).2.1)

/-! ## What the output window and the accumulator hold after each point -/

/-- THE ACCUMULATION. What the output window's staging buffer and the accumulator hold after the body at position `n`
    (a pair: the output block, the accumulator): the case the closed forms select at `n`, run at the point's memrefs and
    input blocks, the accumulator read at what this leaves at `n - 1`. Both branches taken meets no point. -/
def outsAt4 (c : Dev nD) : (n : ℕ) → n < cfg4.N → Vec F S1024x1024 .f32 × Vec F S1024x1024 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 16 = 0 then
      if h1 : (n + 1) % 16 = 15 then
        False.elim (by omega)
      else
        (out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      if h1 : (n + 1) % 16 = 15 then
        (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)
      else
        (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)

/-- `outsAt4` at a first key block: that case's contents. -/
theorem outsAt4_A (c : Dev nD) (t : Fin cfg4.N) (h0 : t.val % 16 = 0) (h1 : ¬t.val % 16 = 15) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans ((dif_neg h1).trans rfl)

/-- `outsAt4` at a middle key block: that case's contents, over what the point before left in the accumulator. -/
theorem outsAt4_B (c : Dev nD) (t : Fin cfg4.N) (h0 : ¬t.val % 16 = 0) (h1 : ¬t.val % 16 = 15) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a last key block: that case's contents, over what the point before left in the accumulator. -/
theorem outsAt4_C (c : Dev nD) (t : Fin cfg4.N) (h0 : ¬t.val % 16 = 0) (h1 : t.val % 16 = 15) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before position `n`: before the first point the class's invariant (every scoped buffer at anything); afterwards the
    accumulator at what the point before left in it, the remainder of the scoped buffers unopened, and the generator
    register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The proof data of region 4 on core `c`: the arrays as the region finds them (`V`); after the body at point `t` each
    input's buffer at its block and the output's at `outsAt4`'s first component; the invariant `PhiS4`; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
  Φ t := PhiS4 V c t.val (Nat.le_of_lt_succ t.isLt)
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t` (the library's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point: the inputs' memrefs hold their blocks; the closed forms say which case the point is in; the
    invariant hands the body the accumulator at what the point before left (at anything before the first point), the
    remainder of the scoped buffers and the generator register pass through untouched, and the accumulator is taken back
    at this point's contents (its stores cover it); at a last key block the output's stores cover its block, elsewhere
    its buffer is handed back as found; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  by_cases h0 : t.val % 16 = 0
  · by_cases h1 : t.val % 16 = 15
    · exfalso; omega
    · -- a first key block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    · -- a last key block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5_C t (fun h => h0 ((hcond4_0 t).mp h)) ((hcond4_1 t).mpr h1)], after4_5]
      rw [outsAt4_C V c t h0 h1]
      unfold out4_C_5 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover4_C_5 c _ _ _ _ _ _ _ _ _ _ _ _ _ _ _ _ _ _ _ _ _ _ _)
    · -- a middle key block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 128 := N_4; omega)

end Cert.Kernel.Hand

end
-- ==== Proof.Kernel.Run.lean ====
import proofs.«101729_j45303315038988_2_alg».proof.Proof.Kernel.Reg0
import proofs.«101729_j45303315038988_2_alg».proof.Proof.Kernel.Reg1
import proofs.«101729_j45303315038988_2_alg».proof.Proof.Kernel.Reg2
import proofs.«101729_j45303315038988_2_alg».proof.Proof.Kernel.Reg3
import proofs.«101729_j45303315038988_2_alg».proof.Proof.Kernel.Reg4
import proofs.«101729_j45303315038988_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main

Between two items of @main every unscoped buffer of a core holds a definite value: the launch memory, then each
stretch of host operations applied, then, at a region's exit, the region's arrays at what its write-backs leave
and every other buffer as the region found it. -/

/-- Core `c`'s buffers at launch. -/
abbrev W0 : Dev nD → Valuation τ sig (Elt F) := fun c b => (s₀ m ρ).mem ((c : Dev nD), b)
/-- After the first host stretch (the three weights transposed and rounded, the first bias reshaped): region 0's entry. -/
abbrev W1 : Dev nD → Valuation τ sig (Elt F) := fun c => StableHlo.after hostOps0 (W0 m ρ c)
/-- The same contents read at the TensorCore's references. -/
abbrev V1 : (c : Dev nD) → (b : Ref sig .tc) → Buf (Elt F) ((c : Thread nD τ).loc b) := fun c b => W1 m ρ c b
/-- At region 0's exit: its arrays at what the pipeline leaves (an input as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second bias is reshaped: region 1's entry. -/
abbrev W3 : Dev nD → Valuation τ sig (Elt F) := fun c => StableHlo.after hostOps1 (W2 m ρ c)
/-- The same contents read at the TensorCore's references. -/
abbrev V3 : (c : Dev nD) → (b : Ref sig .tc) → Buf (Elt F) ((c : Thread nD τ).loc b) := fun c b => W3 m ρ c b
/-- At region 1's exit: its arrays at what the pipeline leaves (an input as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the third bias is reshaped: region 2's entry. -/
abbrev W5 : Dev nD → Valuation τ sig (Elt F) := fun c => StableHlo.after hostOps2 (W4 m ρ c)
/-- The same contents read at the TensorCore's references. -/
abbrev V5 : (c : Dev nD) → (b : Ref sig .tc) → Buf (Elt F) ((c : Thread nD τ).loc b) := fun c b => W5 m ρ c b
/-- At region 2's exit: its arrays at what the pipeline leaves (an input as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- At region 3's exit: its arrays at what the pipeline leaves (an input as entered, the output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same contents read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After the log-sum-exp column is reshaped to a row: region 4's entry. -/
abbrev W8 : Dev nD → Valuation τ sig (Elt F) := fun c => StableHlo.after hostOps4 (W7 m ρ c)
/-- The same contents read at the TensorCore's references. -/
abbrev V8 : (c : Dev nD) → (b : Ref sig .tc) → Buf (Elt F) ((c : Thread nD τ).loc b) := fun c b => W8 m ρ c b
/-- At region 4's exit: its arrays at what the pipeline leaves (an input as entered, the output's write-backs
    folded), every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same contents read at the TensorCore's references. -/
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-! ## What each item leaves unchanged -/

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- Region 0 changes only its output array `main_v7`: an input window's array is written back nowhere, and a
    buffer that is no window's array is not touched. -/
theorem W2_keep (c : Dev nD) (b : Ref sig .tc) (hb : b ≠ main_v7) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => rfl
      | ⟨3, _⟩ => exact absurd rfl hb
    exact (W2_arr m ρ c w).trans (((dat0 (V1 m ρ) c).arrAt_in w hin _).trans (A_eq0 (V1 m ρ) c w))
  · exact W2_of_ne m ρ c b fun w e => h ⟨w, e⟩
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- Region 1 changes only its output array `main_v9`: an input window's array is written back nowhere, and a
    buffer that is no window's array is not touched. -/
theorem W4_keep (c : Dev nD) (b : Ref sig .tc) (hb : b ≠ main_v9) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => exact absurd rfl hb
    exact (W4_arr m ρ c w).trans (((dat1 (V3 m ρ) c).arrAt_in w hin _).trans (A_eq1 (V3 m ρ) c w))
  · exact W4_of_ne m ρ c b fun w e => h ⟨w, e⟩
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- Region 2 changes only its output array `main_v11`: an input window's array is written back nowhere, and a
    buffer that is no window's array is not touched. -/
theorem W6_keep (c : Dev nD) (b : Ref sig .tc) (hb : b ≠ main_v11) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      match w with
      | ⟨0, _⟩ => rfl
      | ⟨1, _⟩ => rfl
      | ⟨2, _⟩ => rfl
      | ⟨3, _⟩ => exact absurd rfl hb
    exact (W6_arr m ρ c w).trans (((dat2 (V5 m ρ) c).arrAt_in w hin _).trans (A_eq2 (V5 m ρ) c w))
  · exact W6_of_ne m ρ c b fun w e => h ⟨w, e⟩
/-- Region 3 changes only its output array `main_v12`: an input window's array is written back nowhere, and a
    buffer that is no window's array is not touched. -/
theorem W7_keep (c : Dev nD) (b : Ref sig .tc) (hb : b ≠ main_v12) :
    W7 m ρ c (Proc.devRef .tc b) = W6 m ρ c (Proc.devRef .tc b) := by
  by_cases h : ∃ w, Pipeline.arrRef spec3 w = b
  · obtain ⟨w, rfl⟩ := h
    have hin : (cfg3.win w).isOut = false := by
      match w with
      | ⟨0, _⟩ => rfl
      | ⟨1, _⟩ => rfl
      | ⟨2, _⟩ => exact absurd rfl hb
    exact (W7_arr m ρ c w).trans (((dat3 (V6 m ρ) c).arrAt_in w hin _).trans (A_eq3 (V6 m ρ) c w))
  · exact W7_of_ne m ρ c b fun w e => h ⟨w, e⟩
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h
/-- Region 4 changes only its output array `main_v14`: an input window's array is written back nowhere, and a
    buffer that is no window's array is not touched. -/
theorem W9_keep (c : Dev nD) (b : Ref sig .tc) (hb : b ≠ main_v14) :
    W9 m ρ c (Proc.devRef .tc b) = W8 m ρ c (Proc.devRef .tc b) := by
  by_cases h : ∃ w, Pipeline.arrRef spec4 w = b
  · obtain ⟨w, rfl⟩ := h
    have hin : (cfg4.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W9_arr m ρ c w).trans (((dat4 (V8 m ρ) c).arrAt_in w hin _).trans (A_eq4 (V8 m ρ) c w))
  · exact W9_of_ne m ρ c b fun w e => h ⟨w, e⟩

/-- A buffer that no host operation writes and that is no region's output array reaches the end as launched. -/
theorem W9_launch (c : Dev nD) (r : Ref sig .tc)
    (h0 : r ∉ hostOps0_W) (h1 : r ≠ main_v7) (h2 : r ∉ hostOps1_W) (h3 : r ≠ main_v9) (h4 : r ∉ hostOps2_W) (h5 : r ≠ main_v11)
    (h6 : r ≠ main_v12) (h7 : r ∉ hostOps4_W) (h8 : r ≠ main_v14) :
    W9 m ρ c (Proc.devRef .tc r) = m ((c : Thread nD τ).loc r) :=
  (W9_keep m ρ c r h8).trans <| (W8_keep m ρ c r h7).trans <| (W7_keep m ρ c r h6).trans <| (W6_keep m ρ c r h5).trans <|
    (W5_keep m ρ c r h4).trans <| (W4_keep m ρ c r h3).trans <| (W3_keep m ρ c r h2).trans <| (W2_keep m ρ c r h1).trans <|
    (W1_keep m ρ c r h0).trans rfl

/-! ## The proof data family and the thread state -/

/-- No pallas_call of this program has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at `W1`, left with them at `W2`. Its arrays
    are split out of the unscoped buffers at entry and put back at the exit contents; the generator register and the
    scoped rest pass through the region's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays
    are split out of the unscoped buffers at entry and put back at the exit contents; the generator register and the
    scoped rest pass through the region's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its arrays
    are split out of the unscoped buffers at entry and put back at the exit contents; the generator register and the
    scoped rest pass through the region's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans (show (Pipeline.ΦA spec2 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W6`, left with them at `W7`. Its arrays
    are split out of the unscoped buffers at entry and put back at the exit contents; the generator register and the
    scoped rest pass through the region's invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from ?_).trans (hin3 (V6 m ρ) c)
    unfold Pipeline.ΦA
    iintro ⟨Hp, -, Hr⟩
    isplitl [Hr]; · iexact Hr
    iexact Hp
  hout c := by
    rw [Pipeline.ownSems0_none]
    refine (hout3 (V6 m ρ) c).trans (show (Pipeline.ΦA spec3 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W8`, left with them at `W9`. Its arrays
    are split out of the unscoped buffers at entry and put back at the exit contents; the generator register and the
    scoped rest pass through the region's invariant; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec4 c : sProp 𝕄) from ?_).trans (hin4 (V8 m ρ) c)
    unfold Pipeline.ΦA
    iintro ⟨Hp, -, Hr⟩
    isplitl [Hr]; · iexact Hr
    iexact Hp
  hout c := by
    rw [Pipeline.ownSems0_none]
    refine (hout4 (V8 m ρ) c).trans (show (Pipeline.ΦA spec4 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ) ]
/-- @main is the run of these segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and in
    every final state each unscoped buffer of each core holds the last boundary's contents `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
        show iprop(StableHlo.held (c : Thread nD τ) (Pipeline.ucRefs τ sig) (W9 m ρ c) ∗ (∃ r, prngReg c r) ∗ ∃ W, owes (c : Thread nD τ) (0 : CellTallies nD τ sig Unit) W) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-! ## What the run gives -/

/-- Every argument array ends as launched, and the result buffer `main_v14` ends at the last boundary's contents. -/
theorem run_result : θ_run defs (onTc (τ := τ) (main (F := F))) ⟨m, fun _ => 0, ρ⟩ (fun r => ∀ c : Dev nD,
      r.2.mem ((c.tc : Thread nD τ).loc main_v14) = W9 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v14 (by decide)),
    (h c _ (mem_uc main_arg0 (by decide))).trans (W9_launch m ρ c main_arg0 (by decide) (by decide) (by decide) (by decide) (by decide) (by decide) (by decide) (by decide) (by decide)),
    (h c _ (mem_uc main_arg1 (by decide))).trans (W9_launch m ρ c main_arg1 (by decide) (by decide) (by decide) (by decide) (by decide) (by decide) (by decide) (by decide) (by decide)),
    (h c _ (mem_uc main_arg2 (by decide))).trans (W9_launch m ρ c main_arg2 (by decide) (by decide) (by decide) (by decide) (by decide) (by decide) (by decide) (by decide) (by decide)),
    (h c _ (mem_uc main_arg3 (by decide))).trans (W9_launch m ρ c main_arg3 (by decide) (by decide) (by decide) (by decide) (by decide) (by decide) (by decide) (by decide) (by decide)),
    (h c _ (mem_uc main_arg4 (by decide))).trans (W9_launch m ρ c main_arg4 (by decide) (by decide) (by decide) (by decide) (by decide) (by decide) (by decide) (by decide) (by decide)),
    (h c _ (mem_uc main_arg5 (by decide))).trans (W9_launch m ρ c main_arg5 (by decide) (by decide) (by decide) (by decide) (by decide) (by decide) (by decide) (by decide) (by decide)),
    (h c _ (mem_uc main_arg6 (by decide))).trans (W9_launch m ρ c main_arg6 (by decide) (by decide) (by decide) (by decide) (by decide) (by decide) (by decide) (by decide) (by decide)),
    (h c _ (mem_uc main_arg7 (by decide))).trans (W9_launch m ρ c main_arg7 (by decide) (by decide) (by decide) (by decide) (by decide) (by decide) (by decide) (by decide) (by decide))⟩) (run m ρ)

/-- The frame: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_result m ρ)

end Cert.Kernel.Hand

end
-- ==== Proof.KernelIdeal.Reg0.lean ====
import proofs.«101729_j45303315038988_2_alg».proof.Proof.Gen.KernelIdeal.Launch
import proofs.«101729_j45303315038988_2_alg».proof.Proof.Gen.KernelIdeal.Skeleton
import proofs.«101729_j45303315038988_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The linear map of the first projection, q = p·Whᵀ + bh: one row block of 1024 rows per grid point, the weight and the bias held across the grid -/

/-! ## The windows' blocks -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left factor (window 0, fetched at every point) is in its current staging buffer at every
    point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix (window 1) is fetched at the first point only; its block index never moves, so its staging
    buffer holds the same (whole) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row (window 2), likewise fetched once and held. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rblk0 : Rect S1024x1024 := Rect.unit (s := S1024x1024) ![0, 0] S1024x1024.size inb_S1024x1024_S1024x1024_0_0
abbrev rrow0 : Rect S1x1024 := Rect.unit (s := S1x1024) ![0, 0] S1x1024.size inb_S1x1024_S1x1024_0_0

/-! ## What the body leaves in the output window's buffer -/

/-- The output block after the body: its one store, of the rounded product-plus-bias of the three input blocks,
    over the whole buffer. -/
def out0_3 (x0 : Vec F S1024x1024 .f32) (x1 : Vec F S1024x1024 .bf16) (x2 : Vec F S1x1024 .f32) : Vec F S1024x1024 .bf16 :=
  View.canon [⟨rblk0, k0_pay1 (View.ld x0 rblk0) (View.ld x1 rblk0) (View.ld x2 rrow0)⟩]

/-- The one store covers the buffer. -/
theorem cover0_3 (p0 : Vec F S1024x1024 .bf16) (y : S1024x1024.Idx) :
    ∃ pc ∈ ([⟨rblk0, p0⟩] : List (View.Piece (Elt F) S1024x1024 .bf16)), y ∈ pc.1.set :=
  View.cover_of_tiled [⟨rblk0, p0⟩] S1024x1024.size (by rfl) y

/-! ## The body's triple -/

set_option maxHeartbeats 1000000 in
/-- The body on whole staging memrefs — the three inputs' at read contents `x0 x1 x2`, the output's at anything — runs to
    the continuation holding the inputs' as they were and the output's at `out0_3` of them. The body also reads the
    output buffer before overwriting it; nothing depends on what it reads there. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them (`V`); after the body at point `t`
    each input's buffer still at its block, and the output's at `out0_3` of the three input blocks; the invariant is the
    untouched rest of the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- The invariant is the untouched rest of the core's state at every point: entering and leaving the region are identities. -/
theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Hand

end
-- ==== Proof.KernelIdeal.Reg1.lean ====
import proofs.«101729_j45303315038988_2_alg».proof.Proof.Gen.KernelIdeal.Launch
import proofs.«101729_j45303315038988_2_alg».proof.Proof.Gen.KernelIdeal.Skeleton
import proofs.«101729_j45303315038988_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The linear map of the second projection, k = r·Wlᵀ + bl: one row block of 1024 rows per grid point, the weight and the bias held across the grid -/

/-! ## The windows' blocks -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left factor (window 0, fetched at every point) is in its current staging buffer at every
    point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix (window 1) is fetched at the first point only; its block index never moves, so its staging
    buffer holds the same (whole) block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row (window 2), likewise fetched once and held. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rblk1 : Rect S1024x1024 := Rect.unit (s := S1024x1024) ![0, 0] S1024x1024.size inb_S1024x1024_S1024x1024_0_0
abbrev rrow1 : Rect S1x1024 := Rect.unit (s := S1x1024) ![0, 0] S1x1024.size inb_S1x1024_S1x1024_0_0

/-! ## What the body leaves in the output window's buffer -/

/-- The output block after the body: its one store, of the rounded product-plus-bias of the three input blocks,
    over the whole buffer. -/
def out1_3 (x0 : Vec F S1024x1024 .f32) (x1 : Vec F S1024x1024 .bf16) (x2 : Vec F S1x1024 .f32) : Vec F S1024x1024 .bf16 :=
  View.canon [⟨rblk1, k1_pay1 (View.ld x0 rblk1) (View.ld x1 rblk1) (View.ld x2 rrow1)⟩]

/-- The one store covers the buffer. -/
theorem cover1_3 (p0 : Vec F S1024x1024 .bf16) (y : S1024x1024.Idx) :
    ∃ pc ∈ ([⟨rblk1, p0⟩] : List (View.Piece (Elt F) S1024x1024 .bf16)), y ∈ pc.1.set :=
  View.cover_of_tiled [⟨rblk1, p0⟩] S1024x1024.size (by rfl) y

/-! ## The body's triple -/

set_option maxHeartbeats 1000000 in
/-- The body on whole staging memrefs — the three inputs' at read contents `x0 x1 x2`, the output's at anything — runs to
    the continuation holding the inputs' as they were and the output's at `out1_3` of them. The body also reads the
    output buffer before overwriting it; nothing depends on what it reads there. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them (`V`); after the body at point `t`
    each input's buffer still at its block, and the output's at `out1_3` of the three input blocks; the invariant is the
    untouched rest of the core's state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- The invariant is the untouched rest of the core's state at every point: entering and leaving the region are identities. -/
theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.KernelIdeal.Hand

end
-- ==== Proof.KernelIdeal.Reg2.lean ====
import proofs.«101729_j45303315038988_2_alg».proof.Proof.Gen.KernelIdeal.Launch
import proofs.«101729_j45303315038988_2_alg».proof.Proof.Gen.KernelIdeal.Skeleton
import proofs.«101729_j45303315038988_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The linear map of the third projection, v = p·Wgᵀ + bg: one row block of 1024 rows per grid point, the weight and the bias held across the grid -/

/-! ## The windows' blocks -/

/-- Window `w`'s block at grid point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the left factor (window 0, fetched at every point) is in its current staging buffer at every
    point, for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix (window 1) is fetched at the first point only; its block index never moves, so its staging
    buffer holds the same (whole) block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row (window 2), likewise fetched once and held. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev rblk2 : Rect S1024x1024 := Rect.unit (s := S1024x1024) ![0, 0] S1024x1024.size inb_S1024x1024_S1024x1024_0_0
abbrev rrow2 : Rect S1x1024 := Rect.unit (s := S1x1024) ![0, 0] S1x1024.size inb_S1x1024_S1x1024_0_0

/-! ## What the body leaves in the output window's buffer -/

/-- The output block after the body: its one store, of the rounded product-plus-bias of the three input blocks,
    over the whole buffer. -/
def out2_3 (x0 : Vec F S1024x1024 .f32) (x1 : Vec F S1024x1024 .bf16) (x2 : Vec F S1x1024 .f32) : Vec F S1024x1024 .bf16 :=
  View.canon [⟨rblk2, k2_pay1 (View.ld x0 rblk2) (View.ld x1 rblk2) (View.ld x2 rrow2)⟩]

/-- The one store covers the buffer. -/
theorem cover2_3 (p0 : Vec F S1024x1024 .bf16) (y : S1024x1024.Idx) :
    ∃ pc ∈ ([⟨rblk2, p0⟩] : List (View.Piece (Elt F) S1024x1024 .bf16)), y ∈ pc.1.set :=
  View.cover_of_tiled [⟨rblk2, p0⟩] S1024x1024.size (by rfl) y

/-! ## The body's triple -/

set_option maxHeartbeats 1000000 in
/-- The body on whole staging memrefs — the three inputs' at read contents `x0 x1 x2`, the output's at anything — runs to
    the continuation holding the inputs' as they were and the output's at `out2_3` of them. The body also reads the
    output buffer before overwriting it; nothing depends on what it reads there. -/
theorem sound_kernel2 (c : Dev nD) (E : Set ℕ) (i : grid2.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them (`V`); after the body at point `t`
    each input's buffer still at its block, and the output's at `out2_3` of the three input blocks; the invariant is the
    untouched rest of the core's state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- The invariant is the untouched rest of the core's state at every point: entering and leaving the region are identities. -/
theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.KernelIdeal.Hand

end
-- ==== Proof.KernelIdeal.Reg3.Runs.lean ====
import proofs.«101729_j45303315038988_2_alg».proof.Proof.Gen.KernelIdeal.Launch
import proofs.«101729_j45303315038988_2_alg».proof.Proof.Gen.KernelIdeal.Skeleton
import proofs.«101729_j45303315038988_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 3 (the log-sum-exp over query blocks): what its three cases' runs share -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query block's staging buffer holds its block at every point, for any proof data whose array is `V`'s
    and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The key block's staging buffer holds its block at every point, fetched there (the first query block of a
    row) or not (the block index has not moved since). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions: the first query block of a row, the last one -/

/-- The reset branch's condition (the query-block coordinate is 0), as the kernel computes it. -/
abbrev cond3_0 (i : grid3.Coords) : Prop := (Scalar.cmpi .ne (Scalar.extui (Scalar.cmpi .eq (BitVec.ofNat 32 (i 1).val) 0#32)) 0#32) = 1#1
/-- It holds at the points ≡ 0 (mod 16). -/
theorem hcond3_0 : ∀ t : Fin cfg3.N, cond3_0 (grid3.coords t) ↔ t.val % 16 = 0 :=
  (by decide +kernel : ∀ t : Fin grid3.N, cond3_0 (grid3.coords t) ↔ t.val % 16 = 0)

/-- The final branch's condition (the query-block coordinate is 15). -/
abbrev cond3_1 (i : grid3.Coords) : Prop := k3_cond2 i = 1#1
/-- It holds at the points ≡ 15 (mod 16). -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle -/

/-- The query and key windows are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
/-- At a row's first query block the output block is idle and not written back. -/
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
/-- At a row's middle query blocks the output block is idle and not written back. -/
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
/-- At a row's last query block the output block is live: the log-sum-exp is stored there. -/
theorem liveAt3_2_C : ∀ t : Fin cfg3.N, ¬cond3_0 (grid3.coords t) → cond3_1 (grid3.coords t) → cfg3.idle 2 (grid3.coords t) = false := by decide +kernel

/-! ## The memrefs the body is called with -/

/-- One staging buffer of the output window, through which its contents are stated. -/
abbrev VO3_2 : View sig .tc .vmem S2048x1 .f32 := (Memref.whole cc3_stg2_0 : Memref sig .tc .vmem S2048x1 .f32).view
/-- Each window's current staging memref at point `t`, and its wholeness. -/
abbrev ms3_0 (t : Fin cfg3.N) : Memref sig .tc .vmem S512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
/-- The running maximum and the running sum: whole scoped buffers of the kernel's own. -/
abbrev scM3_0 : Memref sig .tc .vmem S2048x1 .f32 := Memref.whole cc3_scratch0
abbrev scM3_1 : Memref sig .tc .vmem S2048x1 .f32 := Memref.whole cc3_scratch1
/-- The same as views: what they hold is stated through these. -/
abbrev VS3_0 : View sig .tc .vmem S2048x1 .f32 := scM3_0.view
abbrev VS3_1 : View sig .tc .vmem S2048x1 .f32 := scM3_1.view

/-- The rest of the core's scoped buffers beside the running maximum and sum: untouched by this region. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The region's entry invariant with the two carried buffers as memrefs owned at some contents, the untouched
    remainder of the scoped buffers, and the generator register. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 c) ∗ (∃ r, prngReg c r)) := by
  unfold Pipeline.ΦA; rw [scopedRest3_split]; simp only [scM3_0, scM3_1, owns_whole]; try rfl

end Cert.KernelIdeal.Hand

end
-- ==== Proof.KernelIdeal.Reg3.RunA.lean ====
import proofs.«101729_j45303315038988_2_alg».proof.Proof.Gen.KernelIdeal.Launch
import proofs.«101729_j45303315038988_2_alg».proof.Proof.Gen.KernelIdeal.Skeleton
import proofs.«101729_j45303315038988_2_alg».proof.Proof.Gen.KernelIdeal.Points
import proofs.«101729_j45303315038988_2_alg».proof.Proof.KernelIdeal.Reg3.Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3, a row's FIRST query block: the running maximum and sum are reset, then updated -/

set_option maxHeartbeats 4000000 in
/-- What the body's stores leave in the output block, the running maximum and the running sum (as pieces, last
    first) at a row's first query block — the reset branch taken, the final one not —, with the proof that on whole
    memrefs (the query and key blocks at `x0`, `x1`; the output block at `xi2`, handed back untouched; the running
    maximum and sum at anything: both are reset before they are read) the body runs to the continuation holding
    the inputs as they were and the two carried buffers with their pieces written. -/
noncomputable def kernelRun3_A (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) :
    Σ' (L2 : List (View.Piece (Elt F) S2048x1 .f32)) (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3_kernel i arg2 harg2 arg3 harg3 arg4 harg4 arg5 harg5 arg6 harg6) K } := by
  refine ⟨[], ?_, ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KernelIdeal.Reg3.RunB.lean ====
import proofs.«101729_j45303315038988_2_alg».proof.Proof.Gen.KernelIdeal.Launch
import proofs.«101729_j45303315038988_2_alg».proof.Proof.Gen.KernelIdeal.Skeleton
import proofs.«101729_j45303315038988_2_alg».proof.Proof.Gen.KernelIdeal.Points
import proofs.«101729_j45303315038988_2_alg».proof.Proof.KernelIdeal.Reg3.Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3, a row's MIDDLE query blocks: the running maximum and sum are updated -/

set_option maxHeartbeats 4000000 in
/-- What the body's stores leave in the output block, the running maximum and the running sum (as pieces, last
    first) at a row's middle query blocks — neither branch taken —, with the proof that on whole memrefs (the query
    and key blocks at `x0`, `x1`; the output block at `xi2`, handed back untouched; the running maximum and sum at
    what the point before left, `xs0`, `xs1`) the body runs to the continuation holding the inputs as they were and
    the two carried buffers with their pieces written. -/
noncomputable def kernelRun3_B (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) :
    Σ' (L2 : List (View.Piece (Elt F) S2048x1 .f32)) (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3_kernel i arg2 harg2 arg3 harg3 arg4 harg4 arg5 harg5 arg6 harg6) K } := by
  refine ⟨[], ?_, ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KernelIdeal.Reg3.RunC.lean ====
import proofs.«101729_j45303315038988_2_alg».proof.Proof.Gen.KernelIdeal.Launch
import proofs.«101729_j45303315038988_2_alg».proof.Proof.Gen.KernelIdeal.Skeleton
import proofs.«101729_j45303315038988_2_alg».proof.Proof.Gen.KernelIdeal.Points
import proofs.«101729_j45303315038988_2_alg».proof.Proof.KernelIdeal.Reg3.Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3, a row's LAST query block: the running maximum and sum are updated, the log-sum-exp is stored -/

set_option maxHeartbeats 4000000 in
/-- What the body's stores leave in the output block, the running maximum and the running sum (as pieces, last
    first) at a row's last query block — the final branch taken, the reset one not —, with the proof that on whole
    memrefs (the query and key blocks at `x0`, `x1`; the output block at anything; the running maximum and sum at
    what the point before left, `xs0`, `xs1`) the body runs to the continuation holding the inputs as they were
    and the output block and the two carried buffers with their pieces written. -/
noncomputable def kernelRun3_C (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) :
    Σ' (L2 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3_kernel i arg2 harg2 arg3 harg3 arg4 harg4 arg5 harg5 arg6 harg6) K } := by
  refine ⟨?_, ?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KernelIdeal.Reg3.lean ====
import proofs.«101729_j45303315038988_2_alg».proof.Proof.Gen.KernelIdeal.Launch
import proofs.«101729_j45303315038988_2_alg».proof.Proof.Gen.KernelIdeal.Skeleton
import proofs.«101729_j45303315038988_2_alg».proof.Proof.Gen.KernelIdeal.Points
import proofs.«101729_j45303315038988_2_alg».proof.Proof.KernelIdeal.Reg3.RunA
import proofs.«101729_j45303315038988_2_alg».proof.Proof.KernelIdeal.Reg3.RunB
import proofs.«101729_j45303315038988_2_alg».proof.Proof.KernelIdeal.Reg3.RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 3: per key row, the log-sum-exp over the queries, by a running maximum and a running sum carried
   over the sixteen query blocks of the row — the frame half, at the region-entry contents `V` -/

/-! ## What each case leaves in the output block and in the two carried buffers -/

/-- The first query block stores nothing into the output block (idle there, not written back): no pieces, a
    placeholder nothing consults. -/
def out3_A_2 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) : Vec F S2048x1 .f32 :=
  VO3_2.read (Elt F) (VO3_2.writes (Elt F) VO3_2.junk (kernelRun3_A c i arg2 harg2 arg3 harg3 arg4 harg4 arg5 harg5 arg6 harg6 hc0 hc1 x0 x1).1)

/-- The first query block's pieces for the running maximum cover it (whole-block stores). -/
theorem scover3_A_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) (y : S2048x1.Idx) :
    ∃ pc ∈ (kernelRun3_A c i arg2 harg2 arg3 harg3 arg4 harg4 arg5 harg5 arg6 harg6 hc0 hc1 x0 x1).2.1, y ∈ pc.1.set :=
  View.cover_of_tiledL (kernelRun3_A c i arg2 harg2 arg3 harg3 arg4 harg4 arg5 harg5 arg6 harg6 hc0 hc1 x0 x1).2.1 S2048x1.size (by sl_kernel_rfl) y

/-- What the first query block leaves in the running maximum. -/
def sout3_A_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) : Vec F S2048x1 .f32 :=
  VS3_0.read (Elt F) (VS3_0.writes (Elt F) VS3_0.junk (kernelRun3_A c i arg2 harg2 arg3 harg3 arg4 harg4 arg5 harg5 arg6 harg6 hc0 hc1 x0 x1).2.1)

/-- The first query block's pieces for the running sum cover it (whole-block stores). -/
theorem scover3_A_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) (y : S2048x1.Idx) :
    ∃ pc ∈ (kernelRun3_A c i arg2 harg2 arg3 harg3 arg4 harg4 arg5 harg5 arg6 harg6 hc0 hc1 x0 x1).2.2.1, y ∈ pc.1.set :=
  View.cover_of_tiledL (kernelRun3_A c i arg2 harg2 arg3 harg3 arg4 harg4 arg5 harg5 arg6 harg6 hc0 hc1 x0 x1).2.2.1 S2048x1.size (by sl_kernel_rfl) y

/-- What the first query block leaves in the running sum. -/
def sout3_A_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond3_0 i) (hc1 : ¬cond3_1 i)
    (x0 : Vec F S512x1024 .bf16) (x1 : Vec F S2048x1024 .bf16) : Vec F S2048x1 .f32 :=
  VS3_1.read (Elt F) (VS3_1.writes (Elt F) VS3_1.junk (kernelRun3_A c i arg2 harg2 arg3 harg3 arg4 harg4 arg5 harg5 arg6 harg6 hc0 hc1 x0 x1).2.2.1)

/-- The middle query block stores nothing into the output block (idle there, not written back): no pieces, a
    placeholder nothing consults. -/
def out3_B_2 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) : Vec F S2048x1 .f32 :=
  VO3_2.read (Elt F) (VO3_2.writes (Elt F) VO3_2.junk (kernelRun3_B c i arg2 harg2 arg3 harg3 arg4 harg4 arg5 harg5 arg6 harg6 hc0 hc1 x0 x1 xs0 xs1).1)

/-- The middle query block's pieces for the running maximum cover it (whole-block stores). -/
theorem scover3_B_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) (y : S2048x1.Idx) :
    ∃ pc ∈ (kernelRun3_B c i arg2 harg2 arg3 harg3 arg4 harg4 arg5 harg5 arg6 harg6 hc0 hc1 x0 x1 xs0 xs1).2.1, y ∈ pc.1.set :=
  View.cover_of_tiledL (kernelRun3_B c i arg2 harg2 arg3 harg3 arg4 harg4 arg5 harg5 arg6 harg6 hc0 hc1 x0 x1 xs0 xs1).2.1 S2048x1.size (by sl_kernel_rfl) y

/-- What the middle query block leaves in the running maximum. -/
def sout3_B_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) : Vec F S2048x1 .f32 :=
  VS3_0.read (Elt F) (VS3_0.writes (Elt F) VS3_0.junk (kernelRun3_B c i arg2 harg2 arg3 harg3 arg4 harg4 arg5 harg5 arg6 harg6 hc0 hc1 x0 x1 xs0 xs1).2.1)

/-- The middle query block's pieces for the running sum cover it (whole-block stores). -/
theorem scover3_B_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) (y : S2048x1.Idx) :
    ∃ pc ∈ (kernelRun3_B c i arg2 harg2 arg3 harg3 arg4 harg4 arg5 harg5 arg6 harg6 hc0 hc1 x0 x1 xs0 xs1).2.2.1, y ∈ pc.1.set :=
  View.cover_of_tiledL (kernelRun3_B c i arg2 harg2 arg3 harg3 arg4 harg4 arg5 harg5 arg6 harg6 hc0 hc1 x0 x1 xs0 xs1).2.2.1 S2048x1.size (by sl_kernel_rfl) y

/-- What the middle query block leaves in the running sum. -/
def sout3_B_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : ¬cond3_1 i)
    (x0 : Vec F S512x1024 .bf16) (x1 : Vec F S2048x1024 .bf16) (xs0 : Vec F S2048x1 .f32) (xs1 : Vec F S2048x1 .f32) : Vec F S2048x1 .f32 :=
  VS3_1.read (Elt F) (VS3_1.writes (Elt F) VS3_1.junk (kernelRun3_B c i arg2 harg2 arg3 harg3 arg4 harg4 arg5 harg5 arg6 harg6 hc0 hc1 x0 x1 xs0 xs1).2.2.1)

/-- The last query block's pieces for the output block tile it (one whole-block store), so they cover it. -/
theorem cover3_C_2 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) (y : S2048x1.Idx) :
    ∃ pc ∈ (kernelRun3_C c i arg2 harg2 arg3 harg3 arg4 harg4 arg5 harg5 arg6 harg6 hc0 hc1 x0 x1 xs0 xs1).1, y ∈ pc.1.set :=
  View.cover_of_tiledL (kernelRun3_C c i arg2 harg2 arg3 harg3 arg4 harg4 arg5 harg5 arg6 harg6 hc0 hc1 x0 x1 xs0 xs1).1 S2048x1.size (by sl_kernel_rfl) y

/-- What the last query block leaves in the output block: the log-sum-exp of the row, its pieces read back. -/
def out3_C_2 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) : Vec F S2048x1 .f32 :=
  VO3_2.read (Elt F) (VO3_2.writes (Elt F) VO3_2.junk (kernelRun3_C c i arg2 harg2 arg3 harg3 arg4 harg4 arg5 harg5 arg6 harg6 hc0 hc1 x0 x1 xs0 xs1).1)

/-- The last query block's pieces for the running maximum cover it (whole-block stores). -/
theorem scover3_C_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) (y : S2048x1.Idx) :
    ∃ pc ∈ (kernelRun3_C c i arg2 harg2 arg3 harg3 arg4 harg4 arg5 harg5 arg6 harg6 hc0 hc1 x0 x1 xs0 xs1).2.1, y ∈ pc.1.set :=
  View.cover_of_tiledL (kernelRun3_C c i arg2 harg2 arg3 harg3 arg4 harg4 arg5 harg5 arg6 harg6 hc0 hc1 x0 x1 xs0 xs1).2.1 S2048x1.size (by sl_kernel_rfl) y

/-- What the last query block leaves in the running maximum. -/
def sout3_C_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) : Vec F S2048x1 .f32 :=
  VS3_0.read (Elt F) (VS3_0.writes (Elt F) VS3_0.junk (kernelRun3_C c i arg2 harg2 arg3 harg3 arg4 harg4 arg5 harg5 arg6 harg6 hc0 hc1 x0 x1 xs0 xs1).2.1)

/-- The last query block's pieces for the running sum cover it (whole-block stores). -/
theorem scover3_C_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) (y : S2048x1.Idx) :
    ∃ pc ∈ (kernelRun3_C c i arg2 harg2 arg3 harg3 arg4 harg4 arg5 harg5 arg6 harg6 hc0 hc1 x0 x1 xs0 xs1).2.2.1, y ∈ pc.1.set :=
  View.cover_of_tiledL (kernelRun3_C c i arg2 harg2 arg3 harg3 arg4 harg4 arg5 harg5 arg6 harg6 hc0 hc1 x0 x1 xs0 xs1).2.2.1 S2048x1.size (by sl_kernel_rfl) y

/-- What the last query block leaves in the running sum. -/
def sout3_C_1 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond3_0 i) (hc1 : cond3_1 i)
    (x0 : Vec F S512x1024 .bf16) (x1 : Vec F S2048x1024 .bf16) (xs0 : Vec F S2048x1 .f32) (xs1 : Vec F S2048x1 .f32) : Vec F S2048x1 .f32 :=
  VS3_1.read (Elt F) (VS3_1.writes (Elt F) VS3_1.junk (kernelRun3_C c i arg2 harg2 arg3 harg3 arg4 harg4 arg5 harg5 arg6 harg6 hc0 hc1 x0 x1 xs0 xs1).2.2.1)

/-! ## What the output block, the running maximum and the running sum hold after each point -/

/-- THE RECURRENCE. What the output block's staging buffer, the running maximum and the running sum hold after the
    body at position `n`: the case the position's query-block coordinate selects, run at the point's memrefs and
    input blocks, the carried buffers at what position `n - 1` left. Both conditions at once meet no point. -/
def outsAt3 (c : Dev nD) : (n : ℕ) → n < cfg3.N → Vec F S2048x1 .f32 × Vec F S2048x1 .f32 × Vec F S2048x1 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 16 = 0 then
      if h1 : (n + 1) % 16 = 15 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 16 = 15 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2.1 (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2.1 (outsAt3 c n (Nat.lt_of_succ_lt hn)).2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2.1 (outsAt3 c n (Nat.lt_of_succ_lt hn)).2.2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2.1 (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2.1 (outsAt3 c n (Nat.lt_of_succ_lt hn)).2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2.1 (outsAt3 c n (Nat.lt_of_succ_lt hn)).2.2)

/-- `outsAt3` at a row's first query block. -/
theorem outsAt3_A (c : Dev nD) (t : Fin cfg3.N) (h0 : t.val % 16 = 0) (h1 : ¬t.val % 16 = 15) :
    outsAt3 V c t.val t.isLt = (out3_A_2 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t), sout3_A_1 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a row's middle query blocks: over what the point before left. -/
theorem outsAt3_B (c : Dev nD) (t : Fin cfg3.N) (h0 : ¬t.val % 16 = 0) (h1 : ¬t.val % 16 = 15) :
    outsAt3 V c t.val t.isLt = (out3_B_2 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2, sout3_B_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a row's last query block: over what the point before left. -/
theorem outsAt3_C (c : Dev nD) (t : Fin cfg3.N) (h0 : ¬t.val % 16 = 0) (h1 : t.val % 16 = 15) :
    outsAt3 V c t.val t.isLt = (out3_C_2 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2, sout3_C_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant before position `n`: before the first point what the launch hands the region; afterwards the running
    maximum and the running sum at what the point before left in them, the other scoped buffers untouched, the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2)) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2)) ∗ rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2)) ∗ rest3 c) ∗ (∃ r, prngReg c r)) := by
  cases n with
  | zero => exact absurd rfl hz
  | succ n => rfl

/-! ## The region's proof data -/

/-- The proof data of region 3 on core `c`: the arrays as the region finds them; after the body at point `t` the
    query and key buffers at their blocks and the output buffer at `outsAt3`'s first component; the invariant
    `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
/-- The body at any point: the query and key memrefs hold their blocks; the point's query-block coordinate says which
    case it is in; the invariant hands the body the running maximum and sum at what the point before left (at anything
    at the very first point) and takes them back at this point's contents; the other scoped buffers, the generator
    register and the core's debts pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 16 = 0
  · by_cases h1 : t.val % 16 = 15
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0 sout3_A_1; (try dsimp only)
      by_cases hz : t.val = 0
      · rw [PhiS3_castSucc V c t, PhiS3_zero V c _ _ hz, PhiA3_eq]
        iintro ⟨⟨⟨⟨HS0, HS1⟩, HR⟩, Hg⟩, Ho, ⟨%d0, H0⟩, ⟨%d1, H1⟩, ⟨%d2, H2⟩⟩
        iapply ((kernelRun3_A c (grid3.coords t) _ _ _ _ _ _ _ _ _ _ ((hcond3_0 t).mpr h0) (fun h => h1 ((hcond3_1 t).mp h)) (iblk3 V c 0 t) (iblk3 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_A_0 c _ _ _ _ _ _ _ _ _ _ _ _ _ _ _)
              · unfold owns; iexists _; isplitr
                swap; · iexact HS1
                ipureintro; exact View.read_writes_of_cover _ _ _ _ _ (scover3_A_1 c _ _ _ _ _ _ _ _ _ _ _ _ _ _ _)
            iexact HR
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨⟨HS0, HS1⟩, HR⟩, Hg⟩, Ho, ⟨%d0, H0⟩, ⟨%d1, H1⟩, ⟨%d2, H2⟩⟩
        iapply ((kernelRun3_A c (grid3.coords t) _ _ _ _ _ _ _ _ _ _ ((hcond3_0 t).mpr h0) (fun h => h1 ((hcond3_1 t).mp h)) (iblk3 V c 0 t) (iblk3 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_A_0 c _ _ _ _ _ _ _ _ _ _ _ _ _ _ _)
              · unfold owns; iexists _; isplitr
                swap; · iexact HS1
                ipureintro; exact View.read_writes_of_cover _ _ _ _ _ (scover3_A_1 c _ _ _ _ _ _ _ _ _ _ _ _ _ _ _)
            iexact HR
          iexact Hg
        isplitl [Ho]; · iexact Ho
        isplitl [H0]; · iexact H0
        isplitl [H1]; · iexact H1
        iexists _; iexact H2
  · by_cases h1 : t.val % 16 = 15
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0 sout3_C_1; (try dsimp only)
      by_cases hz : t.val = 0
      · exfalso; omega
      · rw [PhiS3_castSucc V c t, PhiS3_pos V c _ _ hz]
        iintro ⟨⟨⟨⟨HS0, HS1⟩, HR⟩, Hg⟩, Ho, ⟨%d0, H0⟩, ⟨%d1, H1⟩, ⟨%d2, H2⟩⟩
        iapply ((kernelRun3_C c (grid3.coords t) _ _ _ _ _ _ _ _ _ _ (fun h => h0 ((hcond3_0 t).mp h)) ((hcond3_1 t).mpr h1) (iblk3 V c 0 t) (iblk3 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_C_0 c _ _ _ _ _ _ _ _ _ _ _ _ _ _ _ _ _)
              · unfold owns; iexists _; isplitr
                swap; · iexact HS1
                ipureintro; exact View.read_writes_of_cover _ _ _ _ _ (scover3_C_1 c _ _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0 sout3_B_1; (try dsimp only)
      by_cases hz : t.val = 0
      · exfalso; omega
      · rw [PhiS3_castSucc V c t, PhiS3_pos V c _ _ hz]
        iintro ⟨⟨⟨⟨HS0, HS1⟩, HR⟩, Hg⟩, Ho, ⟨%d0, H0⟩, ⟨%d1, H1⟩, ⟨%d2, H2⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_B_0 c _ _ _ _ _ _ _ _ _ _ _ _ _ _ _ _ _)
              · unfold owns; iexists _; isplitr
                swap; · iexact HS1
                ipureintro; exact View.read_writes_of_cover _ _ _ _ _ (scover3_B_1 c _ _ _ _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the entry invariant back: what the running maximum and sum
    hold is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.KernelIdeal.Hand

end
-- ==== Proof.KernelIdeal.Reg4.Runs.lean ====
import proofs.«101729_j45303315038988_2_alg».proof.Proof.Gen.KernelIdeal.Launch
import proofs.«101729_j45303315038988_2_alg».proof.Proof.Gen.KernelIdeal.Skeleton
import proofs.«101729_j45303315038988_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 4: the weighted accumulation exp(s − lse)·v over the key blocks, plus the residual

What the three cases of the body share: the windows' blocks, the closed forms of the two branch conditions over the
grid (both on the key-block coordinate, the point's index mod 16), where the output window is idle, the staging and
scratch memrefs, and the region invariant with the accumulator's buffer singled out of the scoped rest. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (unfetched, the
    block index has not moved), for any proof data whose array is the entry contents and whose body leaves the block
    in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (unfetched, the
    block index has not moved), for any proof data whose array is the entry contents and whose body leaves the block
    in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (unfetched, the
    block index has not moved), for any proof data whose array is the entry contents and whose body leaves the block
    in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (unfetched, the
    block index has not moved), for any proof data whose array is the entry contents and whose body leaves the block
    in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (unfetched, the
    block index has not moved), for any proof data whose array is the entry contents and whose body leaves the block
    in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, in closed form -/

/-- The reset condition (key block 0), as the body computes it from the grid coordinates. -/
abbrev cond4_0 (i : grid4.Coords) : Prop := (Scalar.cmpi .ne (Scalar.extui (Scalar.cmpi .eq (BitVec.ofNat 32 (i 1).val) 0#32)) 0#32) = 1#1
/-- It holds exactly at the first key block of each query block: the points ≡ 0 (mod 16). -/
theorem hcond4_0 : ∀ t : Fin cfg4.N, cond4_0 (grid4.coords t) ↔ t.val % 16 = 0 :=
  (by decide +kernel : ∀ t : Fin grid4.N, cond4_0 (grid4.coords t) ↔ t.val % 16 = 0)

/-- The final condition (key block 15), as the body computes it. -/
abbrev cond4_1 (i : grid4.Coords) : Prop := k4_cond2 i = 1#1
/-- It holds exactly at the last key block of each query block: the points ≡ 15 (mod 16). -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

/-- The five input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- At a first key block the output window is idle (nothing is stored into it) and not written back. -/
theorem idleAt4_5_A : ∀ t : Fin cfg4.N, cond4_0 (grid4.coords t) → ¬cond4_1 (grid4.coords t) → cfg4.idle 5 (grid4.coords t) = true := by decide +kernel
theorem noFlush4_5_A : ∀ t : Fin cfg4.N, cond4_0 (grid4.coords t) → ¬cond4_1 (grid4.coords t) → (cfg4.win 5).flush t = false := by decide +kernel
/-- At a middle key block likewise. -/
theorem idleAt4_5_B : ∀ t : Fin cfg4.N, ¬cond4_0 (grid4.coords t) → ¬cond4_1 (grid4.coords t) → cfg4.idle 5 (grid4.coords t) = true := by decide +kernel
theorem noFlush4_5_B : ∀ t : Fin cfg4.N, ¬cond4_0 (grid4.coords t) → ¬cond4_1 (grid4.coords t) → (cfg4.win 5).flush t = false := by decide +kernel
/-- At a last key block the output window is live: the body stores the finished block into it. -/
theorem liveAt4_5_C : ∀ t : Fin cfg4.N, ¬cond4_0 (grid4.coords t) → cond4_1 (grid4.coords t) → cfg4.idle 5 (grid4.coords t) = false := by decide +kernel

/-! ## The staging and scratch memrefs -/

/-- One staging buffer of the output window, through which its contents are stated (the choice does not matter once
    the stores cover the block). -/
abbrev VO4_5 : View sig .tc .vmem S1024x1024 .f32 := (Memref.whole cc4_stg5_0 : Memref sig .tc .vmem S1024x1024 .f32).view
/-- Each window's current staging memref at point `t`, spelled as the pipeline passes it, and its wholeness. -/
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x1024 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x1024 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x1024 .f32 := win4_5.stage (cfg4.slots t 5)
abbrev hs4_5 (t : Fin cfg4.N) : (ms4_5 t).IsWhole := hstage4_5 ((cfg4.slots t 5).cast nbuf4_5)
/-- The accumulator: a whole scoped buffer of the kernel's own, passed beside the windows and carried between points. -/
abbrev scM4_0 : Memref sig .tc .vmem S1024x1024 .f32 := Memref.whole cc4_scratch0
/-- The accumulator as a view: what it holds is stated through it. -/
abbrev VS4_0 : View sig .tc .vmem S1024x1024 .f32 := scM4_0.view

/-- The region invariant with the accumulator singled out: the accumulator's buffer owned at some contents, the
    rest of the scoped buffers (the other calls' staging and scratch) unopened, and the generator register at some
    state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KernelIdeal.Reg4.RunA.lean ====
import proofs.«101729_j45303315038988_2_alg».proof.Proof.KernelIdeal.Reg4.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- The body at a FIRST key block (the reset taken, the final branch not): on whole staging memrefs — the five inputs'
    at their contents `x·`, the output's at contents `xi5` handed back untouched (nothing is stored into it), the
    accumulator's at anything (it is reset before it is read) — the body runs to the continuation holding the inputs' and
    the output's as they were and the accumulator with its pieces `LS0` written. The pieces are found by the run. -/
noncomputable def kernelRun4_A (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) :
    Σ' (L5 : List (View.Piece (Elt F) S1024x1024 .f32)), { LS0 : List (View.Piece (Elt F) S1024x1024 .f32) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8) K } := by
  refine ⟨[], ?_, fun xi5 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdeal.Reg4.RunB.lean ====
import proofs.«101729_j45303315038988_2_alg».proof.Proof.KernelIdeal.Reg4.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- The body at a MIDDLE key block (neither branch taken): the five inputs' staging memrefs at their contents `x·`, the
    output's at contents `xi5` handed back untouched, the accumulator's at what the point before left (`xs0`); the body
    runs to the continuation holding the inputs' and the output's as they were and the accumulator with its pieces
    `LS0` written. The pieces are found by the run. -/
noncomputable def kernelRun4_B (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) :
    Σ' (L5 : List (View.Piece (Elt F) S1024x1024 .f32)), { LS0 : List (View.Piece (Elt F) S1024x1024 .f32) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8) K } := by
  refine ⟨[], ?_, fun xi5 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdeal.Reg4.RunC.lean ====
import proofs.«101729_j45303315038988_2_alg».proof.Proof.KernelIdeal.Reg4.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- The body at a LAST key block (the final branch taken, the reset not): the five inputs' staging memrefs at their
    contents `x·`, the output's at anything, the accumulator's at what the point before left (`xs0`); the body runs to
    the continuation holding the inputs' as they were, the output's with its pieces `L5` written (residual plus
    accumulator) and the accumulator with its pieces `LS0` written. The pieces are found by the run. -/
noncomputable def kernelRun4_C (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KernelIdeal.Reg4.lean ====
import proofs.«101729_j45303315038988_2_alg».proof.Proof.KernelIdeal.Reg4.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 4, the frame half: what each case leaves, the accumulation point by point, the proof data and the body
obligation

Per query block the body sweeps the 16 key blocks: it resets the accumulator at the first, adds exp(s − lse)·v at
every one, and at the last stores residual + accumulator into the output block. So the accumulator is carried from
point to point, and the output block is stored (and written back) at the last key block only. -/

/-- At a first key block nothing is stored into the output window (it is idle there and not written back): no pieces — a
    placeholder (junk read back) that nothing consults. -/
def out4_A_5 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) : Vec F S1024x1024 .f32 :=
  VO4_5.read (Elt F) (VO4_5.writes (Elt F) VO4_5.junk (kernelRun4_A c i arg2 harg2 arg3 harg3 arg4 harg4 arg5 harg5 arg6 harg6 arg7 harg7 arg8 harg8 hc0 hc1 x0 x1 x2 x3 x4).1)

/-- The stores into the accumulator at a first key block are of the whole buffer, so their pieces cover it. -/
theorem scover4_A_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) (y : S1024x1024.Idx) :
    ∃ pc ∈ (kernelRun4_A c i arg2 harg2 arg3 harg3 arg4 harg4 arg5 harg5 arg6 harg6 arg7 harg7 arg8 harg8 hc0 hc1 x0 x1 x2 x3 x4).2.1, y ∈ pc.1.set :=
  View.cover_of_tiledL (kernelRun4_A c i arg2 harg2 arg3 harg3 arg4 harg4 arg5 harg5 arg6 harg6 arg7 harg7 arg8 harg8 hc0 hc1 x0 x1 x2 x3 x4).2.1 S1024x1024.size (by sl_kernel_rfl) y

/-- What a first key block leaves in the accumulator: its pieces read back over junk. -/
def sout4_A_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) : Vec F S1024x1024 .f32 :=
  VS4_0.read (Elt F) (VS4_0.writes (Elt F) VS4_0.junk (kernelRun4_A c i arg2 harg2 arg3 harg3 arg4 harg4 arg5 harg5 arg6 harg6 arg7 harg7 arg8 harg8 hc0 hc1 x0 x1 x2 x3 x4).2.1)

/-- At a middle key block nothing is stored into the output window (it is idle there and not written back): no pieces — a
    placeholder (junk read back) that nothing consults. -/
def out4_B_5 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) : Vec F S1024x1024 .f32 :=
  VO4_5.read (Elt F) (VO4_5.writes (Elt F) VO4_5.junk (kernelRun4_B c i arg2 harg2 arg3 harg3 arg4 harg4 arg5 harg5 arg6 harg6 arg7 harg7 arg8 harg8 hc0 hc1 x0 x1 x2 x3 x4 xs0).1)

/-- The stores into the accumulator at a middle key block are of the whole buffer, so their pieces cover it. -/
theorem scover4_B_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) (y : S1024x1024.Idx) :
    ∃ pc ∈ (kernelRun4_B c i arg2 harg2 arg3 harg3 arg4 harg4 arg5 harg5 arg6 harg6 arg7 harg7 arg8 harg8 hc0 hc1 x0 x1 x2 x3 x4 xs0).2.1, y ∈ pc.1.set :=
  View.cover_of_tiledL (kernelRun4_B c i arg2 harg2 arg3 harg3 arg4 harg4 arg5 harg5 arg6 harg6 arg7 harg7 arg8 harg8 hc0 hc1 x0 x1 x2 x3 x4 xs0).2.1 S1024x1024.size (by sl_kernel_rfl) y

/-- What a middle key block leaves in the accumulator: its pieces read back over junk. -/
def sout4_B_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) : Vec F S1024x1024 .f32 :=
  VS4_0.read (Elt F) (VS4_0.writes (Elt F) VS4_0.junk (kernelRun4_B c i arg2 harg2 arg3 harg3 arg4 harg4 arg5 harg5 arg6 harg6 arg7 harg7 arg8 harg8 hc0 hc1 x0 x1 x2 x3 x4 xs0).2.1)

/-- At a last key block the one store into the output window is of the whole block, so its pieces cover it. -/
theorem cover4_C_5 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) (y : S1024x1024.Idx) :
    ∃ pc ∈ (kernelRun4_C c i arg2 harg2 arg3 harg3 arg4 harg4 arg5 harg5 arg6 harg6 arg7 harg7 arg8 harg8 hc0 hc1 x0 x1 x2 x3 x4 xs0).1, y ∈ pc.1.set :=
  View.cover_of_tiledL (kernelRun4_C c i arg2 harg2 arg3 harg3 arg4 harg4 arg5 harg5 arg6 harg6 arg7 harg7 arg8 harg8 hc0 hc1 x0 x1 x2 x3 x4 xs0).1 S1024x1024.size (by sl_kernel_rfl) y

/-- What a last key block leaves in the output window's staging buffer (the residual plus the finished accumulator):
    its pieces read back over junk. -/
def out4_C_5 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) : Vec F S1024x1024 .f32 :=
  VO4_5.read (Elt F) (VO4_5.writes (Elt F) VO4_5.junk (kernelRun4_C c i arg2 harg2 arg3 harg3 arg4 harg4 arg5 harg5 arg6 harg6 arg7 harg7 arg8 harg8 hc0 hc1 x0 x1 x2 x3 x4 xs0).1)

/-- The stores into the accumulator at a last key block are of the whole buffer, so their pieces cover it. -/
theorem scover4_C_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) (y : S1024x1024.Idx) :
    ∃ pc ∈ (kernelRun4_C c i arg2 harg2 arg3 harg3 arg4 harg4 arg5 harg5 arg6 harg6 arg7 harg7 arg8 harg8 hc0 hc1 x0 x1 x2 x3 x4 xs0).2.1, y ∈ pc.1.set :=
  View.cover_of_tiledL (kernelRun4_C c i arg2 harg2 arg3 harg3 arg4 harg4 arg5 harg5 arg6 harg6 arg7 harg7 arg8 harg8 hc0 hc1 x0 x1 x2 x3 x4 xs0).2.1 S1024x1024.size (by sl_kernel_rfl) y

/-- What a last key block leaves in the accumulator: its pieces read back over junk. -/
def sout4_C_0 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) : Vec F S1024x1024 .f32 :=
  VS4_0.read (Elt F) (VS4_0.writes (Elt F) VS4_0.junk (kernelRun4_C c i arg2 harg2 arg3 harg3 arg4 harg4 arg5 harg5 arg6 harg6 arg7 harg7 arg8 harg8 hc0 hc1 x0 x1 x2 x3 x4 xs0).2.1)

/-! ## What the output window and the accumulator hold after each point -/

/-- THE ACCUMULATION. What the output window's staging buffer and the accumulator hold after the body at position `n`
    (a pair: the output block, the accumulator): the case the closed forms select at `n`, run at the point's memrefs and
    input blocks, the accumulator read at what this leaves at `n - 1`. Both branches taken meets no point. -/
def outsAt4 (c : Dev nD) : (n : ℕ) → n < cfg4.N → Vec F S1024x1024 .f32 × Vec F S1024x1024 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 16 = 0 then
      if h1 : (n + 1) % 16 = 15 then
        False.elim (by omega)
      else
        (out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      if h1 : (n + 1) % 16 = 15 then
        (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)
      else
        (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)

/-- `outsAt4` at a first key block: that case's contents. -/
theorem outsAt4_A (c : Dev nD) (t : Fin cfg4.N) (h0 : t.val % 16 = 0) (h1 : ¬t.val % 16 = 15) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans ((dif_neg h1).trans rfl)

/-- `outsAt4` at a middle key block: that case's contents, over what the point before left in the accumulator. -/
theorem outsAt4_B (c : Dev nD) (t : Fin cfg4.N) (h0 : ¬t.val % 16 = 0) (h1 : ¬t.val % 16 = 15) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a last key block: that case's contents, over what the point before left in the accumulator. -/
theorem outsAt4_C (c : Dev nD) (t : Fin cfg4.N) (h0 : ¬t.val % 16 = 0) (h1 : t.val % 16 = 15) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before position `n`: before the first point the class's invariant (every scoped buffer at anything); afterwards the
    accumulator at what the point before left in it, the remainder of the scoped buffers unopened, and the generator
    register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The proof data of region 4 on core `c`: the arrays as the region finds them (`V`); after the body at point `t` each
    input's buffer at its block and the output's at `outsAt4`'s first component; the invariant `PhiS4`; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
  Φ t := PhiS4 V c t.val (Nat.le_of_lt_succ t.isLt)
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t` (the library's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point: the inputs' memrefs hold their blocks; the closed forms say which case the point is in; the
    invariant hands the body the accumulator at what the point before left (at anything before the first point), the
    remainder of the scoped buffers and the generator register pass through untouched, and the accumulator is taken back
    at this point's contents (its stores cover it); at a last key block the output's stores cover its block, elsewhere
    its buffer is handed back as found; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  by_cases h0 : t.val % 16 = 0
  · by_cases h1 : t.val % 16 = 15
    · exfalso; omega
    · -- a first key block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    · -- a last key block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5_C t (fun h => h0 ((hcond4_0 t).mp h)) ((hcond4_1 t).mpr h1)], after4_5]
      rw [outsAt4_C V c t h0 h1]
      unfold out4_C_5 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover4_C_5 c _ _ _ _ _ _ _ _ _ _ _ _ _ _ _ _ _ _ _ _ _ _ _)
    · -- a middle key block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 128 := N_4; omega)

end Cert.KernelIdeal.Hand

end
-- ==== Proof.KernelIdeal.Run.lean ====
import proofs.«101729_j45303315038988_2_alg».proof.Proof.KernelIdeal.Reg0
import proofs.«101729_j45303315038988_2_alg».proof.Proof.KernelIdeal.Reg1
import proofs.«101729_j45303315038988_2_alg».proof.Proof.KernelIdeal.Reg2
import proofs.«101729_j45303315038988_2_alg».proof.Proof.KernelIdeal.Reg3
import proofs.«101729_j45303315038988_2_alg».proof.Proof.KernelIdeal.Reg4
import proofs.«101729_j45303315038988_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main

Between two items of @main every unscoped buffer of a core holds a definite value: the launch memory, then each
stretch of host operations applied, then, at a region's exit, the region's arrays at what its write-backs leave
and every other buffer as the region found it. -/

/-- Core `c`'s buffers at launch. -/
abbrev W0 : Dev nD → Valuation τ sig (Elt F) := fun c b => (s₀ m ρ).mem ((c : Dev nD), b)
/-- After the first host stretch (the three weights transposed and rounded, the first bias reshaped): region 0's entry. -/
abbrev W1 : Dev nD → Valuation τ sig (Elt F) := fun c => StableHlo.after hostOps0 (W0 m ρ c)
/-- The same contents read at the TensorCore's references. -/
abbrev V1 : (c : Dev nD) → (b : Ref sig .tc) → Buf (Elt F) ((c : Thread nD τ).loc b) := fun c b => W1 m ρ c b
/-- At region 0's exit: its arrays at what the pipeline leaves (an input as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second bias is reshaped: region 1's entry. -/
abbrev W3 : Dev nD → Valuation τ sig (Elt F) := fun c => StableHlo.after hostOps1 (W2 m ρ c)
/-- The same contents read at the TensorCore's references. -/
abbrev V3 : (c : Dev nD) → (b : Ref sig .tc) → Buf (Elt F) ((c : Thread nD τ).loc b) := fun c b => W3 m ρ c b
/-- At region 1's exit: its arrays at what the pipeline leaves (an input as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the third bias is reshaped: region 2's entry. -/
abbrev W5 : Dev nD → Valuation τ sig (Elt F) := fun c => StableHlo.after hostOps2 (W4 m ρ c)
/-- The same contents read at the TensorCore's references. -/
abbrev V5 : (c : Dev nD) → (b : Ref sig .tc) → Buf (Elt F) ((c : Thread nD τ).loc b) := fun c b => W5 m ρ c b
/-- At region 2's exit: its arrays at what the pipeline leaves (an input as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- At region 3's exit: its arrays at what the pipeline leaves (an input as entered, the output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same contents read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After the log-sum-exp column is reshaped to a row: region 4's entry. -/
abbrev W8 : Dev nD → Valuation τ sig (Elt F) := fun c => StableHlo.after hostOps4 (W7 m ρ c)
/-- The same contents read at the TensorCore's references. -/
abbrev V8 : (c : Dev nD) → (b : Ref sig .tc) → Buf (Elt F) ((c : Thread nD τ).loc b) := fun c b => W8 m ρ c b
/-- At region 4's exit: its arrays at what the pipeline leaves (an input as entered, the output's write-backs
    folded), every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same contents read at the TensorCore's references. -/
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-! ## What each item leaves unchanged -/

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- Region 0 changes only its output array `main_v7`: an input window's array is written back nowhere, and a
    buffer that is no window's array is not touched. -/
theorem W2_keep (c : Dev nD) (b : Ref sig .tc) (hb : b ≠ main_v7) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => rfl
      | ⟨3, _⟩ => exact absurd rfl hb
    exact (W2_arr m ρ c w).trans (((dat0 (V1 m ρ) c).arrAt_in w hin _).trans (A_eq0 (V1 m ρ) c w))
  · exact W2_of_ne m ρ c b fun w e => h ⟨w, e⟩
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- Region 1 changes only its output array `main_v9`: an input window's array is written back nowhere, and a
    buffer that is no window's array is not touched. -/
theorem W4_keep (c : Dev nD) (b : Ref sig .tc) (hb : b ≠ main_v9) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => exact absurd rfl hb
    exact (W4_arr m ρ c w).trans (((dat1 (V3 m ρ) c).arrAt_in w hin _).trans (A_eq1 (V3 m ρ) c w))
  · exact W4_of_ne m ρ c b fun w e => h ⟨w, e⟩
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- Region 2 changes only its output array `main_v11`: an input window's array is written back nowhere, and a
    buffer that is no window's array is not touched. -/
theorem W6_keep (c : Dev nD) (b : Ref sig .tc) (hb : b ≠ main_v11) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      match w with
      | ⟨0, _⟩ => rfl
      | ⟨1, _⟩ => rfl
      | ⟨2, _⟩ => rfl
      | ⟨3, _⟩ => exact absurd rfl hb
    exact (W6_arr m ρ c w).trans (((dat2 (V5 m ρ) c).arrAt_in w hin _).trans (A_eq2 (V5 m ρ) c w))
  · exact W6_of_ne m ρ c b fun w e => h ⟨w, e⟩
/-- Region 3 changes only its output array `main_v12`: an input window's array is written back nowhere, and a
    buffer that is no window's array is not touched. -/
theorem W7_keep (c : Dev nD) (b : Ref sig .tc) (hb : b ≠ main_v12) :
    W7 m ρ c (Proc.devRef .tc b) = W6 m ρ c (Proc.devRef .tc b) := by
  by_cases h : ∃ w, Pipeline.arrRef spec3 w = b
  · obtain ⟨w, rfl⟩ := h
    have hin : (cfg3.win w).isOut = false := by
      match w with
      | ⟨0, _⟩ => rfl
      | ⟨1, _⟩ => rfl
      | ⟨2, _⟩ => exact absurd rfl hb
    exact (W7_arr m ρ c w).trans (((dat3 (V6 m ρ) c).arrAt_in w hin _).trans (A_eq3 (V6 m ρ) c w))
  · exact W7_of_ne m ρ c b fun w e => h ⟨w, e⟩
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h
/-- Region 4 changes only its output array `main_v14`: an input window's array is written back nowhere, and a
    buffer that is no window's array is not touched. -/
theorem W9_keep (c : Dev nD) (b : Ref sig .tc) (hb : b ≠ main_v14) :
    W9 m ρ c (Proc.devRef .tc b) = W8 m ρ c (Proc.devRef .tc b) := by
  by_cases h : ∃ w, Pipeline.arrRef spec4 w = b
  · obtain ⟨w, rfl⟩ := h
    have hin : (cfg4.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W9_arr m ρ c w).trans (((dat4 (V8 m ρ) c).arrAt_in w hin _).trans (A_eq4 (V8 m ρ) c w))
  · exact W9_of_ne m ρ c b fun w e => h ⟨w, e⟩

/-- A buffer that no host operation writes and that is no region's output array reaches the end as launched. -/
theorem W9_launch (c : Dev nD) (r : Ref sig .tc)
    (h0 : r ∉ hostOps0_W) (h1 : r ≠ main_v7) (h2 : r ∉ hostOps1_W) (h3 : r ≠ main_v9) (h4 : r ∉ hostOps2_W) (h5 : r ≠ main_v11)
    (h6 : r ≠ main_v12) (h7 : r ∉ hostOps4_W) (h8 : r ≠ main_v14) :
    W9 m ρ c (Proc.devRef .tc r) = m ((c : Thread nD τ).loc r) :=
  (W9_keep m ρ c r h8).trans <| (W8_keep m ρ c r h7).trans <| (W7_keep m ρ c r h6).trans <| (W6_keep m ρ c r h5).trans <|
    (W5_keep m ρ c r h4).trans <| (W4_keep m ρ c r h3).trans <| (W3_keep m ρ c r h2).trans <| (W2_keep m ρ c r h1).trans <|
    (W1_keep m ρ c r h0).trans rfl

/-! ## The proof data family and the thread state -/

/-- No pallas_call of this program has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at `W1`, left with them at `W2`. Its arrays
    are split out of the unscoped buffers at entry and put back at the exit contents; the generator register and the
    scoped rest pass through the region's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays
    are split out of the unscoped buffers at entry and put back at the exit contents; the generator register and the
    scoped rest pass through the region's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its arrays
    are split out of the unscoped buffers at entry and put back at the exit contents; the generator register and the
    scoped rest pass through the region's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans (show (Pipeline.ΦA spec2 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W6`, left with them at `W7`. Its arrays
    are split out of the unscoped buffers at entry and put back at the exit contents; the generator register and the
    scoped rest pass through the region's invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from ?_).trans (hin3 (V6 m ρ) c)
    unfold Pipeline.ΦA
    iintro ⟨Hp, -, Hr⟩
    isplitl [Hr]; · iexact Hr
    iexact Hp
  hout c := by
    rw [Pipeline.ownSems0_none]
    refine (hout3 (V6 m ρ) c).trans (show (Pipeline.ΦA spec3 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W8`, left with them at `W9`. Its arrays
    are split out of the unscoped buffers at entry and put back at the exit contents; the generator register and the
    scoped rest pass through the region's invariant; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec4 c : sProp 𝕄) from ?_).trans (hin4 (V8 m ρ) c)
    unfold Pipeline.ΦA
    iintro ⟨Hp, -, Hr⟩
    isplitl [Hr]; · iexact Hr
    iexact Hp
  hout c := by
    rw [Pipeline.ownSems0_none]
    refine (hout4 (V8 m ρ) c).trans (show (Pipeline.ΦA spec4 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ) ]
/-- @main is the run of these segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and in
    every final state each unscoped buffer of each core holds the last boundary's contents `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
        show iprop(StableHlo.held (c : Thread nD τ) (Pipeline.ucRefs τ sig) (W9 m ρ c) ∗ (∃ r, prngReg c r) ∗ ∃ W, owes (c : Thread nD τ) (0 : CellTallies nD τ sig Unit) W) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-! ## What the run gives -/

/-- Every argument array ends as launched, and the result buffer `main_v14` ends at the last boundary's contents. -/
theorem run_result : θ_run defs (onTc (τ := τ) (main (F := F))) ⟨m, fun _ => 0, ρ⟩ (fun r => ∀ c : Dev nD,
      r.2.mem ((c.tc : Thread nD τ).loc main_v14) = W9 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v14 (by decide)),
    (h c _ (mem_uc main_arg0 (by decide))).trans (W9_launch m ρ c main_arg0 (by decide) (by decide) (by decide) (by decide) (by decide) (by decide) (by decide) (by decide) (by decide)),
    (h c _ (mem_uc main_arg1 (by decide))).trans (W9_launch m ρ c main_arg1 (by decide) (by decide) (by decide) (by decide) (by decide) (by decide) (by decide) (by decide) (by decide)),
    (h c _ (mem_uc main_arg2 (by decide))).trans (W9_launch m ρ c main_arg2 (by decide) (by decide) (by decide) (by decide) (by decide) (by decide) (by decide) (by decide) (by decide)),
    (h c _ (mem_uc main_arg3 (by decide))).trans (W9_launch m ρ c main_arg3 (by decide) (by decide) (by decide) (by decide) (by decide) (by decide) (by decide) (by decide) (by decide)),
    (h c _ (mem_uc main_arg4 (by decide))).trans (W9_launch m ρ c main_arg4 (by decide) (by decide) (by decide) (by decide) (by decide) (by decide) (by decide) (by decide) (by decide)),
    (h c _ (mem_uc main_arg5 (by decide))).trans (W9_launch m ρ c main_arg5 (by decide) (by decide) (by decide) (by decide) (by decide) (by decide) (by decide) (by decide) (by decide)),
    (h c _ (mem_uc main_arg6 (by decide))).trans (W9_launch m ρ c main_arg6 (by decide) (by decide) (by decide) (by decide) (by decide) (by decide) (by decide) (by decide) (by decide)),
    (h c _ (mem_uc main_arg7 (by decide))).trans (W9_launch m ρ c main_arg7 (by decide) (by decide) (by decide) (by decide) (by decide) (by decide) (by decide) (by decide) (by decide))⟩) (run m ρ)

/-- The frame: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_result m ρ)

end Cert.KernelIdeal.Hand

end
-- ==== Proof.Spec.lean ====
/-
  The specification of the result, stated over the eight argument arrays alone (no program is imported): three affine
  projections of the rows, the scores of every query row against every key row, a softmax taken over the QUERY axis
  (each key row j normalizes the column of scores against it), and the residual sum. Values are extended reals and every
  operation is the exact one; the arrangement is the reference's own (maximum from -∞, sum from 0, quotient by the
  column sum before the product with the values).
-/
import Idealize.ShloMosaic.PureOps.Ideal
import Idealize.ShloMosaic.Lib.ValueIdx

noncomputable section

open scoped BigOperators
open Idealize.ShloMosaic Idealize.ShloMosaic.ValueIdx

namespace Cert.Spec

/-- An 8192 × 1024 array of rows. -/
abbrev Rows : Type := FVec Ideal ⟨2, ![8192, 1024]⟩ .f32
/-- A 1024 × 1024 weight, indexed (output feature, input feature). -/
abbrev Weight : Type := FVec Ideal ⟨2, ![1024, 1024]⟩ .f32
/-- A bias over the 1024 output features. -/
abbrev Bias : Type := FVec Ideal ⟨1, ![1024]⟩ .f32

/-- A linear layer at row n, output feature d: row n of x against row d of the weight (the weight acts transposed),
    plus the bias at d. -/
def lin (x : Rows) (W : Weight) (b : Bias) (n : Fin 8192) (d : Fin 1024) : EReal :=
  (∑ k : Fin 1024, x (ix2 n k) * W (ix2 d k)) + b (ix1 d)

/-- The queries: the first projection of p. -/
def Q (p : Rows) (Wh : Weight) (bh : Bias) (i : Fin 8192) (d : Fin 1024) : EReal := lin p Wh bh i d
/-- The keys: the second projection, of r. -/
def Kk (r : Rows) (Wl : Weight) (bl : Bias) (j : Fin 8192) (d : Fin 1024) : EReal := lin r Wl bl j d
/-- The values: the third projection, of p. -/
def Vv (p : Rows) (Wg : Weight) (bg : Bias) (j : Fin 8192) (d : Fin 1024) : EReal := lin p Wg bg j d

/-- The score of query row i against key row j. -/
def S (p r : Rows) (Wh : Weight) (bh : Bias) (Wl : Weight) (bl : Bias) (i j : Fin 8192) : EReal :=
  ∑ d : Fin 1024, Q p Wh bh i d * Kk r Wl bl j d

/-- The maximum over the queries of the scores against key row j, taken from -∞ (and once more against -∞). -/
def M (p r : Rows) (Wh : Weight) (bh : Bias) (Wl : Weight) (bl : Bias) (j : Fin 8192) : EReal :=
  max ⊥ ((Finset.univ : Finset (Fin 8192)).fold max ⊥ (fun i => S p r Wh bh Wl bl i j))

/-- The exponential of a score less its column's maximum. -/
def E (p r : Rows) (Wh : Weight) (bh : Bias) (Wl : Weight) (bl : Bias) (i j : Fin 8192) : EReal :=
  Ideal.exp (S p r Wh bh Wl bl i j - M p r Wh bh Wl bl j)

/-- The column sum over the queries of those exponentials, taken from 0. -/
def L (p r : Rows) (Wh : Weight) (bh : Bias) (Wl : Weight) (bl : Bias) (j : Fin 8192) : EReal :=
  0 + ∑ i : Fin 8192, E p r Wh bh Wl bl i j

/-- The result at row i, feature d: p there plus the normalized weights of row i against the values. -/
def outAt (p r : Rows) (Wh : Weight) (bh : Bias) (Wl : Weight) (bl : Bias) (Wg : Weight) (bg : Bias)
    (i : Fin 8192) (d : Fin 1024) : EReal :=
  p (ix2 i d) + ∑ j : Fin 8192, Ideal.div (E p r Wh bh Wl bl i j) (L p r Wh bh Wl bl j) * Vv p Wg bg j d

/-- The result array. -/
def out (p r : Rows) (Wh : Weight) (bh : Bias) (Wl : Weight) (bl : Bias) (Wg : Weight) (bg : Bias) : Rows :=
  fun x => outAt p r Wh bh Wl bl Wg bg (x 0) (x 1)

theorem out_ix2 (p r : Rows) (Wh : Weight) (bh : Bias) (Wl : Weight) (bl : Bias) (Wg : Weight) (bg : Bias)
    (i : Fin 8192) (d : Fin 1024) :
    out p r Wh bh Wl bl Wg bg (ix2 i d) = outAt p r Wh bh Wl bl Wg bg i d := rfl

end Cert.Spec

end
-- ==== Proof.SpecWords.lean ====
/-
  The two constants the reductions start from, as extended reals: the word of negative infinity is the bottom
  element, and the zero word is zero.
-/
import proofs.«101729_j45303315038988_2_alg».proof.Proof.Spec

noncomputable section

open Idealize.ShloMosaic

namespace Cert.Spec

/-- The f32 word of negative infinity denotes the bottom of the extended reals. -/
theorem negInf_word : Ideal.ofBits .f32 0xFF800000#32 = (⊥ : EReal) := by simp [Ideal.ofBits, Ideal.ieee]

/-- The f32 zero word denotes zero. -/
theorem zero_word : Ideal.ofBits .f32 0x00000000#32 = (0 : EReal) := by simp [Ideal.ofBits, Ideal.ieee]

end Cert.Spec

end
-- ==== Proof.RefValue.lean ====
/-
  The reference computes the specification: read index by index at the extended reals, the reference's thirty-three
  operations compose to the three affine projections, the scores, the column maximum and column sum of the softmax
  over the query axis, and the residual sum, exactly as the specification arranges them. Each stage is read at an index
  built from literal coordinates; the transposes, broadcasts and contractions only re-index.
-/
import proofs.«101729_j45303315038988_2_alg».proof.Proof.Gen.ReferenceIdeal.Read
import proofs.«101729_j45303315038988_2_alg».proof.Proof.Spec
import proofs.«101729_j45303315038988_2_alg».proof.Proof.SpecWords

noncomputable section

open scoped BigOperators
open Idealize.ShloMosaic Idealize.ShloMosaic.TcCoe Idealize.SL.Sem Idealize.ShloMosaic.StableHlo Idealize.ShloMosaic.ValueIdx

namespace Cert.ReferenceIdeal.RefValue

open Cert.ReferenceIdeal Cert.ReferenceIdeal.Gen Cert.ReferenceIdeal.Read

/-! ## The column maximum: a reduction over the row axis, read at a column -/

/-- Inserting row i into the column index j gives the index (i, j). -/
theorem lift_col (h : S8192x8192.Reduces [0] S8192) (j i : Fin 8192) : h.lift (ix1 j) i = ix2 i j :=
  funext fun b => Fin.ext (by match b with | ⟨0, _⟩ => rfl | ⟨1, _⟩ => rfl)

/-- The reduction by maximum over the rows, at column j, is the maximum over the rows of that column's entries,
    started from the initial value. -/
theorem colMax (X : FVec Ideal S8192x8192 .f32) (c : FVec Ideal S_ .f32) (j : Fin 8192) :
    Host.reduce FloatOps.maximumf X c reducesTo_S8192x8192_S8192_d0 h_S_ (ix1 j)
      = (Finset.univ : Finset (Fin 8192)).fold max (c (Shape.Idx.first h_S_)) (fun i => X (ix2 i j)) := by
  have h : S8192x8192.Reduces [0] S8192 := by decide
  rw [Host.reduce_eq_fold_single FloatOps.maximumf X c reducesTo_S8192x8192_S8192_d0 h h_S_ (ix1 j)]
  have hf : (X ∘ h.lift (ix1 j)) = fun i : Fin 8192 => X (ix2 i j) := funext fun i => congrArg X (lift_col h j i)
  exact congrArg (fun f => Finset.fold max (c (Shape.Idx.first h_S_)) f (Finset.univ : Finset (Fin 8192))) hf

/-! ## The three projections -/

theorem queries (x0 : Spec.Rows) (x2 : Spec.Weight) (x3 : Spec.Bias) (n : Fin 8192) (d : Fin 1024) :
    val_main_v4 (F := Ideal) x0 x2 x3 (ix2 n d) = Spec.lin x0 x2 x3 n d := by
  have e1 : ∀ k : Fin 1024, lidx_main_v1 (ix2 n d) k = ix2 n k := fun k =>
    funext fun a => Fin.ext (by match a with | ⟨0, _⟩ => rfl | ⟨1, _⟩ => rfl)
  have e2 : ∀ k : Fin 1024, idx_main_v0 (ridx_main_v1 (ix2 n d) k) = ix2 d k := fun k =>
    funext fun a => Fin.ext (by match a with | ⟨0, _⟩ => rfl | ⟨1, _⟩ => rfl)
  have e3 : idx_main_v2 (idx_main_v3 (ix2 n d)) = ix1 d :=
    funext fun a => Fin.ext (by match a with | ⟨0, _⟩ => rfl)
  rw [val_main_v4_apply, val_main_v1_apply, val_main_v3_apply, val_main_v2_apply, e3]
  simp only [val_main_v0_apply, e1, e2, Ideal.addf_def]
  rfl

theorem keys (x1 : Spec.Rows) (x4 : Spec.Weight) (x5 : Spec.Bias) (n : Fin 8192) (d : Fin 1024) :
    val_main_v9 (F := Ideal) x1 x4 x5 (ix2 n d) = Spec.lin x1 x4 x5 n d := by
  have e1 : ∀ k : Fin 1024, lidx_main_v6 (ix2 n d) k = ix2 n k := fun k =>
    funext fun a => Fin.ext (by match a with | ⟨0, _⟩ => rfl | ⟨1, _⟩ => rfl)
  have e2 : ∀ k : Fin 1024, idx_main_v5 (ridx_main_v6 (ix2 n d) k) = ix2 d k := fun k =>
    funext fun a => Fin.ext (by match a with | ⟨0, _⟩ => rfl | ⟨1, _⟩ => rfl)
  have e3 : idx_main_v7 (idx_main_v8 (ix2 n d)) = ix1 d :=
    funext fun a => Fin.ext (by match a with | ⟨0, _⟩ => rfl)
  rw [val_main_v9_apply, val_main_v6_apply, val_main_v8_apply, val_main_v7_apply, e3]
  simp only [val_main_v5_apply, e1, e2, Ideal.addf_def]
  rfl

theorem values (x0 : Spec.Rows) (x6 : Spec.Weight) (x7 : Spec.Bias) (n : Fin 8192) (d : Fin 1024) :
    val_main_v14 (F := Ideal) x0 x6 x7 (ix2 n d) = Spec.lin x0 x6 x7 n d := by
  have e1 : ∀ k : Fin 1024, lidx_main_v11 (ix2 n d) k = ix2 n k := fun k =>
    funext fun a => Fin.ext (by match a with | ⟨0, _⟩ => rfl | ⟨1, _⟩ => rfl)
  have e2 : ∀ k : Fin 1024, idx_main_v10 (ridx_main_v11 (ix2 n d) k) = ix2 d k := fun k =>
    funext fun a => Fin.ext (by match a with | ⟨0, _⟩ => rfl | ⟨1, _⟩ => rfl)
  have e3 : idx_main_v12 (idx_main_v13 (ix2 n d)) = ix1 d :=
    funext fun a => Fin.ext (by match a with | ⟨0, _⟩ => rfl)
  rw [val_main_v14_apply, val_main_v11_apply, val_main_v13_apply, val_main_v12_apply, e3]
  simp only [val_main_v10_apply, e1, e2, Ideal.addf_def]
  rfl

/-! ## The scores and the softmax over the query axis -/

theorem scores (x0 x1 : Spec.Rows) (x2 : Spec.Weight) (x3 : Spec.Bias) (x4 : Spec.Weight) (x5 : Spec.Bias) (i j : Fin 8192) :
    val_main_v16 (F := Ideal) x0 x1 x2 x3 x4 x5 (ix2 i j) = Spec.S x0 x1 x2 x3 x4 x5 i j := by
  have e1 : ∀ k : Fin 1024, lidx_main_v16 (ix2 i j) k = ix2 i k := fun k =>
    funext fun a => Fin.ext (by match a with | ⟨0, _⟩ => rfl | ⟨1, _⟩ => rfl)
  have e2 : ∀ k : Fin 1024, idx_main_v15 (ridx_main_v16 (ix2 i j) k) = ix2 j k := fun k =>
    funext fun a => Fin.ext (by match a with | ⟨0, _⟩ => rfl | ⟨1, _⟩ => rfl)
  rw [val_main_v16_apply]
  simp only [val_main_v15_apply, e1, e2, queries, keys]
  rfl

theorem colMaximum (x0 x1 : Spec.Rows) (x2 : Spec.Weight) (x3 : Spec.Bias) (x4 : Spec.Weight) (x5 : Spec.Bias) (j : Fin 8192) :
    val_main_v19 (F := Ideal) x0 x1 x2 x3 x4 x5 (ix1 j) = Spec.M x0 x1 x2 x3 x4 x5 j := by
  rw [val_main_v19_apply, val_main_v18_apply, val_main_cst_0_apply]
  unfold val_main_v17
  rw [colMax, val_main_cst_apply]
  simp only [scores, Ideal.ofBits_def, Spec.negInf_word, Ideal.maximumf_def]
  rfl

theorem expo (x0 x1 : Spec.Rows) (x2 : Spec.Weight) (x3 : Spec.Bias) (x4 : Spec.Weight) (x5 : Spec.Bias) (i j : Fin 8192) :
    val_main_v23 (F := Ideal) x0 x1 x2 x3 x4 x5 (ix2 i j) = Spec.E x0 x1 x2 x3 x4 x5 i j := by
  have e1 : idx_main_v20 (idx_main_v21 (ix2 i j)) = ix1 j :=
    funext fun a => Fin.ext (by match a with | ⟨0, _⟩ => rfl)
  rw [val_main_v23_apply, val_main_v22_apply, val_main_v21_apply, val_main_v20_apply, e1, scores, colMaximum]
  simp only [Ideal.hostUnary_exp_def, Ideal.subf_def]
  rfl

theorem colSum (x0 x1 : Spec.Rows) (x2 : Spec.Weight) (x3 : Spec.Bias) (x4 : Spec.Weight) (x5 : Spec.Bias) (j : Fin 8192) :
    val_main_v24 (F := Ideal) x0 x1 x2 x3 x4 x5 (ix1 j) = Spec.L x0 x1 x2 x3 x4 x5 j := by
  have e1 : ∀ k : Fin 8192, idx_main_v24 (ix1 j) k = ix2 k j := fun k =>
    funext fun a => Fin.ext (by match a with | ⟨0, _⟩ => rfl | ⟨1, _⟩ => rfl)
  rw [val_main_v24_apply, val_main_cst_1_apply]
  simp only [e1, expo, Ideal.ofBits_def, Spec.zero_word]
  rfl

/-! ## The result -/

/-- The reference's composed term of the eight arguments is the specification's result array. -/
theorem val_eq (x0 x1 : Spec.Rows) (x2 : Spec.Weight) (x3 : Spec.Bias) (x4 : Spec.Weight) (x5 : Spec.Bias) (x6 : Spec.Weight) (x7 : Spec.Bias) :
    val_main_v29 (F := Ideal) x0 x1 x2 x3 x4 x5 x6 x7 = Spec.out x0 x1 x2 x3 x4 x5 x6 x7 := by
  funext x
  obtain ⟨i, d, rfl⟩ : ∃ (i : Fin 8192) (d : Fin 1024), x = ix2 i d := ⟨x 0, x 1, eq_ix2 x⟩
  have e1 : ∀ k : Fin 8192, lidx_main_v28 (ix2 i d) k = ix2 i k := fun k =>
    funext fun a => Fin.ext (by match a with | ⟨0, _⟩ => rfl | ⟨1, _⟩ => rfl)
  have e2 : ∀ k : Fin 8192, ridx_main_v28 (ix2 i d) k = ix2 k d := fun k =>
    funext fun a => Fin.ext (by match a with | ⟨0, _⟩ => rfl | ⟨1, _⟩ => rfl)
  have e3 : ∀ k : Fin 8192, idx_main_v25 (idx_main_v26 (ix2 i k)) = ix1 k := fun k =>
    funext fun a => Fin.ext (by match a with | ⟨0, _⟩ => rfl)
  rw [Spec.out_ix2, val_main_v29_apply, val_main_v28_apply]
  simp only [e1, e2, val_main_v27_apply, val_main_v26_apply, val_main_v25_apply, e3, expo, colSum, values,
    Ideal.addf_def, Ideal.hostDivf_def]
  rfl

/-! ## The run -/

/-- The run's result term is the specification's result of the launch contents of the eight arguments. -/
theorem ref_eq (m : (ℓ : Loc nD τ sig) → Buf (Elt Ideal) ℓ) (c : Dev nD) :
    Cert.ReferenceIdeal.Value.res_main_v29 (F := Ideal) m c = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (val_main_v29_eq (F := Ideal) m c).trans (val_eq _ _ _ _ _ _ _ _)

/-- Every weakly fair execution of the reference terminates with its result at the specification's value of the
    arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (ref_eq m c), (h c).2⟩)
    (Cert.ReferenceIdeal.Value.run (F := Ideal) m ρ)

/-- The same, against any array known to be the specification's value of the arguments. -/
theorem run_at (m : (ℓ : Loc nD τ sig) → Buf (Elt Ideal) ℓ) (ρ : Dev nD → PrngReg)
    (v : (c : Dev nD) → Buf (Elt Ideal) ((c.tc : Thread nD τ).loc main_v29))
    (hv : ∀ c : Dev nD, v c = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    θ_run (defs (F := Ideal)) (onTc (τ := τ) (main (F := Ideal))) ⟨m, fun _ => 0, ρ⟩ fun r => ∀ c : Dev nD,
      r.2.mem ((c.tc : Thread nD τ).loc main_v29) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (hv c).symm, (h c).2⟩) (run_spec m ρ)

end Cert.ReferenceIdeal.RefValue

end
-- ==== Proof.RefClaims.lean ====
/-
  The reference's share of the claims: it runs and leaves its arguments unchanged, and its result is the
  specification's value of its arguments.
-/
import proofs.«101729_j45303315038988_2_alg».proof.Defs
import proofs.«101729_j45303315038988_2_alg».proof.Proof.Gen.ReferenceIdeal
import proofs.«101729_j45303315038988_2_alg».proof.Proof.Gen.Pre_finite_inputs
import proofs.«101729_j45303315038988_2_alg».proof.Proof.RefValue

noncomputable section

open Idealize.ShloMosaic Idealize.ShloMosaic.TcCoe Idealize.SL.Sem

namespace Cert.Proof.ReferenceClaims

/-- The reference runs and its argument arrays end unchanged. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.ReferenceClaims

end
-- ==== Proof.LibOnlineSoftmax.lean ====
import Idealize.ShloMosaic.PureOps.Ideal
import Mathlib.Data.EReal.Inv
import Mathlib.Analysis.SpecialFunctions.Log.Basic
import Mathlib.Algebra.BigOperators.Fin
import Mathlib.Order.Interval.Finset.Fin

/-!
# The online softmax and the two-pass softmax are the same extended reals

One row of finite scores is cut into blocks (a block index type, and inside each block a
position type). The streaming computation carries a running maximum and a running sum of
exponentials through the blocks, rescaling the sum whenever the maximum grows; the two-pass
computation takes the maximum of the whole row first and then sums the exponentials. This file
proves, for the exact operations on the extended reals (exponential, logarithm, maximum,
difference, product, sum, quotient), that

* the carried pair after any set of blocks is the maximum over those blocks and the sum of the
  exponentials of the scores less that maximum (one step lemma, uniform in the empty start);
* after all the blocks, the weight built from the logarithm of the sum of exponentials is the
  two-pass quotient;
* a sum accumulated block by block from zero is the sum over the whole row.

The scores are reals, coerced; the only infinity that occurs is the starting maximum.
-/

namespace Cert.OnlineSoftmax

open Idealize.ShloMosaic
open scoped BigOperators

/-! ### Coercions and finite sums -/

/-- The coercion of the reals into the extended reals commutes with a finite sum. -/
theorem coe_sum {α : Type*} (t : Finset α) (f : α → ℝ) :
    ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

/-- The exponential of a difference of two reals, computed on the extended reals, is the real
    exponential of the difference. -/
theorem exp_coe_sub_coe (x m : ℝ) :
    Ideal.exp ((x : EReal) - (m : EReal)) = ((Real.exp (x - m) : ℝ) : EReal) := by
  rw [← EReal.coe_sub, Ideal.exp_coe]

/-- A finite sum of exponentials of real scores less a real shift, computed on the extended
    reals, is the coercion of the real sum. -/
theorem sum_exp_sub {α : Type*} (t : Finset α) (x : α → ℝ) (m : ℝ) :
    ∑ a ∈ t, Ideal.exp ((x a : EReal) - (m : EReal)) = ((∑ a ∈ t, Real.exp (x a - m) : ℝ) : EReal) := by
  rw [coe_sum]
  exact Finset.sum_congr rfl (fun a _ => exp_coe_sub_coe _ _)

/-- A finite sum of products of coerced reals is the coercion of the real sum of products. -/
theorem sum_mul_coe {α : Type*} (t : Finset α) (w v : α → ℝ) :
    ∑ a ∈ t, (w a : EReal) * (v a : EReal) = ((∑ a ∈ t, w a * v a : ℝ) : EReal) := by
  rw [coe_sum]
  exact Finset.sum_congr rfl (fun a _ => (EReal.coe_mul _ _).symm)

/-- The coercion of the reals into the extended reals commutes with the maximum. -/
theorem coe_max (a b : ℝ) : ((max a b : ℝ) : EReal) = max (a : EReal) (b : EReal) :=
  EReal.coe_strictMono.monotone.map_max

/-- The exponential of minus infinity less anything is zero. -/
theorem exp_bot_sub (y : EReal) : Ideal.exp (⊥ - y) = 0 := by
  rw [EReal.bot_sub, Ideal.exp_bot]

/-! ### The maximum of one block -/

section Block

variable {ι : Type*} [Fintype ι] [Nonempty ι]

/-- The maximum of the scores of one block. -/
noncomputable def blockMax (x : ι → ℝ) : ℝ := Finset.univ.sup' Finset.univ_nonempty x

/-- Every score of a block is at most the block's maximum. -/
theorem le_blockMax (x : ι → ℝ) (i : ι) : x i ≤ blockMax x :=
  Finset.le_sup' x (Finset.mem_univ i)

/-- The block's maximum is one of its scores. -/
theorem exists_eq_blockMax (x : ι → ℝ) : ∃ i, blockMax x = x i := by
  obtain ⟨i, -, hi⟩ := Finset.exists_mem_eq_sup' (Finset.univ_nonempty (α := ι)) x
  exact ⟨i, hi⟩

/-- A real that bounds a block's scores and is one of them is the block's maximum. -/
theorem eq_blockMax_of (x : ι → ℝ) (M : ℝ) (hle : ∀ i, x i ≤ M) (hex : ∃ i, M = x i) :
    M = blockMax x := by
  obtain ⟨i, hi⟩ := hex
  exact le_antisymm (hi ▸ le_blockMax x i) (Finset.sup'_le _ _ (fun j _ => hle j))

/-- The block's maximum, coerced, is the supremum from minus infinity of the coerced scores. -/
theorem coe_blockMax (x : ι → ℝ) :
    ((blockMax x : ℝ) : EReal) = Finset.univ.sup (fun i => (x i : EReal)) := by
  apply le_antisymm
  · obtain ⟨i, hi⟩ := exists_eq_blockMax x
    rw [hi]
    exact Finset.le_sup (f := fun i => (x i : EReal)) (Finset.mem_univ i)
  · exact Finset.sup_le (fun i _ => EReal.coe_le_coe_iff.2 (le_blockMax x i))

/-- An extended real that bounds the coerced scores of a block and is one of them is the
    block's maximum (for a maximum computed by any fold). -/
theorem eq_coe_blockMax_of (x : ι → ℝ) (M : EReal) (hle : ∀ i, (x i : EReal) ≤ M)
    (hex : ∃ i, M = (x i : EReal)) : M = ((blockMax x : ℝ) : EReal) := by
  obtain ⟨i, hi⟩ := hex
  rw [hi]
  congr 1
  refine eq_blockMax_of x (x i) (fun j => ?_) ⟨i, rfl⟩
  exact EReal.coe_le_coe_iff.1 (hi ▸ hle j)

end Block

/-! ### The carried maximum and sum -/

section Carried

variable {β : Type*} [DecidableEq β] {ι : Type*} [Fintype ι] [Nonempty ι] (s : β → ι → ℝ)

/-- The maximum of the scores over a set of blocks, as an extended real: minus infinity over
    no block. -/
noncomputable def runMax (T : Finset β) : EReal :=
  T.sup (fun b => ((blockMax (s b) : ℝ) : EReal))

/-- The sum over a set of blocks of the exponentials of the scores less the maximum over
    those blocks. -/
noncomputable def runSum (T : Finset β) : ℝ :=
  ∑ b ∈ T, ∑ i, Real.exp (s b i - (runMax s T).toReal)

/-- Over no block the maximum is minus infinity. -/
@[simp] theorem runMax_empty : runMax s ∅ = ⊥ := Finset.sup_empty

/-- Over no block the sum is zero. -/
@[simp] theorem runSum_empty : runSum s ∅ = 0 := Finset.sum_empty

/-- One more block: the maximum is the larger of the old maximum and the block's. -/
theorem runMax_insert (b : β) (T : Finset β) :
    runMax s (insert b T) = max (runMax s T) ((blockMax (s b) : ℝ) : EReal) := by
  rw [runMax, Finset.sup_insert, sup_comm]
  rfl

/-- Over at least one block the maximum is a real. -/
theorem runMax_eq_coe {T : Finset β} (hT : T.Nonempty) : ∃ μ : ℝ, runMax s T = (μ : EReal) := by
  obtain ⟨b, -, hb⟩ := Finset.exists_mem_eq_sup T hT (fun b => ((blockMax (s b) : ℝ) : EReal))
  exact ⟨blockMax (s b), hb⟩

/-- Every score of a block of the set is at most the set's maximum. -/
theorem coe_le_runMax {T : Finset β} {b : β} (hb : b ∈ T) (i : ι) : (s b i : EReal) ≤ runMax s T :=
  le_trans (EReal.coe_le_coe_iff.2 (le_blockMax (s b) i))
    (Finset.le_sup (f := fun b => ((blockMax (s b) : ℝ) : EReal)) hb)

/-- Over at least one block the sum is positive. -/
theorem runSum_pos {T : Finset β} (hT : T.Nonempty) : 0 < runSum s T := by
  obtain ⟨b, hb⟩ := hT
  refine Finset.sum_pos' (fun c _ => Finset.sum_nonneg (fun i _ => (Real.exp_pos _).le)) ⟨b, hb, ?_⟩
  exact Finset.sum_pos (fun i _ => Real.exp_pos _) Finset.univ_nonempty

/-- Rescaling by the exponential of the old maximum less the new one moves a sum of
    exponentials from the old shift to the new, and the new block's terms join it. -/
theorem rescale_add (T : Finset β) {b : β} (hb : b ∉ T) (μ μ' : ℝ) :
    Real.exp (μ - μ') * (∑ c ∈ T, ∑ i, Real.exp (s c i - μ)) + ∑ i, Real.exp (s b i - μ')
      = ∑ c ∈ insert b T, ∑ i, Real.exp (s c i - μ') := by
  rw [Finset.sum_insert hb, add_comm, Finset.mul_sum]
  congr 1
  refine Finset.sum_congr rfl (fun c _ => ?_)
  rw [Finset.mul_sum]
  refine Finset.sum_congr rfl (fun i _ => ?_)
  rw [← Real.exp_add]
  congr 1
  ring

/-- The pair carried by the streaming computation after the blocks of T: the maximum over
    them and the sum of exponentials less that maximum. -/
def Carried (T : Finset β) (m l : EReal) : Prop :=
  m = runMax s T ∧ l = ((runSum s T : ℝ) : EReal)

/-- Before any block the carried pair is minus infinity and zero. -/
theorem carried_empty : Carried s ∅ ⊥ 0 := by
  refine ⟨(runMax_empty s).symm, ?_⟩
  rw [runSum_empty, EReal.coe_zero]

/-- One step of the streaming computation, in the operations of the extended reals: the new
    maximum is the larger of the carried one and the block's; the new sum is the carried sum
    times the exponential of the old maximum less the new, plus the block's sum of exponentials
    (itself accumulated from zero). From the pair of the blocks T it gives the pair of
    T with the block b added. At the start (no block, minus infinity and zero) the rescaling
    factor is the exponential of minus infinity, zero. -/
theorem Carried.step {T : Finset β} {b : β} (hb : b ∉ T) {m l : EReal} (h : Carried s T m l) :
    Carried s (insert b T) (max m ((blockMax (s b) : ℝ) : EReal))
      (Ideal.exp (m - max m ((blockMax (s b) : ℝ) : EReal)) * l
        + (0 + ∑ i, Ideal.exp ((s b i : EReal) - max m ((blockMax (s b) : ℝ) : EReal)))) := by
  obtain ⟨hm, hl⟩ := h
  subst hm hl
  refine ⟨(runMax_insert s b T).symm, ?_⟩
  rcases T.eq_empty_or_nonempty with rfl | hT
  · rw [runMax_empty, max_eq_right bot_le, exp_bot_sub, zero_mul, zero_add, zero_add, sum_exp_sub]
    congr 1
    rw [runSum, Finset.sum_insert (Finset.notMem_empty b), Finset.sum_empty, add_zero,
      runMax_insert, runMax_empty, max_eq_right bot_le, EReal.toReal_coe]
  · obtain ⟨μ, hμ⟩ := runMax_eq_coe s hT
    have hμ' : runMax s (insert b T) = ((max μ (blockMax (s b)) : ℝ) : EReal) := by
      rw [runMax_insert, hμ, coe_max]
    rw [hμ, ← coe_max, exp_coe_sub_coe, sum_exp_sub, zero_add, ← EReal.coe_mul, ← EReal.coe_add]
    congr 1
    rw [runSum, runSum, hμ, hμ', EReal.toReal_coe, EReal.toReal_coe]
    exact rescale_add s T hb μ _

/-- The same step with the block's maximum and the block's sum of exponentials given as
    extended reals known to be the right values (however they were folded). -/
theorem Carried.step_of {T : Finset β} {b : β} (hb : b ∉ T) {m l bm bs : EReal} (h : Carried s T m l)
    (hbm : bm = ((blockMax (s b) : ℝ) : EReal))
    (hbs : bs = ∑ i, Ideal.exp ((s b i : EReal) - max m bm)) :
    Carried s (insert b T) (max m bm) (Ideal.exp (m - max m bm) * l + (0 + bs)) := by
  subst hbm hbs
  exact h.step s hb

end Carried

/-! ### After all the blocks: the two-pass quantities -/

section Total

variable {β : Type*} [DecidableEq β] [Fintype β] [Nonempty β] {ι : Type*} [Fintype ι] [Nonempty ι]
  (s : β → ι → ℝ)

/-- The maximum of all the scores of the row. -/
noncomputable def totalMax : ℝ :=
  Finset.univ.sup' Finset.univ_nonempty (fun p : β × ι => s p.1 p.2)

/-- The sum over the whole row of the exponentials of the scores less the row's maximum. -/
noncomputable def totalSum : ℝ := ∑ p : β × ι, Real.exp (s p.1 p.2 - totalMax s)

/-- Every score is at most the row's maximum. -/
theorem le_totalMax (b : β) (i : ι) : s b i ≤ totalMax s :=
  Finset.le_sup' (fun p : β × ι => s p.1 p.2) (Finset.mem_univ (b, i))

/-- The row's maximum is one of the scores. -/
theorem exists_eq_totalMax : ∃ b i, totalMax s = s b i := by
  obtain ⟨p, -, hp⟩ := Finset.exists_mem_eq_sup' (Finset.univ_nonempty (α := β × ι))
    (fun p : β × ι => s p.1 p.2)
  exact ⟨p.1, p.2, hp⟩

/-- A real that bounds all the scores and is one of them is the row's maximum. -/
theorem eq_totalMax_of (M : ℝ) (hle : ∀ b i, s b i ≤ M) (hex : ∃ b i, M = s b i) :
    M = totalMax s := by
  obtain ⟨b, i, hi⟩ := hex
  exact le_antisymm (hi ▸ le_totalMax s b i) (Finset.sup'_le _ _ (fun p _ => hle p.1 p.2))

/-- An extended real that bounds all the coerced scores and is one of them is the row's
    maximum (for a maximum computed by any fold, from minus infinity or not). -/
theorem eq_coe_totalMax_of (M : EReal) (hle : ∀ b i, (s b i : EReal) ≤ M)
    (hex : ∃ b i, M = (s b i : EReal)) : M = ((totalMax s : ℝ) : EReal) := by
  obtain ⟨b, i, hi⟩ := hex
  rw [hi]
  congr 1
  refine eq_totalMax_of s (s b i) (fun c j => ?_) ⟨b, i, rfl⟩
  exact EReal.coe_le_coe_iff.1 (hi ▸ hle c j)

/-- The row's maximum, coerced, is the larger of minus infinity and the supremum of the
    coerced scores over all blocks and positions. -/
theorem coe_totalMax :
    ((totalMax s : ℝ) : EReal) = max ⊥ (Finset.univ.sup (fun p : β × ι => (s p.1 p.2 : EReal))) := by
  rw [max_eq_right bot_le]
  symm
  apply eq_coe_totalMax_of
  · intro b i
    exact Finset.le_sup (f := fun p : β × ι => (s p.1 p.2 : EReal)) (Finset.mem_univ (b, i))
  · obtain ⟨p, -, hp⟩ := Finset.exists_mem_eq_sup (Finset.univ : Finset (β × ι)) Finset.univ_nonempty
      (fun p : β × ι => (s p.1 p.2 : EReal))
    exact ⟨p.1, p.2, hp⟩

/-- The maximum carried after all the blocks is the row's maximum. -/
theorem runMax_univ : runMax s Finset.univ = ((totalMax s : ℝ) : EReal) := by
  apply eq_coe_totalMax_of
  · intro b i
    exact coe_le_runMax s (Finset.mem_univ b) i
  · obtain ⟨b, -, hb⟩ := Finset.exists_mem_eq_sup (Finset.univ : Finset β) Finset.univ_nonempty
      (fun b => ((blockMax (s b) : ℝ) : EReal))
    obtain ⟨i, hi⟩ := exists_eq_blockMax (s b)
    exact ⟨b, i, by rw [runMax, hb, hi]⟩

/-- The sum carried after all the blocks is the row's sum of exponentials. -/
theorem runSum_univ : runSum s Finset.univ = totalSum s := by
  rw [runSum, totalSum, runMax_univ, EReal.toReal_coe, Fintype.sum_prod_type]

/-- The row's sum of exponentials is positive. -/
theorem totalSum_pos : 0 < totalSum s :=
  Finset.sum_pos (fun p _ => Real.exp_pos _) Finset.univ_nonempty

/-- The row's sum of exponentials, computed on the extended reals from zero over all blocks
    and positions, is the coercion of the real sum. -/
theorem coe_totalSum :
    ((totalSum s : ℝ) : EReal)
      = 0 + ∑ p : β × ι, Ideal.exp ((s p.1 p.2 : EReal) - ((totalMax s : ℝ) : EReal)) := by
  rw [zero_add, totalSum, sum_exp_sub]

/-- After all the blocks the carried pair is the row's maximum and the row's sum of
    exponentials, both real, the sum positive. -/
theorem Carried.univ_eq {m l : EReal} (h : Carried s Finset.univ m l) :
    m = ((totalMax s : ℝ) : EReal) ∧ l = ((totalSum s : ℝ) : EReal) ∧ 0 < totalSum s := by
  obtain ⟨hm, hl⟩ := h
  exact ⟨hm.trans (runMax_univ s), hl.trans (by rw [runSum_univ]), totalSum_pos s⟩

/-- The streaming weight is the two-pass weight: with M a real and L a positive real, the
    exponential of a real score less (M plus the logarithm of L) is the exponential of the
    score less M, divided by L — in the operations of the extended reals. -/
theorem exp_sub_lse (x M L : ℝ) (hL : 0 < L) :
    Ideal.exp ((x : EReal) - ((M : EReal) + Ideal.log (L : EReal)))
      = Ideal.div (Ideal.exp ((x : EReal) - (M : EReal))) (L : EReal) := by
  rw [Ideal.log_coe, if_neg (not_le.2 hL), ← EReal.coe_add, exp_coe_sub_coe, exp_coe_sub_coe,
    Ideal.div_coe hL.ne', ← EReal.coe_mul]
  congr 1
  rw [← sub_sub, Real.exp_sub, Real.exp_log hL, one_div, div_eq_mul_inv]

/-- After all the blocks, the weight the streaming computation gives a score — the
    exponential of the score less (carried maximum plus logarithm of carried sum) — is the
    two-pass weight: the exponential of the score less the row's maximum, divided by the
    row's sum of exponentials. -/
theorem Carried.weight_eq {m l : EReal} (h : Carried s Finset.univ m l) (x : ℝ) :
    Ideal.exp ((x : EReal) - (m + Ideal.log l))
      = Ideal.div (Ideal.exp ((x : EReal) - ((totalMax s : ℝ) : EReal))) ((totalSum s : ℝ) : EReal) := by
  obtain ⟨hm, hl, hpos⟩ := h.univ_eq s
  rw [hm, hl]
  exact exp_sub_lse x _ _ hpos

/-- The same with the two-pass maximum and sum given as extended reals known to be the right
    values. -/
theorem Carried.weight_eq_of {m l M L : EReal} (h : Carried s Finset.univ m l) (x : ℝ)
    (hM : M = ((totalMax s : ℝ) : EReal)) (hL : L = ((totalSum s : ℝ) : EReal)) :
    Ideal.exp ((x : EReal) - (m + Ideal.log l)) = Ideal.div (Ideal.exp ((x : EReal) - M)) L := by
  subst hM hL
  exact h.weight_eq s x

/-- The logarithm of the sum of exponentials carried after all the blocks is a real: the
    row's maximum plus the logarithm of the row's sum. -/
theorem Carried.lse_eq {m l : EReal} (h : Carried s Finset.univ m l) :
    m + Ideal.log l = ((totalMax s + Real.log (totalSum s) : ℝ) : EReal) := by
  obtain ⟨hm, hl, hpos⟩ := h.univ_eq s
  rw [hm, hl, Ideal.log_coe, if_neg (not_le.2 hpos), EReal.coe_add]

end Total

/-! ### A sum accumulated block by block -/

section Accumulate

variable {β : Type*} [DecidableEq β] {ι : Type*} [Fintype ι] (w v : β → ι → ℝ)

/-- One step of the accumulation: the sum of products over the blocks of T, plus the
    block b's sum of products (itself accumulated from zero), is the sum over T with
    b added. -/
theorem acc_step {T : Finset β} {b : β} (hb : b ∉ T) :
    ((∑ c ∈ T, ∑ i, w c i * v c i : ℝ) : EReal) + (0 + ∑ i, (w b i : EReal) * (v b i : EReal))
      = ((∑ c ∈ insert b T, ∑ i, w c i * v c i : ℝ) : EReal) := by
  rw [zero_add, sum_mul_coe, ← EReal.coe_add, Finset.sum_insert hb, add_comm]

/-- Before any block the accumulator is zero. -/
theorem acc_empty : (0 : EReal) = ((∑ c ∈ (∅ : Finset β), ∑ i, w c i * v c i : ℝ) : EReal) := by
  rw [Finset.sum_empty, EReal.coe_zero]

/-- After all the blocks the accumulator is the sum, on the extended reals, of the products
    over all blocks and positions. -/
theorem acc_univ [Fintype β] :
    ((∑ c, ∑ i, w c i * v c i : ℝ) : EReal) = ∑ p : β × ι, (w p.1 p.2 : EReal) * (v p.1 p.2 : EReal) := by
  rw [sum_mul_coe, Fintype.sum_prod_type]

end Accumulate

/-! ### Blocks numbered 0, …, n, taken in order -/

section FinBlocks

variable {n : ℕ}

/-- The blocks up to the first one are that block alone. -/
theorem Iic_zero : Finset.Iic (0 : Fin (n + 1)) = insert 0 ∅ := by
  ext c
  simp [Fin.le_iff_val_le_val]

/-- The blocks up to the next one are the blocks so far and the next one. -/
theorem Iic_succ (b : Fin n) : Finset.Iic b.succ = insert b.succ (Finset.Iic b.castSucc) := by
  ext c
  simp only [Finset.mem_Iic, Finset.mem_insert, Fin.le_iff_val_le_val, Fin.ext_iff, Fin.val_succ,
    Fin.coe_castSucc]
  omega

/-- The next block is not among the blocks so far. -/
theorem succ_notMem_Iic (b : Fin n) : b.succ ∉ Finset.Iic b.castSucc := by
  simp only [Finset.mem_Iic, Fin.le_iff_val_le_val, Fin.val_succ, Fin.coe_castSucc]
  omega

/-- The blocks up to the last one are all the blocks. -/
theorem Iic_last : Finset.Iic (Fin.last n) = Finset.univ := by
  ext c
  simp [Fin.le_last]

variable {ι : Type*} [Fintype ι]

/-- The streaming recurrence over blocks 0, …, n taken in order, for any sequence of pairs
    that obeys it from minus infinity and zero: after block b the pair is the maximum over
    blocks 0, …, b and the sum of exponentials less that maximum. -/
theorem carried_fin [Nonempty ι] (s : Fin (n + 1) → ι → ℝ) (m l : Fin (n + 1) → EReal)
    (hm0 : m 0 = max ⊥ ((blockMax (s 0) : ℝ) : EReal))
    (hl0 : l 0 = Ideal.exp (⊥ - m 0) * 0 + (0 + ∑ i, Ideal.exp ((s 0 i : EReal) - m 0)))
    (hmS : ∀ b : Fin n, m b.succ = max (m b.castSucc) ((blockMax (s b.succ) : ℝ) : EReal))
    (hlS : ∀ b : Fin n, l b.succ = Ideal.exp (m b.castSucc - m b.succ) * l b.castSucc
      + (0 + ∑ i, Ideal.exp ((s b.succ i : EReal) - m b.succ))) :
    ∀ b, Carried s (Finset.Iic b) (m b) (l b) := by
  intro b
  induction b using Fin.induction with
  | zero =>
    rw [Iic_zero, hl0, hm0]
    exact (carried_empty s).step s (Finset.notMem_empty _)
  | succ b ih =>
    rw [Iic_succ, hlS, hmS]
    exact ih.step s (succ_notMem_Iic b)

/-- The accumulation over blocks 0, …, n taken in order, for any sequence that obeys it from
    zero: after block b the accumulator is the sum of products over blocks 0, …, b. -/
theorem acc_fin (w v : Fin (n + 1) → ι → ℝ) (acc : Fin (n + 1) → EReal)
    (h0 : acc 0 = 0 + (0 + ∑ i, (w 0 i : EReal) * (v 0 i : EReal)))
    (hS : ∀ b : Fin n, acc b.succ = acc b.castSucc + (0 + ∑ i, (w b.succ i : EReal) * (v b.succ i : EReal))) :
    ∀ b, acc b = ((∑ c ∈ Finset.Iic b, ∑ i, w c i * v c i : ℝ) : EReal) := by
  intro b
  induction b using Fin.induction with
  | zero =>
    rw [Iic_zero, h0, acc_empty w v]
    exact acc_step w v (Finset.notMem_empty _)
  | succ b ih =>
    rw [Iic_succ, hS, ih]
    exact acc_step w v (succ_notMem_Iic b)

end FinBlocks

/-! ### A row given by one flat index, cut into blocks by a bijection -/

section Flat

variable {β : Type*} [DecidableEq β] [Fintype β] [Nonempty β] {ι : Type*} [Fintype ι] [Nonempty ι]
  {κ : Type*} [Fintype κ] (e : β × ι ≃ κ) (t : κ → ℝ)

/-- The scores of a flat row, read block by block through a bijection between (block, position)
    pairs and flat indices. -/
def cut (b : β) (i : ι) : ℝ := t (e (b, i))

/-- An extended real that bounds the coerced scores of a flat row and is one of them is the
    maximum of the row cut into blocks. -/
theorem eq_coe_totalMax_cut_of (M : EReal) (hle : ∀ k, (t k : EReal) ≤ M) (hex : ∃ k, M = (t k : EReal)) :
    M = ((totalMax (cut e t) : ℝ) : EReal) := by
  apply eq_coe_totalMax_of
  · intro b i
    exact hle (e (b, i))
  · obtain ⟨k, hk⟩ := hex
    refine ⟨(e.symm k).1, (e.symm k).2, ?_⟩
    rw [hk, cut, Prod.mk.eta, Equiv.apply_symm_apply]

/-- The maximum of the row cut into blocks, coerced, is the larger of minus infinity and the
    supremum of the coerced scores over the flat index. -/
theorem coe_totalMax_cut :
    ((totalMax (cut e t) : ℝ) : EReal) = max ⊥ (Finset.univ.sup (fun k => (t k : EReal))) := by
  rw [max_eq_right bot_le]
  symm
  apply eq_coe_totalMax_cut_of
  · intro k
    exact Finset.le_sup (f := fun k => (t k : EReal)) (Finset.mem_univ k)
  · haveI : Nonempty κ := ⟨e (Classical.arbitrary β, Classical.arbitrary ι)⟩
    obtain ⟨k, -, hk⟩ := Finset.exists_mem_eq_sup (Finset.univ : Finset κ) Finset.univ_nonempty
      (fun k => (t k : EReal))
    exact ⟨k, hk⟩

/-- The sum of exponentials of the row cut into blocks is the sum over the flat index. -/
theorem totalSum_cut : totalSum (cut e t) = ∑ k, Real.exp (t k - totalMax (cut e t)) := by
  rw [totalSum]
  exact Fintype.sum_equiv e _ _ (fun p => rfl)

/-- The same sum computed on the extended reals from zero over the flat index. -/
theorem coe_totalSum_cut :
    ((totalSum (cut e t) : ℝ) : EReal)
      = 0 + ∑ k, Ideal.exp ((t k : EReal) - ((totalMax (cut e t) : ℝ) : EReal)) := by
  rw [zero_add, totalSum_cut, sum_exp_sub]

/-- A sum of products over blocks and positions is the sum, on the extended reals, of the
    products over the flat index. -/
theorem acc_univ_cut (W V : κ → ℝ) :
    ((∑ c, ∑ i, cut e W c i * cut e V c i : ℝ) : EReal) = ∑ k, (W k : EReal) * (V k : EReal) := by
  rw [sum_mul_coe, ← Fintype.sum_prod_type (f := fun p : β × ι => cut e W p.1 p.2 * cut e V p.1 p.2)]
  congr 1
  exact Fintype.sum_equiv e _ _ (fun p => rfl)

end Flat

end Cert.OnlineSoftmax
-- ==== Proof.SpecBridge.lean ====
import proofs.«101729_j45303315038988_2_alg».proof.Proof.Spec
import proofs.«101729_j45303315038988_2_alg».proof.Proof.LibOnlineSoftmax

/-!
# From the blockwise recurrences to the specification

The specification normalizes, for each key row, the column of scores against it over all 8192
query rows, and then sums the normalized weights against the values over all 8192 key rows.
The streaming computation walks each of these axes in 16 blocks of 512. Given real witnesses
for the scores and the values, this file turns the blockwise carried maximum and sum of a key
row's column into the specification's column maximum and column sum, the weight built from the
logarithm of the sum of exponentials into the specification's quotient, and the blockwise
accumulated products into the specification's result entry.
-/

noncomputable section

open scoped BigOperators
open Idealize.ShloMosaic Idealize.ShloMosaic.ValueIdx
open Cert.OnlineSoftmax

namespace Cert.SpecBridge

/-- Row 512 · b + i of the 8192: position i of block b. -/
def qIdx (b : Fin 16) (i : Fin 512) : Fin 8192 := ⟨512 * b.val + i.val, by omega⟩

@[simp] theorem qIdx_val (b : Fin 16) (i : Fin 512) : (qIdx b i).val = 512 * b.val + i.val := rfl

/-- The 8192 rows are the 16 blocks of 512 positions. -/
def qEquiv : Fin 16 × Fin 512 ≃ Fin 8192 where
  toFun p := qIdx p.1 p.2
  invFun k := (⟨k.val / 512, by omega⟩, ⟨k.val % 512, by omega⟩)
  left_inv p := by
    obtain ⟨b, i⟩ := p
    apply Prod.ext <;> apply Fin.ext <;> simp only [qIdx_val] <;> omega
  right_inv k := by
    apply Fin.ext
    simp only [qIdx_val]
    omega

@[simp] theorem qEquiv_apply (b : Fin 16) (i : Fin 512) : qEquiv (b, i) = qIdx b i := rfl

/-- The column of real scores against key row j, cut into the 16 query blocks. -/
def col (sR : Fin 8192 → Fin 8192 → ℝ) (j : Fin 8192) : Fin 16 → Fin 512 → ℝ :=
  fun b i => sR (qIdx b i) j

theorem col_eq_cut (sR : Fin 8192 → Fin 8192 → ℝ) (j : Fin 8192) :
    col sR j = cut qEquiv (fun k => sR k j) := rfl

/-- A fold of the maximum from minus infinity is the supremum. -/
theorem fold_max_bot_eq_sup {α : Type*} (t : Finset α) (f : α → EReal) :
    t.fold max ⊥ f = t.sup f := by
  apply le_antisymm
  · rw [Finset.fold_max_le]
    exact ⟨bot_le, fun x hx => Finset.le_sup hx⟩
  · apply Finset.sup_le
    intro x hx
    rw [Finset.le_fold_max]
    exact Or.inr ⟨x, hx, le_rfl⟩

section Scores

variable (p r : Cert.Spec.Rows) (Wh : Cert.Spec.Weight) (bh : Cert.Spec.Bias) (Wl : Cert.Spec.Weight)
  (bl : Cert.Spec.Bias) (sR : Fin 8192 → Fin 8192 → ℝ)
  (hS : ∀ i j, Cert.Spec.S p r Wh bh Wl bl i j = ((sR i j : ℝ) : EReal))

include hS

/-- The specification's column maximum is the maximum of the column cut into blocks. -/
theorem M_eq (j : Fin 8192) :
    Cert.Spec.M p r Wh bh Wl bl j = ((totalMax (col sR j) : ℝ) : EReal) := by
  rw [Cert.Spec.M, fold_max_bot_eq_sup, col_eq_cut, coe_totalMax_cut]
  simp only [hS]

/-- The specification's exponential of a score less its column's maximum, as a real. -/
theorem E_eq (i j : Fin 8192) :
    Cert.Spec.E p r Wh bh Wl bl i j = ((Real.exp (sR i j - totalMax (col sR j)) : ℝ) : EReal) := by
  rw [Cert.Spec.E, M_eq p r Wh bh Wl bl sR hS, hS, exp_coe_sub_coe]

/-- The specification's column sum is the sum of exponentials of the column cut into blocks. -/
theorem L_eq (j : Fin 8192) :
    Cert.Spec.L p r Wh bh Wl bl j = ((totalSum (col sR j) : ℝ) : EReal) := by
  rw [Cert.Spec.L, col_eq_cut, coe_totalSum_cut]
  refine congrArg (fun z => (0 : EReal) + z) (Finset.sum_congr rfl (fun i _ => ?_))
  rw [Cert.Spec.E, M_eq p r Wh bh Wl bl sR hS, hS, col_eq_cut]

/-- The pair carried after the 16 query blocks of key row j's column is the specification's
    column maximum and column sum. -/
theorem M_L_of_carried (j : Fin 8192) {m l : EReal}
    (h : Carried (fun b i => sR (qIdx b i) j) Finset.univ m l) :
    m = Cert.Spec.M p r Wh bh Wl bl j ∧ l = Cert.Spec.L p r Wh bh Wl bl j := by
  obtain ⟨hm, hl, -⟩ := Carried.univ_eq (col sR j) h
  rw [M_eq p r Wh bh Wl bl sR hS, L_eq p r Wh bh Wl bl sR hS]
  exact ⟨hm, hl⟩

/-- The weight built from the carried pair after the 16 query blocks — the exponential of the
    score less (maximum plus logarithm of sum) — is the specification's quotient. -/
theorem weight_of_carried (i j : Fin 8192) {m l : EReal}
    (h : Carried (fun b i' => sR (qIdx b i') j) Finset.univ m l) :
    Ideal.exp (Cert.Spec.S p r Wh bh Wl bl i j - (m + Ideal.log l))
      = Ideal.div (Cert.Spec.E p r Wh bh Wl bl i j) (Cert.Spec.L p r Wh bh Wl bl j) := by
  rw [hS, Carried.weight_eq (col sR j) h, E_eq p r Wh bh Wl bl sR hS, L_eq p r Wh bh Wl bl sR hS,
    exp_coe_sub_coe]

/-- The real weight of query row i against key row j: the exponential of the score less the
    column's logarithm of the sum of exponentials. -/
def wR (sR : Fin 8192 → Fin 8192 → ℝ) (i j : Fin 8192) : ℝ :=
  Real.exp (sR i j - (totalMax (col sR j) + Real.log (totalSum (col sR j))))

omit hS in
/-- A logarithm of the sum of exponentials built from a carried pair is the real one. -/
theorem lse_eq_of_carried {j : Fin 8192} {x : EReal}
    (h : ∃ m l, Carried (fun b i' => sR (qIdx b i') j) Finset.univ m l ∧ x = m + Ideal.log l) :
    x = ((totalMax (col sR j) + Real.log (totalSum (col sR j)) : ℝ) : EReal) := by
  obtain ⟨m, l, hc, hx⟩ := h
  rw [hx]
  exact Carried.lse_eq (col sR j) hc

/-- The streaming weight, with the logarithm of the sum of exponentials read from a carried
    pair, is the real weight. -/
theorem exp_sub_lse_eq_wR (i j : Fin 8192) {x : EReal}
    (h : ∃ m l, Carried (fun b i' => sR (qIdx b i') j) Finset.univ m l ∧ x = m + Ideal.log l) :
    Ideal.exp (Cert.Spec.S p r Wh bh Wl bl i j - x) = ((wR sR i j : ℝ) : EReal) := by
  rw [lse_eq_of_carried sR h, hS, exp_coe_sub_coe, wR]

/-- The specification's quotient is the real weight. -/
theorem div_E_L_eq_wR (i j : Fin 8192) :
    Ideal.div (Cert.Spec.E p r Wh bh Wl bl i j) (Cert.Spec.L p r Wh bh Wl bl j) = ((wR sR i j : ℝ) : EReal) := by
  have h : Carried (fun b i' => sR (qIdx b i') j) Finset.univ
      (runMax (col sR j) Finset.univ) ((runSum (col sR j) Finset.univ : ℝ) : EReal) := ⟨rfl, rfl⟩
  rw [← weight_of_carried p r Wh bh Wl bl sR hS i j h]
  exact exp_sub_lse_eq_wR p r Wh bh Wl bl sR hS i j ⟨_, _, h, rfl⟩

end Scores

section Result

variable (p r : Cert.Spec.Rows) (Wh : Cert.Spec.Weight) (bh : Cert.Spec.Bias) (Wl : Cert.Spec.Weight)
  (bl : Cert.Spec.Bias) (Wg : Cert.Spec.Weight) (bg : Cert.Spec.Bias)
  (sR : Fin 8192 → Fin 8192 → ℝ) (vR : Fin 8192 → Fin 1024 → ℝ)
  (hS : ∀ i j, Cert.Spec.S p r Wh bh Wl bl i j = ((sR i j : ℝ) : EReal))
  (hV : ∀ j d, Cert.Spec.Vv p Wg bg j d = ((vR j d : ℝ) : EReal))

/-- The real sum, over the key blocks of T, of the weights of query row i against the values
    at feature d. -/
def accR (sR : Fin 8192 → Fin 8192 → ℝ) (vR : Fin 8192 → Fin 1024 → ℝ) (i : Fin 8192) (d : Fin 1024)
    (T : Finset (Fin 16)) : ℝ :=
  ∑ c ∈ T, ∑ jj : Fin 512, wR sR i (qIdx c jj) * vR (qIdx c jj) d

/-- Over no key block the real sum is zero. -/
theorem accR_empty (i : Fin 8192) (d : Fin 1024) : ((accR sR vR i d ∅ : ℝ) : EReal) = 0 := by
  rw [accR, Finset.sum_empty, EReal.coe_zero]

include hS hV

/-- The specification's result entry is p there plus the real sum of weights against values
    over the 8192 key rows. -/
theorem outAt_eq (i : Fin 8192) (d : Fin 1024) :
    Cert.Spec.outAt p r Wh bh Wl bl Wg bg i d
      = p (ix2 i d) + ((∑ j : Fin 8192, wR sR i j * vR j d : ℝ) : EReal) := by
  rw [Cert.Spec.outAt, ← sum_mul_coe]
  refine congrArg (fun z => p (ix2 i d) + z) (Finset.sum_congr rfl (fun j _ => ?_))
  rw [div_E_L_eq_wR p r Wh bh Wl bl sR hS, hV]

/-- One key block's sum of streaming weights against values is the coercion of the real block
    sum. -/
theorem block_eq (i : Fin 8192) (d : Fin 1024) (lse : Fin 8192 → EReal)
    (hlse : ∀ j, ∃ m l, Carried (fun b i' => sR (qIdx b i') j) Finset.univ m l ∧ lse j = m + Ideal.log l)
    (kb : Fin 16) :
    ∑ jj : Fin 512, Ideal.exp (Cert.Spec.S p r Wh bh Wl bl i (qIdx kb jj) - lse (qIdx kb jj))
        * Cert.Spec.Vv p Wg bg (qIdx kb jj) d
      = ((∑ jj : Fin 512, wR sR i (qIdx kb jj) * vR (qIdx kb jj) d : ℝ) : EReal) := by
  rw [← sum_mul_coe]
  refine Finset.sum_congr rfl (fun jj _ => ?_)
  rw [exp_sub_lse_eq_wR p r Wh bh Wl bl sR hS i (qIdx kb jj) (hlse (qIdx kb jj)), hV]

/-- One step of the accumulation over key blocks: the real sum over the blocks of T, plus the
    block kb's sum of streaming weights against values, is the real sum over T with kb added. -/
theorem accR_step (i : Fin 8192) (d : Fin 1024) (lse : Fin 8192 → EReal)
    (hlse : ∀ j, ∃ m l, Carried (fun b i' => sR (qIdx b i') j) Finset.univ m l ∧ lse j = m + Ideal.log l)
    {T : Finset (Fin 16)} {kb : Fin 16} (hkb : kb ∉ T) :
    ((accR sR vR i d T : ℝ) : EReal)
        + ∑ jj : Fin 512, Ideal.exp (Cert.Spec.S p r Wh bh Wl bl i (qIdx kb jj) - lse (qIdx kb jj))
          * Cert.Spec.Vv p Wg bg (qIdx kb jj) d
      = ((accR sR vR i d (insert kb T) : ℝ) : EReal) := by
  rw [block_eq p r Wh bh Wl bl Wg bg sR vR hS hV i d lse hlse kb, ← EReal.coe_add, accR, accR,
    Finset.sum_insert hkb, add_comm]

omit hV in
/-- After all 16 key blocks, p plus the real sum is the specification's result entry. -/
theorem outAt_of_accR_univ (hV : ∀ j d, Cert.Spec.Vv p Wg bg j d = ((vR j d : ℝ) : EReal))
    (i : Fin 8192) (d : Fin 1024) :
    p (ix2 i d) + ((accR sR vR i d Finset.univ : ℝ) : EReal) = Cert.Spec.outAt p r Wh bh Wl bl Wg bg i d := by
  rw [outAt_eq p r Wh bh Wl bl Wg bg sR vR hS hV]
  refine congrArg (fun z => p (ix2 i d) + z) ?_
  have h := acc_univ_cut qEquiv (wR sR i) (fun k => vR k d)
  rw [sum_mul_coe] at h
  exact h

/-- The accumulation over the 16 key blocks in order, each block's sum added as it stands, the
    first block's sum being the first accumulator: p plus the last accumulator is the
    specification's result entry. -/
theorem outAt_of_acc_bare (i : Fin 8192) (d : Fin 1024) (lse : Fin 8192 → EReal)
    (hlse : ∀ j, ∃ m l, Carried (fun b i' => sR (qIdx b i') j) Finset.univ m l ∧ lse j = m + Ideal.log l)
    (acc : Fin 16 → EReal)
    (h0 : acc 0 = ∑ jj : Fin 512, Ideal.exp (Cert.Spec.S p r Wh bh Wl bl i (qIdx 0 jj) - lse (qIdx 0 jj))
      * Cert.Spec.Vv p Wg bg (qIdx 0 jj) d)
    (hA : ∀ kb : Fin 15, acc kb.succ = acc kb.castSucc
      + ∑ jj : Fin 512, Ideal.exp (Cert.Spec.S p r Wh bh Wl bl i (qIdx kb.succ jj) - lse (qIdx kb.succ jj))
        * Cert.Spec.Vv p Wg bg (qIdx kb.succ jj) d) :
    p (ix2 i d) + acc (Fin.last 15) = Cert.Spec.outAt p r Wh bh Wl bl Wg bg i d := by
  have hfin := acc_fin (n := 15) (fun c jj => wR sR i (qIdx c jj)) (fun c jj => vR (qIdx c jj) d) acc
    (by rw [zero_add, zero_add, sum_mul_coe, h0]
        exact block_eq p r Wh bh Wl bl Wg bg sR vR hS hV i d lse hlse 0)
    (fun kb => by
      rw [zero_add, sum_mul_coe, hA kb]
      exact congrArg (fun z => acc kb.castSucc + z)
        (block_eq p r Wh bh Wl bl Wg bg sR vR hS hV i d lse hlse kb.succ))
    (Fin.last 15)
  rw [Iic_last] at hfin
  rw [hfin]
  exact outAt_of_accR_univ p r Wh bh Wl bl Wg bg sR vR hS hV i d

/-- The same, the first accumulator being zero plus the first block's sum. -/
theorem outAt_of_acc_plain (i : Fin 8192) (d : Fin 1024) (lse : Fin 8192 → EReal)
    (hlse : ∀ j, ∃ m l, Carried (fun b i' => sR (qIdx b i') j) Finset.univ m l ∧ lse j = m + Ideal.log l)
    (acc : Fin 16 → EReal)
    (h0 : acc 0 = 0 + ∑ jj : Fin 512, Ideal.exp (Cert.Spec.S p r Wh bh Wl bl i (qIdx 0 jj) - lse (qIdx 0 jj))
      * Cert.Spec.Vv p Wg bg (qIdx 0 jj) d)
    (hA : ∀ kb : Fin 15, acc kb.succ = acc kb.castSucc
      + ∑ jj : Fin 512, Ideal.exp (Cert.Spec.S p r Wh bh Wl bl i (qIdx kb.succ jj) - lse (qIdx kb.succ jj))
        * Cert.Spec.Vv p Wg bg (qIdx kb.succ jj) d) :
    p (ix2 i d) + acc (Fin.last 15) = Cert.Spec.outAt p r Wh bh Wl bl Wg bg i d :=
  outAt_of_acc_bare p r Wh bh Wl bl Wg bg sR vR hS hV i d lse hlse acc (by rw [h0, zero_add]) hA

/-- The same, every block's sum itself accumulated from zero and the first accumulator being
    zero plus the first block's. -/
theorem outAt_of_acc (i : Fin 8192) (d : Fin 1024) (lse : Fin 8192 → EReal)
    (hlse : ∀ j, ∃ m l, Carried (fun b i' => sR (qIdx b i') j) Finset.univ m l ∧ lse j = m + Ideal.log l)
    (acc : Fin 16 → EReal)
    (h0 : acc 0 = 0 + (0 + ∑ jj : Fin 512, Ideal.exp (Cert.Spec.S p r Wh bh Wl bl i (qIdx 0 jj) - lse (qIdx 0 jj))
      * Cert.Spec.Vv p Wg bg (qIdx 0 jj) d))
    (hA : ∀ kb : Fin 15, acc kb.succ = acc kb.castSucc
      + (0 + ∑ jj : Fin 512, Ideal.exp (Cert.Spec.S p r Wh bh Wl bl i (qIdx kb.succ jj) - lse (qIdx kb.succ jj))
        * Cert.Spec.Vv p Wg bg (qIdx kb.succ jj) d)) :
    p (ix2 i d) + acc (Fin.last 15) = Cert.Spec.outAt p r Wh bh Wl bl Wg bg i d :=
  outAt_of_acc_bare p r Wh bh Wl bl Wg bg sR vR hS hV i d lse hlse acc (by rw [h0, zero_add, zero_add])
    (fun kb => by rw [hA kb, zero_add])

end Result

end Cert.SpecBridge

end
-- ==== Proof.Finite.lean ====
import proofs.«101729_j45303315038988_2_alg».proof.Defs
import Idealize.ShloMosaic.Lib.ReduceAll
import Idealize.ShloMosaic.Lib.ValueIdx

/-!
# Finite inputs are real

The precondition says that, of each of the eight argument arrays, every entry has absolute
value below plus infinity (a conjunction, over the whole array, of the comparison's outcomes;
and the conjunction of the eight). On the extended reals that is: every entry is a real.
-/

open Idealize.ShloMosaic Idealize.ShloMosaic.ValueIdx Idealize.SL.Sem

namespace Cert.Finite

instance : Subsingleton Cert.Pre_finite_inputs.S_.Idx := ⟨fun a b => funext fun d => d.elim0⟩

/-- The pattern of plus infinity denotes the top of the extended reals. -/
theorem ofBits_inf : Ideal.ofBits .f32 0x7F800000#32 = (⊤ : EReal) := by
  simp [Ideal.ofBits, Ideal.ieee]

/-- An extended real whose absolute value is below plus infinity is a real. -/
theorem real_of_abs_lt_top (x : EReal) (h : max x (-x) < ⊤) : ∃ r : ℝ, x = (r : EReal) := by
  induction x using EReal.rec with
  | bot => simp at h
  | coe r => exact ⟨r, rfl⟩
  | top => simp at h

/-- An array all of whose entries pass the test "absolute value below plus infinity", as the
    conjunction over the whole array computes it, has real entries. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] hb (constant Cert.Pre_finite_inputs.S_ .f32 0x7F800000#32)))
        (constantI Cert.Pre_finite_inputs.S_ 1 1#1) hr hu ix0 = 1#1) :
    ∀ i, ∃ r : ℝ, x i = (r : EReal) := by
  intro i
  have h := Host.reduce_andi_all _ _ hr hu ix0 e i
  apply real_of_abs_lt_top
  change Ideal.cmp .olt (max (x i) (-(x i))) (Ideal.ofBits .f32 0x7F800000#32) = 1#1 at h
  rw [ofBits_inf] at h
  by_contra hn
  have h0 : Ideal.cmp .olt (max (x i) (-(x i))) ⊤ = 0#1 := by
    show BitVec.ofBool (decide (max (x i) (-(x i)) < ⊤)) = 0#1
    rw [decide_eq_false hn]
    rfl
  rw [h0] at h
  exact absurd h (by decide)

variable [Cert.Pre_finite_inputs.Facts]

/-- Under the precondition every entry of each of the eight argument arrays is a real. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ idx, ∃ x : ℝ, (m ((c.tc : Thread Cert.KernelIdeal.nD Cert.KernelIdeal.τ).loc Cert.KernelIdeal.main_arg0)
        : FVec Ideal Cert.Pre_finite_inputs.S8192x1024 .f32) idx = (x : EReal))
    ∧ (∀ idx, ∃ x : ℝ, (m ((c.tc : Thread Cert.KernelIdeal.nD Cert.KernelIdeal.τ).loc Cert.KernelIdeal.main_arg1)
        : FVec Ideal Cert.Pre_finite_inputs.S8192x1024 .f32) idx = (x : EReal))
    ∧ (∀ idx, ∃ x : ℝ, (m ((c.tc : Thread Cert.KernelIdeal.nD Cert.KernelIdeal.τ).loc Cert.KernelIdeal.main_arg2)
        : FVec Ideal Cert.Pre_finite_inputs.S1024x1024 .f32) idx = (x : EReal))
    ∧ (∀ idx, ∃ x : ℝ, (m ((c.tc : Thread Cert.KernelIdeal.nD Cert.KernelIdeal.τ).loc Cert.KernelIdeal.main_arg3)
        : FVec Ideal Cert.Pre_finite_inputs.S1024 .f32) idx = (x : EReal))
    ∧ (∀ idx, ∃ x : ℝ, (m ((c.tc : Thread Cert.KernelIdeal.nD Cert.KernelIdeal.τ).loc Cert.KernelIdeal.main_arg4)
        : FVec Ideal Cert.Pre_finite_inputs.S1024x1024 .f32) idx = (x : EReal))
    ∧ (∀ idx, ∃ x : ℝ, (m ((c.tc : Thread Cert.KernelIdeal.nD Cert.KernelIdeal.τ).loc Cert.KernelIdeal.main_arg5)
        : FVec Ideal Cert.Pre_finite_inputs.S1024 .f32) idx = (x : EReal))
    ∧ (∀ idx, ∃ x : ℝ, (m ((c.tc : Thread Cert.KernelIdeal.nD Cert.KernelIdeal.τ).loc Cert.KernelIdeal.main_arg6)
        : FVec Ideal Cert.Pre_finite_inputs.S1024x1024 .f32) idx = (x : EReal))
    ∧ (∀ idx, ∃ x : ℝ, (m ((c.tc : Thread Cert.KernelIdeal.nD Cert.KernelIdeal.τ).loc Cert.KernelIdeal.main_arg7)
        : FVec Ideal Cert.Pre_finite_inputs.S1024 .f32) idx = (x : EReal)) := by
  have h := congrFun (hpre c) ix0
  dsimp only [Cert.Pre_finite_inputs.fn, Cert.Pre_finite_inputs.fn_part1, Cert.Pre_finite_inputs.fn_part2] at h
  simp only [Idealize.ShloMosaic.andi, IntOp.andi_eq_one] at h
  obtain ⟨⟨⟨⟨⟨⟨⟨h0, h1⟩, h2⟩, h3⟩, h4⟩, h5⟩, h6⟩, h7⟩ := h
  exact ⟨real_of_all _ _ _ _ h0, real_of_all _ _ _ _ h1, real_of_all _ _ _ _ h2, real_of_all _ _ _ _ h3,
    real_of_all _ _ _ _ h4, real_of_all _ _ _ _ h5, real_of_all _ _ _ _ h6, real_of_all _ _ _ _ h7⟩

end Cert.Finite
-- ==== Proof.SpecReal.lean ====
import proofs.«101729_j45303315038988_2_alg».proof.Proof.Spec
import proofs.«101729_j45303315038988_2_alg».proof.Proof.LibOnlineSoftmax

/-!
# Real inputs give real projections, scores and values

Every quantity of the specification up to the scores is a finite sum of products of entries of
the argument arrays, plus a bias entry; when the entries are reals, so is the quantity.
-/

noncomputable section

open scoped BigOperators
open Idealize.ShloMosaic Idealize.ShloMosaic.ValueIdx
open Cert.OnlineSoftmax Cert.Spec

namespace Cert.SpecReal

/-- A linear layer of real rows, weight and bias is real. -/
theorem exists_real_lin (x : Rows) (W : Weight) (b : Bias)
    (hx : ∀ idx, ∃ y : ℝ, x idx = (y : EReal)) (hW : ∀ idx, ∃ y : ℝ, W idx = (y : EReal))
    (hb : ∀ idx, ∃ y : ℝ, b idx = (y : EReal)) :
    ∃ yR : Fin 8192 → Fin 1024 → ℝ, ∀ n d, lin x W b n d = ((yR n d : ℝ) : EReal) := by
  choose xr hxr using hx
  choose Wr hWr using hW
  choose br hbr using hb
  refine ⟨fun n d => (∑ k : Fin 1024, xr (ix2 n k) * Wr (ix2 d k)) + br (ix1 d), fun n d => ?_⟩
  rw [lin, EReal.coe_add, ← sum_mul_coe, hbr]
  refine congrArg (fun z => z + ((br (ix1 d) : ℝ) : EReal)) (Finset.sum_congr rfl (fun k _ => ?_))
  rw [hxr, hWr]

/-- With real inputs every score is a real. -/
theorem exists_real_S (p r : Rows) (Wh : Weight) (bh : Bias) (Wl : Weight) (bl : Bias)
    (hp : ∀ idx, ∃ y : ℝ, p idx = (y : EReal)) (hr : ∀ idx, ∃ y : ℝ, r idx = (y : EReal))
    (hWh : ∀ idx, ∃ y : ℝ, Wh idx = (y : EReal)) (hbh : ∀ idx, ∃ y : ℝ, bh idx = (y : EReal))
    (hWl : ∀ idx, ∃ y : ℝ, Wl idx = (y : EReal)) (hbl : ∀ idx, ∃ y : ℝ, bl idx = (y : EReal)) :
    ∃ sR : Fin 8192 → Fin 8192 → ℝ, ∀ i j, S p r Wh bh Wl bl i j = ((sR i j : ℝ) : EReal) := by
  obtain ⟨qR, hq⟩ := exists_real_lin p Wh bh hp hWh hbh
  obtain ⟨kR, hk⟩ := exists_real_lin r Wl bl hr hWl hbl
  refine ⟨fun i j => ∑ d : Fin 1024, qR i d * kR j d, fun i j => ?_⟩
  rw [S, ← sum_mul_coe]
  refine Finset.sum_congr rfl (fun d _ => ?_)
  rw [Q, Kk, hq, hk]

/-- With real inputs every value is a real. -/
theorem exists_real_Vv (p : Rows) (Wg : Weight) (bg : Bias)
    (hp : ∀ idx, ∃ y : ℝ, p idx = (y : EReal)) (hWg : ∀ idx, ∃ y : ℝ, Wg idx = (y : EReal))
    (hbg : ∀ idx, ∃ y : ℝ, bg idx = (y : EReal)) :
    ∃ vR : Fin 8192 → Fin 1024 → ℝ, ∀ j d, Vv p Wg bg j d = ((vR j d : ℝ) : EReal) :=
  exists_real_lin p Wg bg hp hWg hbg

end Cert.SpecReal

end
-- ==== Proof.SpecRealArgs.lean ====
import proofs.«101729_j45303315038988_2_alg».proof.Proof.Finite
import proofs.«101729_j45303315038988_2_alg».proof.Proof.SpecReal

/-!
# Under the precondition the scores and the values are real

The eight argument arrays, read as the rows, weights and biases of the specification, have real
entries under the precondition; hence the specification's scores and values are reals.
-/

open Idealize.ShloMosaic Idealize.ShloMosaic.ValueIdx Idealize.SL.Sem

namespace Cert.SpecReal

variable [Cert.Pre_finite_inputs.Facts]

/-- Under the precondition, with the eight argument arrays of a device read as the
    specification's rows, weights and biases, every score and every value is a real. -/
theorem exists_reals (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (sR : Fin 8192 → Fin 8192 → ℝ) (vR : Fin 8192 → Fin 1024 → ℝ),
      (∀ i j, Cert.Spec.S
          (m ((c.tc : Thread Cert.KernelIdeal.nD Cert.KernelIdeal.τ).loc Cert.KernelIdeal.main_arg0) : Cert.Spec.Rows)
          (m ((c.tc : Thread Cert.KernelIdeal.nD Cert.KernelIdeal.τ).loc Cert.KernelIdeal.main_arg1) : Cert.Spec.Rows)
          (m ((c.tc : Thread Cert.KernelIdeal.nD Cert.KernelIdeal.τ).loc Cert.KernelIdeal.main_arg2) : Cert.Spec.Weight)
          (m ((c.tc : Thread Cert.KernelIdeal.nD Cert.KernelIdeal.τ).loc Cert.KernelIdeal.main_arg3) : Cert.Spec.Bias)
          (m ((c.tc : Thread Cert.KernelIdeal.nD Cert.KernelIdeal.τ).loc Cert.KernelIdeal.main_arg4) : Cert.Spec.Weight)
          (m ((c.tc : Thread Cert.KernelIdeal.nD Cert.KernelIdeal.τ).loc Cert.KernelIdeal.main_arg5) : Cert.Spec.Bias)
          i j = ((sR i j : ℝ) : EReal))
      ∧ (∀ j d, Cert.Spec.Vv
          (m ((c.tc : Thread Cert.KernelIdeal.nD Cert.KernelIdeal.τ).loc Cert.KernelIdeal.main_arg0) : Cert.Spec.Rows)
          (m ((c.tc : Thread Cert.KernelIdeal.nD Cert.KernelIdeal.τ).loc Cert.KernelIdeal.main_arg6) : Cert.Spec.Weight)
          (m ((c.tc : Thread Cert.KernelIdeal.nD Cert.KernelIdeal.τ).loc Cert.KernelIdeal.main_arg7) : Cert.Spec.Bias)
          j d = ((vR j d : ℝ) : EReal)) := by
  obtain ⟨h0, h1, h2, h3, h4, h5, h6, h7⟩ := Cert.Finite.args_real m hpre c
  obtain ⟨sR, hS⟩ := exists_real_S _ _ _ _ _ _ h0 h1 h2 h3 h4 h5
  obtain ⟨vR, hV⟩ := exists_real_Vv _ _ _ h0 h6 h7
  exact ⟨sR, vR, hS, hV⟩

end Cert.SpecReal
-- ==== Proof.KernelIdeal.Compose.lean ====
/-
  The composition on the kernel side, at the extended reals: from what each of the five regions leaves in its output
  array to the result buffer holding the specification's value of the eight arguments. The three projections give
  the queries, keys and values; the first attention region carries, per key row, a running maximum and a running sum
  of exponentials over the 16 query blocks and leaves their logarithm of the sum of exponentials; the second
  accumulates, per query row and feature, the weights against the values over the 16 key blocks and adds the
  residual. The streaming recurrences are the two-pass softmax over the query axis, so the result is the
  specification's.
-/
import proofs.«101729_j45303315038988_2_alg».proof.Proof.KernelIdeal.Run
import proofs.«101729_j45303315038988_2_alg».proof.Proof.Spec
import proofs.«101729_j45303315038988_2_alg».proof.Proof.SpecWords
import proofs.«101729_j45303315038988_2_alg».proof.Proof.LibOnlineSoftmax
import proofs.«101729_j45303315038988_2_alg».proof.Proof.SpecBridge
import proofs.«101729_j45303315038988_2_alg».proof.Proof.SpecRealArgs
import Idealize.ShloMosaic.Lib.Pipeline.Value

set_option maxRecDepth 16384

noncomputable section

open scoped BigOperators
open Idealize.ShloMosaic Idealize.ShloMosaic.TcCoe Idealize.ShloMosaic.ValueIdx Idealize.SL.Sem
open Cert.OnlineSoftmax Cert.SpecBridge

namespace Cert.KernelIdeal.Val

open Cert.KernelIdeal Cert.KernelIdeal.Gen Cert.KernelIdeal.Hand

/-- The TensorCore's buffer contents when a region is entered. -/
abbrev Entry : Type := (c : Dev nD) → (b : Ref sig .tc) → Buf (Elt Ideal) ((c : Thread nD τ).loc b)

/-- The maximum of a block of 512 entries: their supremum in the extended reals. -/
abbrev blkMax (f : Fin 512 → EReal) : EReal := (Finset.univ : Finset (Fin 512)).sup f
/-- The sum of a block of 512 entries. -/
abbrev blkSum (f : Fin 512 → EReal) : EReal := ∑ ii : Fin 512, f ii

variable (c : Dev nD)

/-! ## What the two attention regions leave, as the streaming recurrences -/

/-- The first attention region's arrays as it finds them: the queries and the keys; and the column it leaves. -/
abbrev q3 (V : Entry) : Spec.Rows := V c (Pipeline.arrRef spec3 0)
abbrev k3 (V : Entry) : Spec.Rows := V c (Pipeline.arrRef spec3 1)
abbrev out3 (V : Entry) : FVec Ideal ⟨2, ![8192, 1]⟩ .f32 := (dat3 (F := Ideal) V c).arrAt 2 cfg3.N

/-- The first attention region's score of key row j against the query row at position ii of query block b (keys
    against queries). -/
abbrev sc3 (V : Entry) (j : Fin 8192) (b : Fin 16) (ii : Fin 512) : EReal :=
  ∑ d : Fin 1024, k3 c V (ix2 j d) * q3 c V (ix2 (qIdx b ii) d)

/-- The first attention region: for every key row the running maximum and running sum over the 16 query blocks obey
    the streaming recurrence from -∞ and 0, and the region leaves the last maximum plus the logarithm of the last sum. -/
def Reg3Value : Prop :=
  ∀ (V : Entry) (j : Fin 8192), ∃ mm ll : Fin 16 → EReal,
    mm 0 = max ⊥ (blkMax fun ii => sc3 c V j 0 ii)
    ∧ ll 0 = Ideal.exp (⊥ - mm 0) * 0 + blkSum (fun ii => Ideal.exp (sc3 c V j 0 ii - mm 0))
    ∧ (∀ b : Fin 15, mm b.succ = max (mm b.castSucc) (blkMax fun ii => sc3 c V j b.succ ii)
        ∧ ll b.succ = Ideal.exp (mm b.castSucc - mm b.succ) * ll b.castSucc
            + blkSum (fun ii => Ideal.exp (sc3 c V j b.succ ii - mm b.succ)))
    ∧ out3 c V (ix2 j 0) = mm (Fin.last 15) + Ideal.log (ll (Fin.last 15))

/-- The second attention region's arrays as it finds them: the queries, the keys, the row of logarithms of sums of
    exponentials, the values, the residual; and the array it leaves. -/
abbrev q4 (V : Entry) : Spec.Rows := V c (Pipeline.arrRef spec4 0)
abbrev k4 (V : Entry) : Spec.Rows := V c (Pipeline.arrRef spec4 1)
abbrev lse4 (V : Entry) : FVec Ideal ⟨2, ![1, 8192]⟩ .f32 := V c (Pipeline.arrRef spec4 2)
abbrev v4 (V : Entry) : Spec.Rows := V c (Pipeline.arrRef spec4 3)
abbrev p4 (V : Entry) : Spec.Rows := V c (Pipeline.arrRef spec4 4)
abbrev out4 (V : Entry) : Spec.Rows := (dat4 (F := Ideal) V c).arrAt 5 cfg4.N

/-- The second attention region's term for query row i, feature d, at position jj of key block kb: the exponential of
    the score less the key row's logarithm of the sum of exponentials, times the value. -/
abbrev term4 (V : Entry) (i : Fin 8192) (d : Fin 1024) (kb : Fin 16) (jj : Fin 512) : EReal :=
  Ideal.exp ((∑ e : Fin 1024, q4 c V (ix2 i e) * k4 c V (ix2 (qIdx kb jj) e)) - lse4 c V (ix2 0 (qIdx kb jj)))
    * v4 c V (ix2 (qIdx kb jj) d)

/-- The second attention region: for every query row and feature the accumulator over the 16 key blocks starts at the
    first block's sum from 0 and adds each further block's, and the region leaves the residual plus the last. -/
def Reg4Value : Prop :=
  ∀ (V : Entry) (i : Fin 8192) (d : Fin 1024), ∃ acc : Fin 16 → EReal,
    acc 0 = 0 + ∑ jj : Fin 512, term4 c V i d 0 jj
    ∧ (∀ kb : Fin 15, acc kb.succ = acc kb.castSucc + ∑ jj : Fin 512, term4 c V i d kb.succ jj)
    ∧ out4 c V (ix2 i d) = p4 c V (ix2 i d) + acc (Fin.last 15)

variable (m : (ℓ : Loc nD τ sig) → Buf (Elt Ideal) ℓ) (ρ : Dev nD → PrngReg)

/-! ## The eight arguments -/

abbrev aP : Spec.Rows := m ((c : Thread nD τ).loc main_arg0)
abbrev aR : Spec.Rows := m ((c : Thread nD τ).loc main_arg1)
abbrev aWh : Spec.Weight := m ((c : Thread nD τ).loc main_arg2)
abbrev aBh : Spec.Bias := m ((c : Thread nD τ).loc main_arg3)
abbrev aWl : Spec.Weight := m ((c : Thread nD τ).loc main_arg4)
abbrev aBl : Spec.Bias := m ((c : Thread nD τ).loc main_arg5)
abbrev aWg : Spec.Weight := m ((c : Thread nD τ).loc main_arg6)
abbrev aBg : Spec.Bias := m ((c : Thread nD τ).loc main_arg7)

/-! ## A block's maximum over real scores -/

/-- The supremum of a block of coerced real scores is the coercion of the block's maximum. -/
theorem blkMax_coe (x : Fin 512 → ℝ) : blkMax (fun ii => ((x ii : ℝ) : EReal)) = ((blockMax x : ℝ) : EReal) :=
  (coe_blockMax x).symm

/-! ## The region-entry contents at the windows, from the earlier boundaries -/

/-- The queries reach the first attention region as the first projection left them. -/
theorem at6_q : W6 (F := Ideal) m ρ c (Proc.devRef .tc main_v7) = W2 (F := Ideal) m ρ c (Proc.devRef .tc main_v7) :=
  (W6_keep m ρ c main_v7 (by decide)).trans <| (W5_keep m ρ c main_v7 (by decide)).trans <|
    (W4_keep m ρ c main_v7 (by decide)).trans (W3_keep m ρ c main_v7 (by decide))
/-- The keys reach it as the second projection left them. -/
theorem at6_k : W6 (F := Ideal) m ρ c (Proc.devRef .tc main_v9) = W4 (F := Ideal) m ρ c (Proc.devRef .tc main_v9) :=
  (W6_keep m ρ c main_v9 (by decide)).trans (W5_keep m ρ c main_v9 (by decide))
/-- The queries, keys and values reach the second attention region as the projections left them, and the residual as
    launched. -/
theorem at8_q : W8 (F := Ideal) m ρ c (Proc.devRef .tc main_v7) = W2 (F := Ideal) m ρ c (Proc.devRef .tc main_v7) :=
  (W8_keep m ρ c main_v7 (by decide)).trans <| (W7_keep m ρ c main_v7 (by decide)).trans (at6_q c m ρ)
theorem at8_k : W8 (F := Ideal) m ρ c (Proc.devRef .tc main_v9) = W4 (F := Ideal) m ρ c (Proc.devRef .tc main_v9) :=
  (W8_keep m ρ c main_v9 (by decide)).trans <| (W7_keep m ρ c main_v9 (by decide)).trans (at6_k c m ρ)
theorem at8_v : W8 (F := Ideal) m ρ c (Proc.devRef .tc main_v11) = W6 (F := Ideal) m ρ c (Proc.devRef .tc main_v11) :=
  (W8_keep m ρ c main_v11 (by decide)).trans (W7_keep m ρ c main_v11 (by decide))
theorem at8_p : W8 (F := Ideal) m ρ c (Proc.devRef .tc main_arg0) = m ((c : Thread nD τ).loc main_arg0) :=
  (W8_keep m ρ c main_arg0 (by decide)).trans <| (W7_keep m ρ c main_arg0 (by decide)).trans <|
    (W6_keep m ρ c main_arg0 (by decide)).trans <| (W5_keep m ρ c main_arg0 (by decide)).trans <|
    (W4_keep m ρ c main_arg0 (by decide)).trans <| (W3_keep m ρ c main_arg0 (by decide)).trans <|
    (W2_keep m ρ c main_arg0 (by decide)).trans <| (W1_keep m ρ c main_arg0 (by decide)).trans rfl

/-- The column the first attention region leaves, and the row the second finds. -/
abbrev lseCol : FVec Ideal ⟨2, ![8192, 1]⟩ .f32 := W7 (F := Ideal) m ρ c (Proc.devRef .tc main_v12)
abbrev lseRow : FVec Ideal ⟨2, ![1, 8192]⟩ .f32 := W8 (F := Ideal) m ρ c (Proc.devRef .tc main_v13)

/-- The row is the column reshaped: entry (0, j) of the one is entry (j, 0) of the other. -/
theorem lseRow_apply (j : Fin 8192) : lseRow c m ρ (ix2 0 j) = lseCol c m ρ (ix2 j 0) := by
  have e : lseRow c m ρ = shapeCast S1x8192 (lseCol c m ρ) Cert.KernelIdeal.Gen.shapeCasts_S8192x1_S1x8192 := by
    dsimp only [lseRow, lseCol, W8, hostOps4]; after_results; rfl
  rw [e]
  exact shapeCast_apply _ _ (ix2 0 j) (ix2 j 0) (by
    rw [Shape.rowMajor_val_two, Shape.rowMajor_val_two]
    show j.val * 1 + 0 = 0 * 8192 + j.val
    omega)

theorem result_eq
    (hq : W2 (F := Ideal) m ρ c (Proc.devRef .tc main_v7) = fun x => Spec.Q (aP c m) (aWh c m) (aBh c m) (x 0) (x 1))
    (hk : W4 (F := Ideal) m ρ c (Proc.devRef .tc main_v9) = fun x => Spec.Kk (aR c m) (aWl c m) (aBl c m) (x 0) (x 1))
    (hv : W6 (F := Ideal) m ρ c (Proc.devRef .tc main_v11) = fun x => Spec.Vv (aP c m) (aWg c m) (aBg c m) (x 0) (x 1))
    (h3 : Reg3Value c) (h4 : Reg4Value c)
    (hS : ∃ sR : Fin 8192 → Fin 8192 → ℝ, ∀ i j,
      Spec.S (aP c m) (aR c m) (aWh c m) (aBh c m) (aWl c m) (aBl c m) i j = ((sR i j : ℝ) : EReal))
    (hV : ∃ vR : Fin 8192 → Fin 1024 → ℝ, ∀ j d, Spec.Vv (aP c m) (aWg c m) (aBg c m) j d = ((vR j d : ℝ) : EReal)) :
    W9 (F := Ideal) m ρ c (Proc.devRef .tc main_v14)
      = Spec.out (aP c m) (aR c m) (aWh c m) (aBh c m) (aWl c m) (aBl c m) (aWg c m) (aBg c m) := by
  obtain ⟨sR, hS⟩ := hS
  obtain ⟨vR, hV⟩ := hV
  -- the first attention region's arrays are the queries and the keys
  have hq3 : q3 c (V6 m ρ) = fun x => Spec.Q (aP c m) (aWh c m) (aBh c m) (x 0) (x 1) := (at6_q c m ρ).trans hq
  have hk3 : k3 c (V6 m ρ) = fun x => Spec.Kk (aR c m) (aWl c m) (aBl c m) (x 0) (x 1) := (at6_k c m ρ).trans hk
  -- so its scores are the specification's, which are real
  have hsc : ∀ (j : Fin 8192) (b : Fin 16) (ii : Fin 512), sc3 c (V6 m ρ) j b ii = ((sR (qIdx b ii) j : ℝ) : EReal) := by
    intro j b ii
    rw [← hS]
    show ∑ d : Fin 1024, k3 c (V6 m ρ) (ix2 j d) * q3 c (V6 m ρ) (ix2 (qIdx b ii) d) = _
    rw [hq3, hk3]
    exact Finset.sum_congr rfl (fun d _ => mul_comm _ _)
  -- the column it leaves: per key row, the carried pair after all 16 query blocks
  have hcol : ∀ j : Fin 8192, ∃ mx l, Carried (fun b i' => sR (qIdx b i') j) Finset.univ mx l
      ∧ lseRow c m ρ (ix2 0 j) = mx + Ideal.log l := by
    intro j
    obtain ⟨mm, ll, hm0, hl0, hstep, hres⟩ := h3 (V6 m ρ) j
    simp only [hsc, blkMax_coe] at hm0 hl0 hstep
    have hcar := carried_fin (fun b i' => sR (qIdx b i') j) mm ll hm0 (by rw [hl0, zero_add])
      (fun b => (hstep b).1) (fun b => by rw [(hstep b).2, zero_add]) (Fin.last 15)
    rw [Iic_last] at hcar
    exact ⟨mm (Fin.last 15), ll (Fin.last 15), hcar,
      (lseRow_apply c m ρ j).trans ((congrFun (W7_arr (F := Ideal) m ρ c 2) (ix2 j 0)).trans hres)⟩
  -- the second attention region's arrays
  have hq4 : q4 c (V8 m ρ) = fun x => Spec.Q (aP c m) (aWh c m) (aBh c m) (x 0) (x 1) := (at8_q c m ρ).trans hq
  have hk4 : k4 c (V8 m ρ) = fun x => Spec.Kk (aR c m) (aWl c m) (aBl c m) (x 0) (x 1) := (at8_k c m ρ).trans hk
  have hv4 : v4 c (V8 m ρ) = fun x => Spec.Vv (aP c m) (aWg c m) (aBg c m) (x 0) (x 1) := (at8_v c m ρ).trans hv
  have hp4 : p4 c (V8 m ρ) = aP c m := at8_p c m ρ
  funext x
  obtain ⟨i, d, rfl⟩ : ∃ (i : Fin 8192) (d : Fin 1024), x = ix2 i d := ⟨x 0, x 1, eq_ix2 x⟩
  obtain ⟨acc, h0, hA, hres⟩ := h4 (V8 m ρ) i d
  have ht : ∀ (kb : Fin 16) (jj : Fin 512), term4 c (V8 m ρ) i d kb jj
      = Ideal.exp (Spec.S (aP c m) (aR c m) (aWh c m) (aBh c m) (aWl c m) (aBl c m) i (qIdx kb jj) - lseRow c m ρ (ix2 0 (qIdx kb jj)))
          * Spec.Vv (aP c m) (aWg c m) (aBg c m) (qIdx kb jj) d := by
    intro kb jj
    show Ideal.exp ((∑ e : Fin 1024, q4 c (V8 m ρ) (ix2 i e) * k4 c (V8 m ρ) (ix2 (qIdx kb jj) e))
        - lse4 c (V8 m ρ) (ix2 0 (qIdx kb jj))) * v4 c (V8 m ρ) (ix2 (qIdx kb jj) d) = _
    rw [hq4, hk4, hv4]
    rfl
  simp only [ht] at h0 hA
  rw [Spec.out_ix2, ← outAt_of_acc_plain (aP c m) (aR c m) (aWh c m) (aBh c m) (aWl c m) (aBl c m) (aWg c m) (aBg c m) sR vR hS hV i d
    (fun j => lseRow c m ρ (ix2 0 j)) hcol acc h0 hA]
  exact (congrFun (W9_arr (F := Ideal) m ρ c 5) (ix2 i d)).trans (hres.trans (by rw [hp4]))

/-- The same, the real witnesses for the scores and the values taken from the precondition on the arguments. -/
theorem result_eq_of_pre [Cert.Pre_finite_inputs.Facts] (hpre : Cert.Pre_KernelIdeal m)
    (hq : W2 (F := Ideal) m ρ c (Proc.devRef .tc main_v7) = fun x => Spec.Q (aP c m) (aWh c m) (aBh c m) (x 0) (x 1))
    (hk : W4 (F := Ideal) m ρ c (Proc.devRef .tc main_v9) = fun x => Spec.Kk (aR c m) (aWl c m) (aBl c m) (x 0) (x 1))
    (hv : W6 (F := Ideal) m ρ c (Proc.devRef .tc main_v11) = fun x => Spec.Vv (aP c m) (aWg c m) (aBg c m) (x 0) (x 1))
    (h3 : Reg3Value c) (h4 : Reg4Value c) :
    W9 (F := Ideal) m ρ c (Proc.devRef .tc main_v14)
      = Spec.out (aP c m) (aR c m) (aWh c m) (aBh c m) (aWl c m) (aBl c m) (aWg c m) (aBg c m) := by
  obtain ⟨sR, vR, hS, hV⟩ := Cert.SpecReal.exists_reals m hpre c
  exact result_eq c m ρ hq hk hv h3 h4 ⟨sR, hS⟩ ⟨vR, hV⟩

end Cert.KernelIdeal.Val

end
-- ==== Proof.KernelIdeal.ValLinPay.lean ====
import proofs.«101729_j45303315038988_2_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.ValueIdx
open Cert.KernelIdeal Cert.KernelIdeal.Gen

/-! # The linear kernel's stored value at an index

At exact values the two roundings and the two trivial reshapes are identities, the block product into a zero
accumulator is the sum over the shared axis, and the bias row is repeated down the rows: entry (p, q) of the stored
block is  ∑ₖ x(p,k)·w(k,q) + b(0,q). -/

/-- The product's left operand index at output (i₀, i₁) and contraction coordinate c is (i₀, c), -/
theorem linLhs_0 (i : S1024x1024.Idx) (c : dot_S1024x1024_S1024x1024_S1024x1024_1_0_0_1_n_n.contr.Idx) :
    (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem linLhs_1 (i : S1024x1024.Idx) (c : dot_S1024x1024_S1024x1024_S1024x1024_1_0_0_1_n_n.contr.Idx) :
    (dot_S1024x1024_S1024x1024_S1024x1024_1_0_0_1_n_n.lhsIdx i c 1).val = (c ⟨0, by decide⟩).val :=
  dot_S1024x1024_S1024x1024_S1024x1024_1_0_0_1_n_n.lhsIdx_val_of_single rfl i c
/-- and the right operand's is (c, i₁). -/
theorem linRhs_0 (i : S1024x1024.Idx) (c : dot_S1024x1024_S1024x1024_S1024x1024_1_0_0_1_n_n.contr.Idx) :
    (dot_S1024x1024_S1024x1024_S1024x1024_1_0_0_1_n_n.rhsIdx i c 0).val = (c ⟨0, by decide⟩).val :=
  dot_S1024x1024_S1024x1024_S1024x1024_1_0_0_1_n_n.rhsIdx_val_of_single rfl i c
theorem linRhs_1 (i : S1024x1024.Idx) (c : dot_S1024x1024_S1024x1024_S1024x1024_1_0_0_1_n_n.contr.Idx) :
    (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry (p, q) of the block the body stores, from the three blocks it loaded. -/
theorem lin_pay_apply (x : Vec Ideal S1024x1024 .f32) (w : Vec Ideal S1024x1024 .bf16) (b : Vec Ideal S1x1024 .f32) (p q : Fin 1024) :
    k0_pay1 (F := Ideal) x w b (ix2 p q) = (∑ k : Fin 1024, x (ix2 p k) * w (ix2 k q)) + b (ix2 (0 : Fin 1) q) := by
  unfold k0_pay1
  rw [truncf_apply, addf_apply, shapeCast_self, shapeCast_self, broadcastTo_1b_ab_apply]
  simp only [matmul]
  rw [Ideal.matmul_constant_zero_apply, ← Equiv.sum_comp (contrEquiv1 dot_S1024x1024_S1024x1024_S1024x1024_1_0_0_1_n_n 1024 rfl rfl).symm]
  refine congrArg (· + b (ix2 (0 : Fin 1) q)) (Finset.sum_congr rfl fun k _ => ?_)
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact linLhs_0 _ _
    | ⟨1, _⟩ => exact (linLhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (linRhs_0 _ _).trans hk
    | ⟨1, _⟩ => exact linRhs_1 _ _)
  rw [el, er]
  rfl

/-- The three linear calls store the same function of their loaded blocks. -/
theorem k1_pay1_eq : @k1_pay1 Ideal _ = @k0_pay1 Ideal _ := rfl
theorem k2_pay1_eq : @k2_pay1 Ideal _ = @k0_pay1 Ideal _ := rfl

/-! # From the blocks to the whole array -/

/-- The array a linear call leaves, as one function of its three input arrays: row n of the result is row n of X
    against every column of the weight block, plus the bias row. -/
def linArr (X : S8192x1024.Idx → EReal) (Wt : S1024x1024.Idx → EReal) (B : S1x1024.Idx → EReal) : S8192x1024.Idx → EReal :=
  fun i => (∑ k : Fin 1024, X (ix2 (i 0) k) * Wt (ix2 k (i 1))) + B (ix2 (0 : Fin 1) (i 1))

/-- Entry (p, q) of the stored block is entry i of that array, once row p of the x block is row i₀ of X, column q of
    the weight block is column i₁ of the weight, and the bias block at q is the bias at i₁. -/
theorem lin_block_apply (X : S8192x1024.Idx → EReal) (Wt : S1024x1024.Idx → EReal) (B : S1x1024.Idx → EReal)
    (x : Vec Ideal S1024x1024 .f32) (w : Vec Ideal S1024x1024 .bf16) (b : Vec Ideal S1x1024 .f32)
    (i : S8192x1024.Idx) (p q : Fin 1024)
    (hx : ∀ k : Fin 1024, x (ix2 p k) = X (ix2 (i 0) k)) (hw : ∀ k : Fin 1024, w (ix2 k q) = Wt (ix2 k (i 1)))
    (hb : b (ix2 (0 : Fin 1) q) = B (ix2 (0 : Fin 1) (i 1))) :
    k0_pay1 (F := Ideal) x w b (ix2 p q) = linArr X Wt B i := by
  rw [lin_pay_apply, hb]
  exact congrArg (· + B (ix2 (0 : Fin 1) (i 1))) (Finset.sum_congr rfl fun k _ => by rw [hx k, hw k])

end Cert.KernelIdeal.Val

end
-- ==== Proof.KernelIdeal.ValLin0.lean ====
import proofs.«101729_j45303315038988_2_alg».proof.Proof.KernelIdeal.Reg0
import proofs.«101729_j45303315038988_2_alg».proof.Proof.KernelIdeal.ValLinPay
import Idealize.ShloMosaic.Lib.Pipeline.Value

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

-- the TensorCore's buffer contents when the region is entered: a parameter
variable (V : (c : Dev nD) → (b : Ref sig .tc) → Buf (Elt Ideal) ((c : Thread nD τ).loc b))

/-! # The array the first linear call leaves -/

theorem hz0 : (![0, 0] : Fin 2 → Nat) = fun _ => 0 := funext fun a => by fin_cases a <;> rfl

/-- The printed index maps, decided over the eight grid points: the x block moves with the output block down the rows,
    the weight and the bias blocks stay, and nothing moves along the columns. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every one of the eight row blocks is some point's. -/
theorem idx_onto0 : ∀ q0 : Fin 8, ∃ t : Fin cfg0.N, win0_3.index t = ![q0.val, 0] :=
  (by decide +kernel : ∀ q0 : Fin 8, ∃ t : Fin grid0.N, win0_3.index t = ![q0.val, 0])

/-- What point `t` writes back is block `t` of `linArr` of the three input arrays as the region finds them. -/
theorem flushed0_eq (c : Dev nD) (t : Fin cfg0.N) :
    (dat0 (F := Ideal) V c).flushed 3 t = ((cfg0.win 3).blk t).view.read (Elt Ideal) (linArr (V c main_arg0) (V c main_v1) (V c main_v6)) := by
  show (cfg0.win 3).cut (grid0.coords t) ((dat0 V c).after 3 t) = _
  rw [after0_3]
  unfold out0_3
  rw [View.canon_unit_zero hz0]
  simp only [View.ld_unit_zero (S := S1024x1024) hz0, View.ld_unit_zero (S := S1x1024) hz0]
  obtain ⟨e0, e1, e2, e3, e4, e5, e6, e7⟩ := idx_facts0 t
  funext j
  have hj : (j : S1024x1024.Idx) = ix2 (j 0) (j 1) := eq_ix2 (n0 := 1024) (n1 := 1024) j
  refine (congrArg (k0_pay1 (F := Ideal) (iblk0 V c 0 t) (iblk0 V c 1 t) (iblk0 V c 2 t)) hj).trans
    (lin_block_apply (V c main_arg0) (V c main_v1) (V c main_v6) _ _ _ (((cfg0.win 3).blk t).view.emb j) (j 0) (j 1) ?_ ?_ ?_)
  · intro k
    show V c main_arg0 (((cfg0.win 0).blk t).view.emb (ix2 (j 0) k)) = V c main_arg0 (ix2 (((cfg0.win 3).blk t).view.emb j 0) k)
    refine congrArg _ (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * k.val = k.val; omega
  · intro k
    show V c main_v1 (((cfg0.win 1).blk t).view.emb (ix2 k (j 1))) = V c main_v1 (ix2 k (((cfg0.win 3).blk t).view.emb j 1))
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_3.index t (1 : Fin 2) * 1024 + 1 * (j 1).val; omega
  · show V c main_v6 (((cfg0.win 2).blk t).view.emb (ix2 (0 : Fin 1) (j 1))) = V c main_v6 (ix2 (0 : Fin 1) (((cfg0.win 3).blk t).view.emb j 1))
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega

/-- An index of the array is in point `t`'s block iff each coordinate is in the block's range on its axis. -/
theorem mem_blk0 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v7).slice (win0_3.rect t)).set ↔ _
  rw [View.set_slice_whole, Rect.mem_set_unit]
  exact Iff.rfl

/-- Every index of the array is in some point's block: row r is in row block r / 1024. -/
theorem covered0 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := idx_onto0 ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region: `linArr` of the three input arrays as the region finds them. -/
theorem final0 (c : Dev nD) :
    (dat0 (F := Ideal) V c).arrAt 3 cfg0.N = linArr (V c main_arg0) (V c main_v1) (V c main_v6) :=
  (dat0 (F := Ideal) V c).arrAt_eq_of_cover 3 (linArr (V c main_arg0) (V c main_v1) (V c main_v6)) (fun t _ => flushed0_eq V c t) (covered0)

end Cert.KernelIdeal.Val

end
-- ==== Proof.KernelIdeal.ValLin1.lean ====
import proofs.«101729_j45303315038988_2_alg».proof.Proof.KernelIdeal.Reg1
import proofs.«101729_j45303315038988_2_alg».proof.Proof.KernelIdeal.ValLinPay
import Idealize.ShloMosaic.Lib.Pipeline.Value

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

-- the TensorCore's buffer contents when the region is entered: a parameter
variable (V : (c : Dev nD) → (b : Ref sig .tc) → Buf (Elt Ideal) ((c : Thread nD τ).loc b))

/-! # The array the second linear call leaves -/

theorem hz1 : (![0, 0] : Fin 2 → Nat) = fun _ => 0 := funext fun a => by fin_cases a <;> rfl

/-- The printed index maps, decided over the eight grid points: the x block moves with the output block down the rows,
    the weight and the bias blocks stay, and nothing moves along the columns. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every one of the eight row blocks is some point's. -/
theorem idx_onto1 : ∀ q0 : Fin 8, ∃ t : Fin cfg1.N, win1_3.index t = ![q0.val, 0] :=
  (by decide +kernel : ∀ q0 : Fin 8, ∃ t : Fin grid1.N, win1_3.index t = ![q0.val, 0])

/-- What point `t` writes back is block `t` of `linArr` of the three input arrays as the region finds them. -/
theorem flushed1_eq (c : Dev nD) (t : Fin cfg1.N) :
    (dat1 (F := Ideal) V c).flushed 3 t = ((cfg1.win 3).blk t).view.read (Elt Ideal) (linArr (V c main_arg1) (V c main_v3) (V c main_v8)) := by
  show (cfg1.win 3).cut (grid1.coords t) ((dat1 V c).after 3 t) = _
  rw [after1_3]
  unfold out1_3
  rw [View.canon_unit_zero hz1]
  simp only [View.ld_unit_zero (S := S1024x1024) hz1, View.ld_unit_zero (S := S1x1024) hz1]
  rw [k1_pay1_eq]
  obtain ⟨e0, e1, e2, e3, e4, e5, e6, e7⟩ := idx_facts1 t
  funext j
  have hj : (j : S1024x1024.Idx) = ix2 (j 0) (j 1) := eq_ix2 (n0 := 1024) (n1 := 1024) j
  refine (congrArg (k0_pay1 (F := Ideal) (iblk1 V c 0 t) (iblk1 V c 1 t) (iblk1 V c 2 t)) hj).trans
    (lin_block_apply (V c main_arg1) (V c main_v3) (V c main_v8) _ _ _ (((cfg1.win 3).blk t).view.emb j) (j 0) (j 1) ?_ ?_ ?_)
  · intro k
    show V c main_arg1 (((cfg1.win 0).blk t).view.emb (ix2 (j 0) k)) = V c main_arg1 (ix2 (((cfg1.win 3).blk t).view.emb j 0) k)
    refine congrArg _ (funext fun a => Fin.ext ?_)
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 1024 + 1 * k.val = k.val; omega
  · intro k
    show V c main_v3 (((cfg1.win 1).blk t).view.emb (ix2 k (j 1))) = V c main_v3 (ix2 k (((cfg1.win 3).blk t).view.emb j 1))
    refine congrArg _ (funext fun a => Fin.ext ?_)
    match a with
    | ⟨0, _⟩ => show win1_1.index t (0 : Fin 2) * 1024 + 1 * k.val = k.val; omega
    | ⟨1, _⟩ => show win1_1.index t (1 : Fin 2) * 1024 + 1 * (j 1).val = win1_3.index t (1 : Fin 2) * 1024 + 1 * (j 1).val; omega
  · show V c main_v8 (((cfg1.win 2).blk t).view.emb (ix2 (0 : Fin 1) (j 1))) = V c main_v8 (ix2 (0 : Fin 1) (((cfg1.win 3).blk t).view.emb j 1))
    refine congrArg _ (funext fun a => Fin.ext ?_)
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega

/-- An index of the array is in point `t`'s block iff each coordinate is in the block's range on its axis. -/
theorem mem_blk1 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v9).slice (win1_3.rect t)).set ↔ _
  rw [View.set_slice_whole, Rect.mem_set_unit]
  exact Iff.rfl

/-- Every index of the array is in some point's block: row r is in row block r / 1024. -/
theorem covered1 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := idx_onto1 ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array after the region: `linArr` of the three input arrays as the region finds them. -/
theorem final1 (c : Dev nD) :
    (dat1 (F := Ideal) V c).arrAt 3 cfg1.N = linArr (V c main_arg1) (V c main_v3) (V c main_v8) :=
  (dat1 (F := Ideal) V c).arrAt_eq_of_cover 3 (linArr (V c main_arg1) (V c main_v3) (V c main_v8)) (fun t _ => flushed1_eq V c t) (covered1)

end Cert.KernelIdeal.Val

end
-- ==== Proof.KernelIdeal.ValLin2.lean ====
import proofs.«101729_j45303315038988_2_alg».proof.Proof.KernelIdeal.Reg2
import proofs.«101729_j45303315038988_2_alg».proof.Proof.KernelIdeal.ValLinPay
import Idealize.ShloMosaic.Lib.Pipeline.Value

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

-- the TensorCore's buffer contents when the region is entered: a parameter
variable (V : (c : Dev nD) → (b : Ref sig .tc) → Buf (Elt Ideal) ((c : Thread nD τ).loc b))

/-! # The array the third linear call leaves -/

theorem hz2 : (![0, 0] : Fin 2 → Nat) = fun _ => 0 := funext fun a => by fin_cases a <;> rfl

/-- The printed index maps, decided over the eight grid points: the x block moves with the output block down the rows,
    the weight and the bias blocks stay, and nothing moves along the columns. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every one of the eight row blocks is some point's. -/
theorem idx_onto2 : ∀ q0 : Fin 8, ∃ t : Fin cfg2.N, win2_3.index t = ![q0.val, 0] :=
  (by decide +kernel : ∀ q0 : Fin 8, ∃ t : Fin grid2.N, win2_3.index t = ![q0.val, 0])

/-- What point `t` writes back is block `t` of `linArr` of the three input arrays as the region finds them. -/
theorem flushed2_eq (c : Dev nD) (t : Fin cfg2.N) :
    (dat2 (F := Ideal) V c).flushed 3 t = ((cfg2.win 3).blk t).view.read (Elt Ideal) (linArr (V c main_arg0) (V c main_v5) (V c main_v10)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1x1024) hz2]
  rw [k2_pay1_eq]
  obtain ⟨e0, e1, e2, e3, e4, e5, e6, e7⟩ := idx_facts2 t
  funext j
  have hj : (j : S1024x1024.Idx) = ix2 (j 0) (j 1) := eq_ix2 (n0 := 1024) (n1 := 1024) j
  refine (congrArg (k0_pay1 (F := Ideal) (iblk2 V c 0 t) (iblk2 V c 1 t) (iblk2 V c 2 t)) hj).trans
    (lin_block_apply (V c main_arg0) (V c main_v5) (V c main_v10) _ _ _ (((cfg2.win 3).blk t).view.emb j) (j 0) (j 1) ?_ ?_ ?_)
  · intro k
    show V c main_arg0 (((cfg2.win 0).blk t).view.emb (ix2 (j 0) k)) = V c main_arg0 (ix2 (((cfg2.win 3).blk t).view.emb j 0) k)
    refine congrArg _ (funext fun a => Fin.ext ?_)
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 1024 + 1 * k.val = k.val; omega
  · intro k
    show V c main_v5 (((cfg2.win 1).blk t).view.emb (ix2 k (j 1))) = V c main_v5 (ix2 k (((cfg2.win 3).blk t).view.emb j 1))
    refine congrArg _ (funext fun a => Fin.ext ?_)
    match a with
    | ⟨0, _⟩ => show win2_1.index t (0 : Fin 2) * 1024 + 1 * k.val = k.val; omega
    | ⟨1, _⟩ => show win2_1.index t (1 : Fin 2) * 1024 + 1 * (j 1).val = win2_3.index t (1 : Fin 2) * 1024 + 1 * (j 1).val; omega
  · show V c main_v10 (((cfg2.win 2).blk t).view.emb (ix2 (0 : Fin 1) (j 1))) = V c main_v10 (ix2 (0 : Fin 1) (((cfg2.win 3).blk t).view.emb j 1))
    refine congrArg _ (funext fun a => Fin.ext ?_)
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega

/-- An index of the array is in point `t`'s block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v11).slice (win2_3.rect t)).set ↔ _
  rw [View.set_slice_whole, Rect.mem_set_unit]
  exact Iff.rfl

/-- Every index of the array is in some point's block: row r is in row block r / 1024. -/
theorem covered2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array after the region: `linArr` of the three input arrays as the region finds them. -/
theorem final2 (c : Dev nD) :
    (dat2 (F := Ideal) V c).arrAt 3 cfg2.N = linArr (V c main_arg0) (V c main_v5) (V c main_v10) :=
  (dat2 (F := Ideal) V c).arrAt_eq_of_cover 3 (linArr (V c main_arg0) (V c main_v5) (V c main_v10)) (fun t _ => flushed2_eq V c t) (covered2)

end Cert.KernelIdeal.Val

end
-- ==== Proof.KernelIdeal.ValLin.lean ====
import proofs.«101729_j45303315038988_2_alg».proof.Proof.KernelIdeal.Run
import proofs.«101729_j45303315038988_2_alg».proof.Proof.KernelIdeal.ValLin0
import proofs.«101729_j45303315038988_2_alg».proof.Proof.KernelIdeal.ValLin1
import proofs.«101729_j45303315038988_2_alg».proof.Proof.KernelIdeal.ValLin2
import proofs.«101729_j45303315038988_2_alg».proof.Proof.Spec
import Idealize.ShloMosaic.Lib.StableHlo.Run

noncomputable section

open scoped BigOperators

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen Cert.KernelIdeal.Hand

variable (m : (ℓ : Loc nD τ sig) → Buf (Elt Ideal) ℓ) (ρ : Dev nD → PrngReg)

/-! # What the host stretches leave in the linear calls' operands

Before the first call each weight is transposed and rounded to the narrow format (at exact values: transposed), and
before each call its bias is reshaped from a vector to one row. -/

/-- A transposed weight: entry (k, d) is the given weight's entry (d, k). -/
theorem transposed_apply (Wm : S1024x1024.Idx → EReal) (k d : Fin 1024) :
    (truncf (F := Ideal) .bf16 (transpose S1024x1024 [1, 0] Wm transposes_S1024x1024_S1024x1024_1_0) bitsLt_bf16_f32 : S1024x1024.Idx → EReal) (ix2 k d)
      = Wm (ix2 d k) := by
  rw [truncf_apply]
  exact transpose_apply [1, 0] Wm transposes_S1024x1024_S1024x1024_1_0 (ix2 k d) (ix2 d k) (fun b => match b with
    | ⟨0, _⟩ => rfl
    | ⟨1, _⟩ => rfl)

/-- A bias as one row: entry (0, d) is the vector's entry d. -/
theorem row_apply (bv : S1024.Idx → EReal) (d : Fin 1024) :
    (shapeCast S1x1024 bv shapeCasts_S1024_S1x1024 : S1x1024.Idx → EReal) (ix2 (0 : Fin 1) d) = bv (ix1 d) :=
  shapeCast_a_1a_apply bv shapeCasts_S1024_S1x1024 0 d

/-- After the first host stretch: the three prepared weights and the first bias row. -/
theorem W1_main_v1 (c : Dev nD) : (W1 (F := Ideal) m ρ c (Proc.devRef .tc main_v1) : S1024x1024.Idx → EReal)
    = truncf (F := Ideal) .bf16 (transpose S1024x1024 [1, 0] (m ((c : Thread nD τ).loc main_arg2)) transposes_S1024x1024_S1024x1024_1_0) bitsLt_bf16_f32 := by
  show StableHlo.after hostOps0 (W0 m ρ c) (Proc.devRef .tc main_v1) = _
  after_results
theorem W1_main_v3 (c : Dev nD) : (W1 (F := Ideal) m ρ c (Proc.devRef .tc main_v3) : S1024x1024.Idx → EReal)
    = truncf (F := Ideal) .bf16 (transpose S1024x1024 [1, 0] (m ((c : Thread nD τ).loc main_arg4)) transposes_S1024x1024_S1024x1024_1_0) bitsLt_bf16_f32 := by
  show StableHlo.after hostOps0 (W0 m ρ c) (Proc.devRef .tc main_v3) = _
  after_results
theorem W1_main_v5 (c : Dev nD) : (W1 (F := Ideal) m ρ c (Proc.devRef .tc main_v5) : S1024x1024.Idx → EReal)
    = truncf (F := Ideal) .bf16 (transpose S1024x1024 [1, 0] (m ((c : Thread nD τ).loc main_arg6)) transposes_S1024x1024_S1024x1024_1_0) bitsLt_bf16_f32 := by
  show StableHlo.after hostOps0 (W0 m ρ c) (Proc.devRef .tc main_v5) = _
  after_results
theorem W1_main_v6 (c : Dev nD) : (W1 (F := Ideal) m ρ c (Proc.devRef .tc main_v6) : S1x1024.Idx → EReal)
    = shapeCast S1x1024 (m ((c : Thread nD τ).loc main_arg3)) shapeCasts_S1024_S1x1024 := by
  show StableHlo.after hostOps0 (W0 m ρ c) (Proc.devRef .tc main_v6) = _
  after_results
  rfl
theorem W1_main_arg0 (c : Dev nD) : W1 (F := Ideal) m ρ c (Proc.devRef .tc main_arg0) = m ((c : Thread nD τ).loc main_arg0) :=
  W1_keep m ρ c main_arg0 (by decide)

/-- Entering the second call: its rows as launched, its weight as the first stretch prepared it, its bias row. -/
theorem W3_main_arg1 (c : Dev nD) : W3 (F := Ideal) m ρ c (Proc.devRef .tc main_arg1) = m ((c : Thread nD τ).loc main_arg1) :=
  (W3_keep m ρ c main_arg1 (by decide)).trans <| (W2_keep m ρ c main_arg1 (by decide)).trans <| W1_keep m ρ c main_arg1 (by decide)
theorem W3_main_v3 (c : Dev nD) : W3 (F := Ideal) m ρ c (Proc.devRef .tc main_v3) = W1 m ρ c (Proc.devRef .tc main_v3) :=
  (W3_keep m ρ c main_v3 (by decide)).trans (W2_keep m ρ c main_v3 (by decide))
theorem W2_main_arg5 (c : Dev nD) : W2 (F := Ideal) m ρ c (Proc.devRef .tc main_arg5) = m ((c : Thread nD τ).loc main_arg5) :=
  (W2_keep m ρ c main_arg5 (by decide)).trans (W1_keep m ρ c main_arg5 (by decide))
theorem W3_main_v8 (c : Dev nD) : (W3 (F := Ideal) m ρ c (Proc.devRef .tc main_v8) : S1x1024.Idx → EReal)
    = shapeCast S1x1024 (m ((c : Thread nD τ).loc main_arg5)) shapeCasts_S1024_S1x1024 := by
  show StableHlo.after hostOps1 (W2 m ρ c) (Proc.devRef .tc main_v8) = _
  after_results
  rw [W2_main_arg5]
  rfl

/-- Entering the third call, likewise. -/
theorem W5_main_arg0 (c : Dev nD) : W5 (F := Ideal) m ρ c (Proc.devRef .tc main_arg0) = m ((c : Thread nD τ).loc main_arg0) :=
  (W5_keep m ρ c main_arg0 (by decide)).trans <| (W4_keep m ρ c main_arg0 (by decide)).trans <| (W3_keep m ρ c main_arg0 (by decide)).trans <|
    (W2_keep m ρ c main_arg0 (by decide)).trans <| W1_keep m ρ c main_arg0 (by decide)
theorem W5_main_v5 (c : Dev nD) : W5 (F := Ideal) m ρ c (Proc.devRef .tc main_v5) = W1 m ρ c (Proc.devRef .tc main_v5) :=
  (W5_keep m ρ c main_v5 (by decide)).trans <| (W4_keep m ρ c main_v5 (by decide)).trans <| (W3_keep m ρ c main_v5 (by decide)).trans <|
    W2_keep m ρ c main_v5 (by decide)
theorem W4_main_arg7 (c : Dev nD) : W4 (F := Ideal) m ρ c (Proc.devRef .tc main_arg7) = m ((c : Thread nD τ).loc main_arg7) :=
  (W4_keep m ρ c main_arg7 (by decide)).trans <| (W3_keep m ρ c main_arg7 (by decide)).trans <| (W2_keep m ρ c main_arg7 (by decide)).trans <|
    W1_keep m ρ c main_arg7 (by decide)
theorem W5_main_v10 (c : Dev nD) : (W5 (F := Ideal) m ρ c (Proc.devRef .tc main_v10) : S1x1024.Idx → EReal)
    = shapeCast S1x1024 (m ((c : Thread nD τ).loc main_arg7)) shapeCasts_S1024_S1x1024 := by
  show StableHlo.after hostOps2 (W4 m ρ c) (Proc.devRef .tc main_v10) = _
  after_results
  rw [W4_main_arg7]
  rfl

/-! # The three projections are the specification's -/

/-- The array a linear call leaves is the specification's linear layer, once its weight operand is the given weight
    transposed and its bias operand is the given bias as a row. -/
theorem linArr_spec (p : Cert.Spec.Rows) (Wm : Cert.Spec.Weight) (bv : Cert.Spec.Bias)
    (X : S8192x1024.Idx → EReal) (Wt : S1024x1024.Idx → EReal) (B : S1x1024.Idx → EReal)
    (hX : X = p) (hW : ∀ k d : Fin 1024, Wt (ix2 k d) = Wm (ix2 d k)) (hB : ∀ d : Fin 1024, B (ix2 (0 : Fin 1) d) = bv (ix1 d)) :
    linArr X Wt B = fun x => Cert.Spec.lin p Wm bv (x 0) (x 1) := by
  subst hX
  funext x
  obtain ⟨n, d, rfl⟩ : ∃ (n : Fin 8192) (d : Fin 1024), x = ix2 n d := ⟨x 0, x 1, eq_ix2 x⟩
  show (∑ k : Fin 1024, X (ix2 n k) * Wt (ix2 k d)) + B (ix2 (0 : Fin 1) d) = (∑ k : Fin 1024, X (ix2 n k) * Wm (ix2 d k)) + bv (ix1 d)
  rw [hB]
  exact congrArg (· + bv (ix1 d)) (Finset.sum_congr rfl fun k _ => by rw [hW])

/-- The first call leaves the queries, -/
theorem q_eq (c : Dev nD) : (W2 (F := Ideal) m ρ c (Proc.devRef .tc main_v7) : S8192x1024.Idx → EReal)
    = fun x => Cert.Spec.Q (m ((c : Thread nD τ).loc main_arg0)) (m ((c : Thread nD τ).loc main_arg2)) (m ((c : Thread nD τ).loc main_arg3)) (x 0) (x 1) := by
  refine ((W2_arr m ρ c 3).trans (final0 (V1 m ρ) c)).trans
    (linArr_spec _ _ _ _ _ _ (W1_main_arg0 m ρ c) (fun k d => ?_) (fun d => ?_))
  · show (W1 m ρ c (Proc.devRef .tc main_v1) : S1024x1024.Idx → EReal) (ix2 k d) = _
    rw [W1_main_v1]; exact transposed_apply _ k d
  · show (W1 m ρ c (Proc.devRef .tc main_v6) : S1x1024.Idx → EReal) (ix2 (0 : Fin 1) d) = _
    rw [W1_main_v6]; exact row_apply _ d

/-- the second the keys, -/
theorem k_eq (c : Dev nD) : (W4 (F := Ideal) m ρ c (Proc.devRef .tc main_v9) : S8192x1024.Idx → EReal)
    = fun x => Cert.Spec.Kk (m ((c : Thread nD τ).loc main_arg1)) (m ((c : Thread nD τ).loc main_arg4)) (m ((c : Thread nD τ).loc main_arg5)) (x 0) (x 1) := by
  refine ((W4_arr m ρ c 3).trans (final1 (V3 m ρ) c)).trans
    (linArr_spec _ _ _ _ _ _ (W3_main_arg1 m ρ c) (fun k d => ?_) (fun d => ?_))
  · show (W3 m ρ c (Proc.devRef .tc main_v3) : S1024x1024.Idx → EReal) (ix2 k d) = _
    rw [W3_main_v3, W1_main_v3]; exact transposed_apply _ k d
  · show (W3 m ρ c (Proc.devRef .tc main_v8) : S1x1024.Idx → EReal) (ix2 (0 : Fin 1) d) = _
    rw [W3_main_v8]; exact row_apply _ d

/-- and the third the values. -/
theorem v_eq (c : Dev nD) : (W6 (F := Ideal) m ρ c (Proc.devRef .tc main_v11) : S8192x1024.Idx → EReal)
    = fun x => Cert.Spec.Vv (m ((c : Thread nD τ).loc main_arg0)) (m ((c : Thread nD τ).loc main_arg6)) (m ((c : Thread nD τ).loc main_arg7)) (x 0) (x 1) := by
  refine ((W6_arr m ρ c 3).trans (final2 (V5 m ρ) c)).trans
    (linArr_spec _ _ _ _ _ _ (W5_main_arg0 m ρ c) (fun k d => ?_) (fun d => ?_))
  · show (W5 m ρ c (Proc.devRef .tc main_v5) : S1024x1024.Idx → EReal) (ix2 k d) = _
    rw [W5_main_v5, W1_main_v5]; exact transposed_apply _ k d
  · show (W5 m ρ c (Proc.devRef .tc main_v10) : S1x1024.Idx → EReal) (ix2 (0 : Fin 1) d) = _
    rw [W5_main_v10]; exact row_apply _ d

end Cert.KernelIdeal.Val

end
-- ==== Proof.KernelIdeal.Val3.Pieces.lean ====
import proofs.«101729_j45303315038988_2_alg».proof.Proof.KernelIdeal.Reg3
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.KernelIdeal.Hand

/-! # Region 3: what each case's stores leave, read back as the kernel's payload functions

Per case of the two conditions (first / middle / last query block of a key row), the pieces the run found for the
running maximum, the running sum and the output block, read back: each is ONE payload of the kernel applied to
the blocks the body loaded (at a row's first query block: to the reset values it had just stored). -/

variable {F : FTy → Type} [FloatOps F]

/-- The zero offsets, however spelt. -/
theorem hz3 : (![0, 0] : Fin 2 → Nat) = fun _ => 0 := funext fun a => by fin_cases a <;> rfl

/-- MIDDLE query block: the running maximum becomes the new maximum over what it held. -/
theorem soutB0_3 (c : Dev nD) (i : grid3.Coords) (a2 : Memref sig .tc .vmem S512x1024 .bf16) (h2 : a2.IsWhole) (a3 : Memref sig .tc .vmem S2048x1024 .bf16) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (hc0 : ¬cond3_0 i) (hc1 : ¬cond3_1 i)
    (x0 : Vec F S512x1024 .bf16) (x1 : Vec F S2048x1024 .bf16) (xs0 xs1 : Vec F S2048x1 .f32) :
    sout3_B_0 c i a2 h2 a3 h3 a4 h4 a5 h5 a6 h6 hc0 hc1 x0 x1 xs0 xs1 = k3_pay6 x0 x1 xs0 := by
  unfold sout3_B_0
  rw [View.read_writes_eq_canon _ _ _ (scover3_B_0 c i a2 h2 a3 h3 a4 h4 a5 h5 a6 h6 hc0 hc1 x0 x1 xs0 xs1)]
  unfold kernelRun3_B
  dsimp only
  rw [View.canon_unit_zero hz3]
  simp only [View.readAt_eq_ld, h2.read_unread, h3.read_unread, h5.read_unread, h6.read_unread, View.ld_unit_zero (S := S512x1024) hz3, View.ld_unit_zero (S := S2048x1024) hz3, View.ld_unit_zero (S := S2048x1) hz3]

/-- MIDDLE query block: the running sum is rescaled and increased. -/
theorem soutB1_3 (c : Dev nD) (i : grid3.Coords) (a2 : Memref sig .tc .vmem S512x1024 .bf16) (h2 : a2.IsWhole) (a3 : Memref sig .tc .vmem S2048x1024 .bf16) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (hc0 : ¬cond3_0 i) (hc1 : ¬cond3_1 i)
    (x0 : Vec F S512x1024 .bf16) (x1 : Vec F S2048x1024 .bf16) (xs0 xs1 : Vec F S2048x1 .f32) :
    sout3_B_1 c i a2 h2 a3 h3 a4 h4 a5 h5 a6 h6 hc0 hc1 x0 x1 xs0 xs1 = k3_pay5 x0 x1 xs0 xs0 xs1 := by
  unfold sout3_B_1
  rw [View.read_writes_eq_canon _ _ _ (scover3_B_1 c i a2 h2 a3 h3 a4 h4 a5 h5 a6 h6 hc0 hc1 x0 x1 xs0 xs1)]
  unfold kernelRun3_B
  dsimp only
  rw [View.canon_unit_zero hz3]
  simp only [View.readAt_eq_ld, h2.read_unread, h3.read_unread, h5.read_unread, h6.read_unread, View.ld_unit_zero (S := S512x1024) hz3, View.ld_unit_zero (S := S2048x1024) hz3, View.ld_unit_zero (S := S2048x1) hz3]

/-- LAST query block: the running maximum as at a middle block. -/
theorem soutC0_3 (c : Dev nD) (i : grid3.Coords) (a2 : Memref sig .tc .vmem S512x1024 .bf16) (h2 : a2.IsWhole) (a3 : Memref sig .tc .vmem S2048x1024 .bf16) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (hc0 : ¬cond3_0 i) (hc1 : cond3_1 i)
    (x0 : Vec F S512x1024 .bf16) (x1 : Vec F S2048x1024 .bf16) (xs0 xs1 : Vec F S2048x1 .f32) :
    sout3_C_0 c i a2 h2 a3 h3 a4 h4 a5 h5 a6 h6 hc0 hc1 x0 x1 xs0 xs1 = k3_pay6 x0 x1 xs0 := by
  unfold sout3_C_0
  rw [View.read_writes_eq_canon _ _ _ (scover3_C_0 c i a2 h2 a3 h3 a4 h4 a5 h5 a6 h6 hc0 hc1 x0 x1 xs0 xs1)]
  unfold kernelRun3_C
  dsimp only
  sl_unfold_words
  rw [View.canon_unit_zero hz3]
  simp only [View.readAt_eq_ld, h2.read_unread, h3.read_unread, h5.read_unread, h6.read_unread, View.ld_unit_zero (S := S512x1024) hz3, View.ld_unit_zero (S := S2048x1024) hz3, View.ld_unit_zero (S := S2048x1) hz3]

/-- LAST query block: the running sum as at a middle block. -/
theorem soutC1_3 (c : Dev nD) (i : grid3.Coords) (a2 : Memref sig .tc .vmem S512x1024 .bf16) (h2 : a2.IsWhole) (a3 : Memref sig .tc .vmem S2048x1024 .bf16) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (hc0 : ¬cond3_0 i) (hc1 : cond3_1 i)
    (x0 : Vec F S512x1024 .bf16) (x1 : Vec F S2048x1024 .bf16) (xs0 xs1 : Vec F S2048x1 .f32) :
    sout3_C_1 c i a2 h2 a3 h3 a4 h4 a5 h5 a6 h6 hc0 hc1 x0 x1 xs0 xs1 = k3_pay5 x0 x1 xs0 xs0 xs1 := by
  unfold sout3_C_1
  rw [View.read_writes_eq_canon _ _ _ (scover3_C_1 c i a2 h2 a3 h3 a4 h4 a5 h5 a6 h6 hc0 hc1 x0 x1 xs0 xs1)]
  unfold kernelRun3_C
  dsimp only
  sl_unfold_words
  rw [View.canon_unit_zero hz3]
  simp only [View.readAt_eq_ld, h2.read_unread, h3.read_unread, h5.read_unread, h6.read_unread, View.ld_unit_zero (S := S512x1024) hz3, View.ld_unit_zero (S := S2048x1024) hz3, View.ld_unit_zero (S := S2048x1) hz3]

/-- LAST query block: the output block is the final payload of the updated maximum and sum (read back after
    their stores). -/
theorem outC2_3 (c : Dev nD) (i : grid3.Coords) (a2 : Memref sig .tc .vmem S512x1024 .bf16) (h2 : a2.IsWhole) (a3 : Memref sig .tc .vmem S2048x1024 .bf16) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (hc0 : ¬cond3_0 i) (hc1 : cond3_1 i)
    (x0 : Vec F S512x1024 .bf16) (x1 : Vec F S2048x1024 .bf16) (xs0 xs1 : Vec F S2048x1 .f32) :
    out3_C_2 c i a2 h2 a3 h3 a4 h4 a5 h5 a6 h6 hc0 hc1 x0 x1 xs0 xs1 = k3_pay7 (k3_pay6 x0 x1 xs0) (k3_pay5 x0 x1 xs0 xs0 xs1) := by
  unfold out3_C_2
  rw [View.read_writes_eq_canon _ _ _ (cover3_C_2 c i a2 h2 a3 h3 a4 h4 a5 h5 a6 h6 hc0 hc1 x0 x1 xs0 xs1)]
  unfold kernelRun3_C
  dsimp only
  sl_unfold_words
  rw [View.canon_unit_zero hz3, View.readCov_unit_zero (S := S2048x1) _ hz3, View.readCov_unit_zero (S := S2048x1) _ hz3]
  simp only [View.readAt_eq_ld, h2.read_unread, h3.read_unread, h5.read_unread, h6.read_unread, View.ld_unit_zero (S := S512x1024) hz3, View.ld_unit_zero (S := S2048x1024) hz3, View.ld_unit_zero (S := S2048x1) hz3]

/-- FIRST query block: the running maximum is updated over the reset value just stored. -/
theorem soutA0_3 (c : Dev nD) (i : grid3.Coords) (a2 : Memref sig .tc .vmem S512x1024 .bf16) (h2 : a2.IsWhole) (a3 : Memref sig .tc .vmem S2048x1024 .bf16) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (hc0 : cond3_0 i) (hc1 : ¬cond3_1 i)
    (x0 : Vec F S512x1024 .bf16) (x1 : Vec F S2048x1024 .bf16) :
    sout3_A_0 c i a2 h2 a3 h3 a4 h4 a5 h5 a6 h6 hc0 hc1 x0 x1 = k3_pay6 x0 x1 (k3_pay1 (F := F)) := by
  unfold sout3_A_0
  rw [View.read_writes_eq_canon _ _ _ (scover3_A_0 c i a2 h2 a3 h3 a4 h4 a5 h5 a6 h6 hc0 hc1 x0 x1)]
  unfold kernelRun3_A
  dsimp only
  sl_unfold_words
  rw [View.canon_cons_unit_zero (S := S2048x1) hz3, View.readCov_unit_zero (S := S2048x1) _ hz3]
  simp only [View.readAt_eq_ld, h2.read_unread, h3.read_unread, h5.read_unread, h6.read_unread, View.ld_unit_zero (S := S512x1024) hz3, View.ld_unit_zero (S := S2048x1024) hz3, View.ld_unit_zero (S := S2048x1) hz3]

/-- FIRST query block: the running sum is updated over the reset values just stored. -/
theorem soutA1_3 (c : Dev nD) (i : grid3.Coords) (a2 : Memref sig .tc .vmem S512x1024 .bf16) (h2 : a2.IsWhole) (a3 : Memref sig .tc .vmem S2048x1024 .bf16) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (hc0 : cond3_0 i) (hc1 : ¬cond3_1 i)
    (x0 : Vec F S512x1024 .bf16) (x1 : Vec F S2048x1024 .bf16) :
    sout3_A_1 c i a2 h2 a3 h3 a4 h4 a5 h5 a6 h6 hc0 hc1 x0 x1 = k3_pay5 x0 x1 (k3_pay1 (F := F)) (k3_pay1 (F := F)) (k3_pay2 (F := F)) := by
  unfold sout3_A_1
  rw [View.read_writes_eq_canon _ _ _ (scover3_A_1 c i a2 h2 a3 h3 a4 h4 a5 h5 a6 h6 hc0 hc1 x0 x1)]
  unfold kernelRun3_A
  dsimp only
  sl_unfold_words
  rw [View.canon_cons_unit_zero (S := S2048x1) hz3, View.readCov_unit_zero (S := S2048x1) _ hz3, View.readCov_unit_zero (S := S2048x1) _ hz3]
  simp only [View.readAt_eq_ld, h2.read_unread, h3.read_unread, h5.read_unread, h6.read_unread, View.ld_unit_zero (S := S512x1024) hz3, View.ld_unit_zero (S := S2048x1024) hz3, View.ld_unit_zero (S := S2048x1) hz3]

end Cert.KernelIdeal.Val

end
-- ==== Proof.KernelIdeal.Pay3.lean ====
import proofs.«101729_j45303315038988_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.ValueIdx
open Cert.KernelIdeal Cert.KernelIdeal.Gen

/-! # The log-sum-exp kernel's stored values at an index

For a block of 2048 key rows and a block of 512 query rows, at exact values: the scores are
s(j, i) = ∑ₑ k(j,e)·q(i,e); the running maximum of key row j becomes max (m(j), maxᵢ s(j,i)); the running sum becomes
exp (m(j) − m'(j)) · l(j) + ∑ᵢ exp (s(j,i) − m'(j)); and the last step stores m(j) + log l(j). -/

/-! ## The score product k·qᵀ: both operands contracted over their feature axis -/

/-- The left operand's index at output (j, i) and contraction coordinate c is (j, c), -/
theorem lseLhs_0 (i : S2048x512.Idx) (c : dot_S2048x1024_S512x1024_S2048x512_1_1_0_0_n_n.contr.Idx) :
    (dot_S2048x1024_S512x1024_S2048x512_1_1_0_0_n_n.lhsIdx i c 0).val = (i 0).val := by
  unfold DotDims.lhsIdx
  rw [dif_neg (show ¬(0 : Fin S2048x1024.rank) ∈ dot_S2048x1024_S512x1024_S2048x512_1_1_0_0_n_n.lhsBatch by decide), dif_pos (show (0 : Fin S2048x1024.rank) ∈ dot_S2048x1024_S512x1024_S2048x512_1_1_0_0_n_n.lhsNonContracting by decide)]
  rfl
theorem lseLhs_1 (i : S2048x512.Idx) (c : dot_S2048x1024_S512x1024_S2048x512_1_1_0_0_n_n.contr.Idx) :
    (dot_S2048x1024_S512x1024_S2048x512_1_1_0_0_n_n.lhsIdx i c 1).val = (c ⟨0, by decide⟩).val :=
  dot_S2048x1024_S512x1024_S2048x512_1_1_0_0_n_n.lhsIdx_val_of_single rfl i c
/-- and the right operand's is (i, c). -/
theorem lseRhs_0 (i : S2048x512.Idx) (c : dot_S2048x1024_S512x1024_S2048x512_1_1_0_0_n_n.contr.Idx) :
    (dot_S2048x1024_S512x1024_S2048x512_1_1_0_0_n_n.rhsIdx i c 0).val = (i 1).val := by
  unfold DotDims.rhsIdx
  rw [dif_neg (show ¬(0 : Fin S512x1024.rank) ∈ dot_S2048x1024_S512x1024_S2048x512_1_1_0_0_n_n.rhsBatch by decide), dif_pos (show (0 : Fin S512x1024.rank) ∈ dot_S2048x1024_S512x1024_S2048x512_1_1_0_0_n_n.rhsNonContracting by decide)]
  rfl
theorem lseRhs_1 (i : S2048x512.Idx) (c : dot_S2048x1024_S512x1024_S2048x512_1_1_0_0_n_n.contr.Idx) :
    (dot_S2048x1024_S512x1024_S2048x512_1_1_0_0_n_n.rhsIdx i c 1).val = (c ⟨0, by decide⟩).val :=
  dot_S2048x1024_S512x1024_S2048x512_1_1_0_0_n_n.rhsIdx_val_of_single rfl i c

/-- The scores of the block: entry (j, i) is key row j times query row i. -/
theorem lse_score_apply (v3 : Vec Ideal S512x1024 .bf16) (v5 : Vec Ideal S2048x1024 .bf16) (jj : Fin 2048) (ii : Fin 512) :
    k3_pay3 (F := Ideal) v3 v5 (ix2 jj ii) = ∑ d : Fin 1024, v5 (ix2 jj d) * v3 (ix2 ii d) := by
  unfold k3_pay3
  rw [shapeCast_self, shapeCast_self]
  simp only [matmul]
  rw [Ideal.matmul_constant_zero_apply, ← Equiv.sum_comp (contrEquiv1 dot_S2048x1024_S512x1024_S2048x512_1_1_0_0_n_n 1024 rfl rfl).symm]
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 jj ii) ((contrEquiv1 dot_S2048x1024_S512x1024_S2048x512_1_1_0_0_n_n 1024 rfl rfl).symm k) = ix2 jj k := funext fun a => Fin.ext (by
    match a with
    | ⟨0, _⟩ => exact lseLhs_0 _ _
    | ⟨1, _⟩ => exact (lseLhs_1 _ _).trans hk)
  have er : dot_S2048x1024_S512x1024_S2048x512_1_1_0_0_n_n.rhsIdx (ix2 jj ii) ((contrEquiv1 dot_S2048x1024_S512x1024_S2048x512_1_1_0_0_n_n 1024 rfl rfl).symm k) = ix2 ii k := funext fun a => Fin.ext (by
    match a with
    | ⟨0, _⟩ => exact lseRhs_0 _ _
    | ⟨1, _⟩ => exact (lseRhs_1 _ _).trans hk)
  rw [el, er]

/-! ## The column shapes: a lane reduction kept as a column, and a column repeated along the lanes -/

/-- An `[a]` array cast to the column `[a, 1]` reads, at `(i, u)`, the operand at `i`. -/
theorem colCast_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated to `[a, b]` reads, at `(p, c)`, the column at `p`. -/
theorem colBroadcast_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Every index of the column shape is `(j, 0)`. -/
theorem eq_ix2_col (j : S2048x1.Idx) : j = ix2 (j 0 : Fin 2048) (0 : Fin 1) := by
  funext a; match a with | ⟨0, _⟩ => rfl | ⟨1, _⟩ => exact Subsingleton.elim (α := Fin 1) _ _

/-! ## The pointwise exponential and logarithm at an index -/

theorem lse_exp_apply {s : Shape} {φ : FTy} (a : FVec Ideal s φ) (i : s.Idx) : exp a i = Ideal.exp (a i) := rfl
theorem lse_log_apply {s : Shape} {φ : FTy} (a : FVec Ideal s φ) (i : s.Idx) : log a i = Ideal.log (a i) := rfl

/-! ## The reset constants and the last step's stored value -/

/-- The running maximum is reset to −∞. -/
theorem lse_resetMax_apply (jj : Fin 2048) : k3_pay1 (F := Ideal) (ix2 jj (0 : Fin 1)) = ⊥ := by
  unfold k3_pay1
  rw [shapeCast_self, broadcast_apply]
  show Ideal.ofBits .f32 0xFF800000#32 = ⊥
  simp [Ideal.ofBits, Ideal.ieee]

/-- The running sum is reset to zero. -/
theorem lse_resetSum_apply (jj : Fin 2048) : k3_pay2 (F := Ideal) (ix2 jj (0 : Fin 1)) = 0 := by
  unfold k3_pay2
  rw [shapeCast_self, broadcast_apply]
  exact Ideal.ofBits_zero_f32

/-- The last step stores the running maximum plus the logarithm of the running sum. -/
theorem lse_final_apply (v32 v33 : Vec Ideal S2048x1 .f32) (jj : Fin 2048) :
    k3_pay7 (F := Ideal) v32 v33 (ix2 jj (0 : Fin 1)) = v32 (ix2 jj (0 : Fin 1)) + Ideal.log (v33 (ix2 jj (0 : Fin 1))) := by
  unfold k3_pay7
  rw [addf_apply, lse_log_apply]

/-! ## The lane reductions of a block, read at a key row -/

/-- On the extended reals the fold of `max` from −∞ over a finite set is the set's supremum. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The lane maximum of a `[2048, 512]` block at row j: the fold of `max` from −∞ over the 512 lanes. -/
theorem laneMax_apply (src : FVec Ideal S2048x512 .f32) (h : S2048x512.Reduces [1] S2048) (hφ : FKind.Formats .f32)
    (hacc : (0xFF800000#32 : BitVec 32) = FKind.maximumf.neutral .f32 hφ) (jj : Fin 2048) :
    multiReduction (F := Ideal) .maximumf [1] S2048 src 0xFF800000#32 h hφ hacc (ix1 jj)
      = (Finset.univ : Finset (Fin 512)).fold max ⊥ (fun ii => src (ix2 jj ii)) := by
  refine (Ideal.multiReduction_maximumf_single src 0xFF800000#32 h hφ hacc (ix1 jj)).trans ?_
  have hb : (FloatOps.ofBits (F := Ideal) .f32 0xFF800000#32 : Ideal .f32) = (⊥ : EReal) := by
    show Ideal.ofBits .f32 0xFF800000#32 = ⊥
    simp [Ideal.ofBits, Ideal.ieee]
  rw [hb]
  show (Finset.univ : Finset (Fin 512)).fold max ⊥ (fun ii : Fin 512 => src (h.lift (ix1 jj) ii)) = _
  refine congrArg (fun g => (Finset.univ : Finset (Fin 512)).fold max ⊥ g) (funext fun ii => congrArg src ?_)
  funext a; refine Fin.ext ?_
  match a with
  | ⟨0, _⟩ => rfl
  | ⟨1, _⟩ => rfl

/-- The lane sum of a `[2048, 512]` block at row j: the sum over the 512 lanes. -/
theorem laneSum_apply (src : FVec Ideal S2048x512 .f32) (h : S2048x512.Reduces [1] S2048) (hφ : FKind.Formats .f32)
    (hacc : (0x00000000#32 : BitVec 32) = FKind.add.neutral .f32 hφ) (jj : Fin 2048) :
    multiReduction (F := Ideal) .add [1] S2048 src 0x00000000#32 h hφ hacc (ix1 jj)
      = ∑ ii : Fin 512, src (ix2 jj ii) := by
  refine (Ideal.multiReduction_add_single src 0x00000000#32 h hφ hacc (ix1 jj)).trans ?_
  show ∑ ii : Fin 512, src (h.lift (ix1 jj) ii) = _
  refine Finset.sum_congr rfl fun ii _ => congrArg src ?_
  funext a; refine Fin.ext ?_
  match a with
  | ⟨0, _⟩ => rfl
  | ⟨1, _⟩ => rfl

/-! ## The running maximum and the running sum after a block -/

/-- The new running maximum of key row j: the old one against the block's row maximum (a fold of `max` from −∞). -/
theorem lse_max_apply_fold (v3 : Vec Ideal S512x1024 .bf16) (v5 : Vec Ideal S2048x1024 .bf16) (v8 : Vec Ideal S2048x1 .f32) (jj : Fin 2048) :
    k3_pay4 (F := Ideal) v3 v5 v8 (ix2 jj (0 : Fin 1))
      = max (v8 (ix2 jj (0 : Fin 1))) ((Finset.univ : Finset (Fin 512)).fold max ⊥ (fun ii => k3_pay3 (F := Ideal) v3 v5 (ix2 jj ii))) := by
  unfold k3_pay4
  generalize k3_pay3 (F := Ideal) v3 v5 = s
  rw [maximumf_apply, colCast_apply]
  exact congrArg (max (v8 (ix2 jj (0 : Fin 1)))) (laneMax_apply s _ _ _ jj)

/-- The same with the row maximum written as a supremum over the 512 lanes. -/
theorem lse_max_apply (v3 : Vec Ideal S512x1024 .bf16) (v5 : Vec Ideal S2048x1024 .bf16) (v8 : Vec Ideal S2048x1 .f32) (jj : Fin 2048) :
    k3_pay4 (F := Ideal) v3 v5 v8 (ix2 jj (0 : Fin 1))
      = max (v8 (ix2 jj (0 : Fin 1))) (Finset.univ.sup fun ii : Fin 512 => k3_pay3 (F := Ideal) v3 v5 (ix2 jj ii)) := by
  rw [lse_max_apply_fold, fold_max_bot_eq_sup]

/-- The new running sum of key row j: the old one rescaled to the new maximum, plus the block's exponentials. -/
theorem lse_sum_apply (v3 : Vec Ideal S512x1024 .bf16) (v5 : Vec Ideal S2048x1024 .bf16) (v8 v12 v18 : Vec Ideal S2048x1 .f32) (jj : Fin 2048) :
    k3_pay5 (F := Ideal) v3 v5 v8 v12 v18 (ix2 jj (0 : Fin 1))
      = Ideal.exp (v12 (ix2 jj (0 : Fin 1)) - k3_pay4 (F := Ideal) v3 v5 v8 (ix2 jj (0 : Fin 1))) * v18 (ix2 jj (0 : Fin 1))
        + ∑ ii : Fin 512, Ideal.exp (k3_pay3 (F := Ideal) v3 v5 (ix2 jj ii) - k3_pay4 (F := Ideal) v3 v5 v8 (ix2 jj (0 : Fin 1))) := by
  unfold k3_pay5
  generalize k3_pay3 (F := Ideal) v3 v5 = s
  generalize k3_pay4 (F := Ideal) v3 v5 v8 = m
  rw [shapeCast_self, addf_apply, mulf_apply, lse_exp_apply, subf_apply, colCast_apply]
  refine congrArg (Ideal.exp (v12 (ix2 jj (0 : Fin 1)) - m (ix2 jj (0 : Fin 1))) * v18 (ix2 jj (0 : Fin 1)) + ·) ?_
  refine (laneSum_apply _ _ _ _ jj).trans ?_
  refine Finset.sum_congr rfl fun ii _ => ?_
  rw [lse_exp_apply, subf_apply, colBroadcast_apply]

/-- The stored running maximum is the new running maximum. -/
theorem lse_newmax_eq (v3 : Vec Ideal S512x1024 .bf16) (v5 : Vec Ideal S2048x1024 .bf16) (v8 : Vec Ideal S2048x1 .f32) :
    k3_pay6 (F := Ideal) v3 v5 v8 = k3_pay4 (F := Ideal) v3 v5 v8 := by
  unfold k3_pay6
  exact shapeCast_self _ _

end Cert.KernelIdeal.Val

end
-- ==== Proof.KernelIdeal.Cover3.lean ====
import proofs.«101729_j45303315038988_2_alg».proof.Proof.KernelIdeal.Reg3
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable {F : FTy → Type} [FloatOps F]
variable (V : (c : Dev nD) → (b : Ref sig .tc) → Buf (Elt F) ((c : Thread nD τ).loc b))

/-! # From the key blocks to the whole column of log-sum-exps

The column has 4 blocks of 2048 rows. The 16 points of a key block share one output block, which is written back
at the block's last point only. So if, at each such point, the output block holds rows 2048·b … 2048·b + 2047 of a
function `G` of the whole column (b the key block), the column ends holding `G`. -/

/-- The output window's block index at point t is (t / 16, 0). -/
theorem outIndex3 : ∀ t : Fin cfg3.N, win3_2.index t (0 : Fin 2) = t.val / 16 ∧ win3_2.index t (1 : Fin 2) = 0 :=
  (by decide +kernel : ∀ t : Fin grid3.N, _)

/-- What a last point of a key block writes back is that block of `G`, when the point's output block is. -/
theorem wroteBack3 (c : Dev nD) (G : S8192x1.Idx → Elt F .f32)
    (hrow : ∀ t : Fin cfg3.N, t.val % 16 = 15 → ∀ (jj : Fin 2048) (hj : 2048 * (t.val / 16) + jj.val < 8192),
      (outsAt3 V c t.val t.isLt).1 (ix2 jj (0 : Fin 1)) = G (ix2 ⟨2048 * (t.val / 16) + jj.val, hj⟩ (0 : Fin 1)))
    (t : Fin cfg3.N) (hf : (cfg3.win 2).flush t = true) :
    (dat3 V c).flushed 2 t = ((cfg3.win 2).blk t).view.read (Elt F) G := by
  have h15 : t.val % 16 = 15 := (flush3_2 t).mp hf
  have hN : cfg3.N = 64 := N_3
  have ht := t.isLt
  obtain ⟨e0, e1⟩ := outIndex3 t
  show (cfg3.win 2).cut (grid3.coords t) ((dat3 V c).after 2 t) = _
  rw [after3_2]
  funext j
  have hj0 : (j 0).val < 2048 := (j 0).isLt
  have hj1 : (j 1).val < 1 := (j 1).isLt
  have hl : (cfg3.win 2).xinj (grid3.coords t) j = ix2 (⟨(j 0).val, hj0⟩ : Fin 2048) (0 : Fin 1) :=
    funext fun a => by
      match a with
      | ⟨0, _⟩ => rfl
      | ⟨1, _⟩ => exact Fin.ext (by show (j 1).val = 0; omega)
  show (outsAt3 V c t.val t.isLt).1 ((cfg3.win 2).xinj (grid3.coords t) j) = G (((cfg3.win 2).blk t).view.emb j)
  rw [hl, hrow t h15 _ (by dsimp only; omega)]
  refine congrArg G (funext fun a => Fin.ext ?_)
  match a with
  | ⟨0, _⟩ => show 2048 * (t.val / 16) + (j 0).val = win3_2.index t (0 : Fin 2) * 2048 + 1 * (j 0).val; omega
  | ⟨1, _⟩ => show 0 = win3_2.index t (1 : Fin 2) * 1 + 1 * (j 1).val; omega

/-- An index of the column is in point t's output block iff each coordinate is in the block's range on its axis. -/
theorem mem_outBlock3 (t : Fin cfg3.N) (i : S8192x1.Idx) :
    i ∈ ((cfg3.win 2).blk t).view.set ↔ ∀ a : Fin 2, win3_2.index t a * S2048x1.size a ≤ (i a).val ∧ (i a).val < win3_2.index t a * S2048x1.size a + S2048x1.size a := by
  show i ∈ ((View.whole main_v12).slice (win3_2.rect t)).set ↔ _
  rw [View.set_slice_whole, Rect.mem_set_unit]
  exact Iff.rfl

/-- Row r of the column is covered by the last point of its key block r / 2048. -/
theorem covered3 (i : S8192x1.Idx) :
    ∃ t : Fin cfg3.N, (cfg3.win 2).flush t = true ∧ i ∈ ((cfg3.win 2).blk t).view.set := by
  have hN : cfg3.N = 64 := N_3
  have hi0 : (i 0).val < 8192 := (i 0).isLt
  have hi1 : (i 1).val < 1 := (i 1).isLt
  let t : Fin cfg3.N := ⟨16 * ((i 0).val / 2048) + 15, by omega⟩
  have htv : t.val = 16 * ((i 0).val / 2048) + 15 := rfl
  obtain ⟨e0, e1⟩ := outIndex3 t
  refine ⟨t, (flush3_2 t).mpr (by omega), ?_⟩
  rw [mem_outBlock3]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 1 ≤ (i 1).val ∧ (i 1).val < win3_2.index t (1 : Fin 2) * 1 + 1; omega

/-- THE COLUMN after the region: `G`, when every key block's last point leaves that block of `G` in the output block. -/
theorem arrAt3_of_rows (c : Dev nD) (G : S8192x1.Idx → Elt F .f32)
    (hrow : ∀ t : Fin cfg3.N, t.val % 16 = 15 → ∀ (jj : Fin 2048) (hj : 2048 * (t.val / 16) + jj.val < 8192),
      (outsAt3 V c t.val t.isLt).1 (ix2 jj (0 : Fin 1)) = G (ix2 ⟨2048 * (t.val / 16) + jj.val, hj⟩ (0 : Fin 1))) :
    (dat3 V c).arrAt 2 cfg3.N = G :=
  (dat3 V c).arrAt_eq_of_cover 2 G (wroteBack3 V c G hrow) covered3

/-- The same, entry by entry, for a function of the row. -/
theorem arrAt3_apply_of_rows (c : Dev nD) (G : Fin 8192 → Elt F .f32)
    (hrow : ∀ t : Fin cfg3.N, t.val % 16 = 15 → ∀ (jj : Fin 2048) (hj : 2048 * (t.val / 16) + jj.val < 8192),
      (outsAt3 V c t.val t.isLt).1 (ix2 jj (0 : Fin 1)) = G ⟨2048 * (t.val / 16) + jj.val, hj⟩)
    (j : Fin 8192) : (dat3 V c).arrAt 2 cfg3.N (ix2 j (0 : Fin 1)) = G j :=
  congrFun (arrAt3_of_rows V c (fun x => G (x 0)) hrow) (ix2 j (0 : Fin 1))

end Cert.KernelIdeal.Val

end
-- ==== Proof.KernelIdeal.Val3.lean ====
import proofs.«101729_j45303315038988_2_alg».proof.Proof.KernelIdeal.Val3.Pieces
import proofs.«101729_j45303315038988_2_alg».proof.Proof.KernelIdeal.Pay3
import proofs.«101729_j45303315038988_2_alg».proof.Proof.KernelIdeal.Cover3
import Idealize.ShloMosaic.Lib.ValueIdx
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.Hand
open scoped BigOperators

/-! # Region 3 at the extended reals: per key row, the log-sum-exp over the queries as the streaming recurrence
   of a running maximum and a running sum over the sixteen query blocks -/

variable (V : (c : Dev nD) → (b : Ref sig .tc) → Buf (Elt Ideal) ((c : Thread nD τ).loc b))

theorem idx3_0 : ∀ t : Fin cfg3.N, win3_0.index t 0 = t.val % 16 ∧ win3_0.index t 1 = 0 :=
  (by decide +kernel : ∀ t : Fin grid3.N, win3_0.index t 0 = t.val % 16 ∧ win3_0.index t 1 = 0)
theorem idx3_1 : ∀ t : Fin cfg3.N, win3_1.index t 0 = t.val / 16 ∧ win3_1.index t 1 = 0 :=
  (by decide +kernel : ∀ t : Fin grid3.N, win3_1.index t 0 = t.val / 16 ∧ win3_1.index t 1 = 0)

abbrev qArr3 (c : Dev nD) : S8192x1024.Idx → EReal := V c (Pipeline.arrRef spec3 0)
abbrev kArr3 (c : Dev nD) : S8192x1024.Idx → EReal := V c (Pipeline.arrRef spec3 1)

theorem iblk3_0_apply (c : Dev nD) (t : Fin cfg3.N) (ii : Fin 512) (d : Fin 1024) (r : Fin 8192)
    (hr : r.val = 512 * (t.val % 16) + ii.val) :
    (iblk3 V c 0 t : Vec Ideal S512x1024 .bf16) (ix2 ii d) = qArr3 V c (ix2 r d) := by
  unfold iblk3
  rw [View.read_apply]
  show qArr3 V c _ = qArr3 V c _
  congr 1
  funext a
  apply Fin.ext
  match a with
  | ⟨0, _⟩ => show win3_0.index t 0 * 512 + 1 * ii.val = r.val; rw [(idx3_0 t).1]; omega
  | ⟨1, _⟩ => show win3_0.index t 1 * 1024 + 1 * d.val = d.val; rw [(idx3_0 t).2]; omega

theorem iblk3_1_apply (c : Dev nD) (t : Fin cfg3.N) (jj : Fin 2048) (d : Fin 1024) (j : Fin 8192)
    (hj : j.val = 2048 * (t.val / 16) + jj.val) :
    (iblk3 V c 1 t : Vec Ideal S2048x1024 .bf16) (ix2 jj d) = kArr3 V c (ix2 j d) := by
  unfold iblk3
  rw [View.read_apply]
  show kArr3 V c _ = kArr3 V c _
  congr 1
  funext a
  apply Fin.ext
  match a with
  | ⟨0, _⟩ => show win3_1.index t 0 * 2048 + 1 * jj.val = j.val; rw [(idx3_1 t).1]; omega
  | ⟨1, _⟩ => show win3_1.index t 1 * 1024 + 1 * d.val = d.val; rw [(idx3_1 t).2]; omega

/-! ## The two carried columns and the output column after a grid point, read at a key row of the block -/

/-- The running maximum after point `t`, at row `jj` of the point's key block. -/
def runMax3 (c : Dev nD) (t : Fin cfg3.N) (jj : Fin 2048) : EReal :=
  (outsAt3 (F := Ideal) V c t.val t.isLt).2.1 (ix2 jj (0 : Fin 1))
/-- The running sum after point `t`, at row `jj` of the point's key block. -/
def runSum3 (c : Dev nD) (t : Fin cfg3.N) (jj : Fin 2048) : EReal :=
  (outsAt3 (F := Ideal) V c t.val t.isLt).2.2 (ix2 jj (0 : Fin 1))
/-- The block scores at point `t`: key row `jj` of the key block against query row `ii` of the query block. -/
def blkScore3 (c : Dev nD) (t : Fin cfg3.N) (jj : Fin 2048) (ii : Fin 512) : EReal :=
  k3_pay3 (F := Ideal) (iblk3 V c 0 t) (iblk3 V c 1 t) (ix2 jj ii)

/-- At a row's FIRST query block: the maximum of the reset value ⊥ and the block's scores; the sum from the reset
    value 0. -/
theorem first_step3 (c : Dev nD) (t : Fin cfg3.N) (h0 : t.val % 16 = 0) (jj : Fin 2048) :
    runMax3 V c t jj = max ⊥ (Finset.univ.sup fun ii : Fin 512 => blkScore3 V c t jj ii)
    ∧ runSum3 V c t jj = Ideal.exp (⊥ - runMax3 V c t jj) * 0 + ∑ ii : Fin 512, Ideal.exp (blkScore3 V c t jj ii - runMax3 V c t jj) := by
  have h1 : ¬t.val % 16 = 15 := by omega
  have e := outsAt3_A V c t h0 h1
  have eM : runMax3 V c t jj = k3_pay4 (F := Ideal) (iblk3 V c 0 t) (iblk3 V c 1 t) (k3_pay1 (F := Ideal)) (ix2 jj (0 : Fin 1)) := by
    unfold runMax3; rw [e]; dsimp only
    exact congrFun ((soutA0_3 (F := Ideal) c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t)).trans
      (lse_newmax_eq (iblk3 V c 0 t) (iblk3 V c 1 t) (k3_pay1 (F := Ideal)))) (ix2 jj (0 : Fin 1))
  have eS : runSum3 V c t jj = k3_pay5 (F := Ideal) (iblk3 V c 0 t) (iblk3 V c 1 t) (k3_pay1 (F := Ideal)) (k3_pay1 (F := Ideal)) (k3_pay2 (F := Ideal)) (ix2 jj (0 : Fin 1)) := by
    unfold runSum3; rw [e]; dsimp only
    exact congrFun (soutA1_3 (F := Ideal) c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t)) (ix2 jj (0 : Fin 1))
  refine ⟨eM.trans ((lse_max_apply (iblk3 V c 0 t) (iblk3 V c 1 t) (k3_pay1 (F := Ideal)) jj).trans (by rw [lse_resetMax_apply]; rfl)), ?_⟩
  rw [eS, lse_sum_apply (iblk3 V c 0 t) (iblk3 V c 1 t) (k3_pay1 (F := Ideal)) (k3_pay1 (F := Ideal)) (k3_pay2 (F := Ideal)) jj, lse_resetMax_apply, lse_resetSum_apply, ← eM]
  rfl

/-- At a row's LATER query blocks: the maximum of what the point before left and the block's scores; the sum
    rescaled to the new maximum and increased by the block's terms. -/
theorem next_step3 (c : Dev nD) (t : Fin cfg3.N) (h0 : ¬t.val % 16 = 0) (jj : Fin 2048) :
    runMax3 V c t jj = max (runMax3 V c ⟨t.val - 1, Nat.lt_of_le_of_lt (Nat.sub_le _ _) t.isLt⟩ jj) (Finset.univ.sup fun ii : Fin 512 => blkScore3 V c t jj ii)
    ∧ runSum3 V c t jj = Ideal.exp (runMax3 V c ⟨t.val - 1, Nat.lt_of_le_of_lt (Nat.sub_le _ _) t.isLt⟩ jj - runMax3 V c t jj) * runSum3 V c ⟨t.val - 1, Nat.lt_of_le_of_lt (Nat.sub_le _ _) t.isLt⟩ jj
        + ∑ ii : Fin 512, Ideal.exp (blkScore3 V c t jj ii - runMax3 V c t jj) := by
  have key : runMax3 V c t jj = k3_pay4 (F := Ideal) (iblk3 V c 0 t) (iblk3 V c 1 t) (outsAt3 V c (t.val - 1) (Nat.lt_of_le_of_lt (Nat.sub_le _ _) t.isLt)).2.1 (ix2 jj (0 : Fin 1))
      ∧ runSum3 V c t jj = k3_pay5 (F := Ideal) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.1 (outsAt3 V c (t.val - 1) (Nat.lt_of_le_of_lt (Nat.sub_le _ _) t.isLt)).2.2 (ix2 jj (0 : Fin 1)) := by
    by_cases h1 : t.val % 16 = 15
    · have e := outsAt3_C V c t h0 h1
      constructor
      · unfold runMax3; rw [e]; dsimp only
        exact congrFun ((soutC0_3 (F := Ideal) c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2).trans
          (lse_newmax_eq (iblk3 V c 0 t) (iblk3 V c 1 t) (outsAt3 V c (t.val - 1) (Nat.lt_of_le_of_lt (Nat.sub_le _ _) t.isLt)).2.1)) (ix2 jj (0 : Fin 1))
      · unfold runSum3; rw [e]; dsimp only
        exact congrFun (soutC1_3 (F := Ideal) c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2) (ix2 jj (0 : Fin 1))
    · have e := outsAt3_B V c t h0 h1
      constructor
      · unfold runMax3; rw [e]; dsimp only
        exact congrFun ((soutB0_3 (F := Ideal) c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2).trans
          (lse_newmax_eq (iblk3 V c 0 t) (iblk3 V c 1 t) (outsAt3 V c (t.val - 1) (Nat.lt_of_le_of_lt (Nat.sub_le _ _) t.isLt)).2.1)) (ix2 jj (0 : Fin 1))
      · unfold runSum3; rw [e]; dsimp only
        exact congrFun (soutB1_3 (F := Ideal) c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2) (ix2 jj (0 : Fin 1))
  obtain ⟨eM, eS⟩ := key
  refine ⟨eM.trans (lse_max_apply (iblk3 V c 0 t) (iblk3 V c 1 t) (outsAt3 V c (t.val - 1) (Nat.lt_of_le_of_lt (Nat.sub_le _ _) t.isLt)).2.1 jj), ?_⟩
  rw [eS, lse_sum_apply (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.1 (outsAt3 V c (t.val - 1) (Nat.lt_of_le_of_lt (Nat.sub_le _ _) t.isLt)).2.2 jj, ← eM]
  rfl

/-- At a row's LAST query block the output column is the maximum plus the logarithm of the sum. -/
theorem last_out3 (c : Dev nD) (t : Fin cfg3.N) (h1 : t.val % 16 = 15) (jj : Fin 2048) :
    (outsAt3 (F := Ideal) V c t.val t.isLt).1 (ix2 jj (0 : Fin 1)) = runMax3 V c t jj + Ideal.log (runSum3 V c t jj) := by
  have h0 : ¬t.val % 16 = 0 := by omega
  have e := outsAt3_C V c t h0 h1
  unfold runMax3 runSum3
  rw [e]; dsimp only
  rw [outC2_3 (F := Ideal) c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2,
    soutC0_3 (F := Ideal) c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2,
    soutC1_3 (F := Ideal) c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2]
  exact lse_final_apply _ _ jj

/-! ## Along a key row: the recurrence over its sixteen query blocks -/

/-- The grid point of key block `jb` and query block `b`. -/
def pt3 (jb : Fin 4) (b : Fin 16) : Fin cfg3.N := ⟨16 * jb.val + b.val, by rw [show cfg3.N = 64 from N_3]; omega⟩
/-- Query row `ii` of query block `b`, in the query array. -/
def qRow3 (b : Fin 16) (ii : Fin 512) : Fin 8192 := ⟨512 * b.val + ii.val, by omega⟩
/-- Key row `jj` of key block `jb`, in the key array. -/
def kRow3 (jb : Fin 4) (jj : Fin 2048) : Fin 8192 := ⟨2048 * jb.val + jj.val, by omega⟩

/-- The score3 of key row `j` against query row `ii` of query block `b`: the inner product of the two rows. -/
def score3 (c : Dev nD) (j : Fin 8192) (b : Fin 16) (ii : Fin 512) : EReal :=
  ∑ d : Fin 1024, kArr3 V c (ix2 j d) * qArr3 V c (ix2 (qRow3 b ii) d)

/-- The block scores at a point are the rows' scores. -/
theorem blkScore3_eq (c : Dev nD) (jb : Fin 4) (b : Fin 16) (jj : Fin 2048) (ii : Fin 512) :
    blkScore3 V c (pt3 jb b) jj ii = score3 V c (kRow3 jb jj) b ii := by
  have hb := b.isLt; have hjb := jb.isLt
  unfold blkScore3 score3
  refine (lse_score_apply (iblk3 V c 0 (pt3 jb b)) (iblk3 V c 1 (pt3 jb b)) jj ii).trans ?_
  refine Finset.sum_congr rfl fun d _ => ?_
  rw [iblk3_1_apply V c (pt3 jb b) jj d (kRow3 jb jj) (by simp only [pt3, kRow3]; omega),
    iblk3_0_apply V c (pt3 jb b) ii d (qRow3 b ii) (by simp only [pt3, qRow3]; omega)]

/-- The running maximum of key row (`jb`, `jj`) after query block `b`. -/
def mm3 (c : Dev nD) (jb : Fin 4) (jj : Fin 2048) (b : Fin 16) : EReal := runMax3 V c (pt3 jb b) jj
/-- The running sum of key row (`jb`, `jj`) after query block `b`. -/
def ll3 (c : Dev nD) (jb : Fin 4) (jj : Fin 2048) (b : Fin 16) : EReal := runSum3 V c (pt3 jb b) jj

/-- The point before query block `b + 1`'s is query block `b`'s. -/
theorem prev_pt3 (jb : Fin 4) (b : Fin 15) (h : (pt3 jb b.succ).val - 1 < cfg3.N) :
    (⟨(pt3 jb b.succ).val - 1, h⟩ : Fin cfg3.N) = pt3 jb b.castSucc :=
  Fin.ext (by simp only [pt3, Fin.val_succ, Fin.coe_castSucc]; omega)

/-- The first query block of a row. -/
theorem row_first3 (c : Dev nD) (jb : Fin 4) (jj : Fin 2048) :
    mm3 V c jb jj 0 = max ⊥ (Finset.univ.sup fun ii : Fin 512 => score3 V c (kRow3 jb jj) 0 ii)
    ∧ ll3 V c jb jj 0 = Ideal.exp (⊥ - mm3 V c jb jj 0) * 0 + ∑ ii : Fin 512, Ideal.exp (score3 V c (kRow3 jb jj) 0 ii - mm3 V c jb jj 0) := by
  have h := first_step3 V c (pt3 jb 0) (by have : ((0 : Fin 16) : ℕ) = 0 := rfl; simp only [pt3]; omega) jj
  simp only [blkScore3_eq] at h
  exact h

/-- The later query blocks of a row. -/
theorem row_next3 (c : Dev nD) (jb : Fin 4) (jj : Fin 2048) (b : Fin 15) :
    mm3 V c jb jj b.succ = max (mm3 V c jb jj b.castSucc) (Finset.univ.sup fun ii : Fin 512 => score3 V c (kRow3 jb jj) b.succ ii)
    ∧ ll3 V c jb jj b.succ = Ideal.exp (mm3 V c jb jj b.castSucc - mm3 V c jb jj b.succ) * ll3 V c jb jj b.castSucc
        + ∑ ii : Fin 512, Ideal.exp (score3 V c (kRow3 jb jj) b.succ ii - mm3 V c jb jj b.succ) := by
  have h := next_step3 V c (pt3 jb b.succ) (by have := b.isLt; simp only [pt3, Fin.val_succ]; omega) jj
  simp only [blkScore3_eq, prev_pt3] at h
  exact h

/-- The last query block of a row: the output column holds the maximum plus the logarithm of the sum. -/
theorem row_last3 (c : Dev nD) (jb : Fin 4) (jj : Fin 2048) :
    (outsAt3 (F := Ideal) V c (pt3 jb (Fin.last 15)).val (pt3 jb (Fin.last 15)).isLt).1 (ix2 jj (0 : Fin 1))
      = mm3 V c jb jj (Fin.last 15) + Ideal.log (ll3 V c jb jj (Fin.last 15)) :=
  last_out3 V c (pt3 jb (Fin.last 15)) (by have : ((Fin.last 15 : Fin 16) : ℕ) = 15 := rfl; simp only [pt3]; omega) jj

/-- The log-sum-exp the region leaves for key row `j`: the running maximum after the row's last query block plus
    the logarithm of the running sum. -/
def lse3 (c : Dev nD) (j : Fin 8192) : EReal :=
  mm3 V c ⟨j.val / 2048, by omega⟩ ⟨j.val % 2048, by omega⟩ (Fin.last 15) + Ideal.log (ll3 V c ⟨j.val / 2048, by omega⟩ ⟨j.val % 2048, by omega⟩ (Fin.last 15))

/-- At a row's last point `t` the output column, read at row `jj` of the block, is `lse3` of the key row
    `2048 * (t / 16) + jj`. -/
theorem out_rows3 (c : Dev nD) (t : Fin cfg3.N) (ht : t.val % 16 = 15) (jj : Fin 2048) (j : Fin 8192)
    (hj : j.val = 2048 * (t.val / 16) + jj.val) :
    (outsAt3 (F := Ideal) V c t.val t.isLt).1 (ix2 jj (0 : Fin 1)) = lse3 V c j := by
  have hN : t.val < 64 := lt_of_lt_of_eq t.isLt (show cfg3.N = 64 from N_3)
  have hjj := jj.isLt
  have e1 : (⟨j.val / 2048, by omega⟩ : Fin 4) = ⟨t.val / 16, by omega⟩ := Fin.ext (by show j.val / 2048 = t.val / 16; omega)
  have e2 : (⟨j.val % 2048, by omega⟩ : Fin 2048) = jj := Fin.ext (by show j.val % 2048 = jj.val; omega)
  have e3 : pt3 ⟨t.val / 16, by omega⟩ (Fin.last 15) = t := Fin.ext (by have : ((Fin.last 15 : Fin 16) : ℕ) = 15 := rfl; simp only [pt3]; omega)
  unfold lse3
  rw [e1, e2]
  have h := row_last3 V c ⟨t.val / 16, by omega⟩ jj
  rw [e3] at h
  exact h

/-! ## The region's value -/

/-- THE VALUE OF REGION 3. For every key row `j` the running maximum and the running sum over the sixteen query
    blocks obey the streaming recurrence from ⊥ and 0 — the lane maximum as a supremum over the block's 512 scores,
    the lane sum as their plain sum —, and the region leaves in the output column, at row `j`, the last maximum plus
    the logarithm of the last sum. -/
theorem final3 (c : Dev nD) (j : Fin 8192) : ∃ mm ll : Fin 16 → EReal,
    mm 0 = max ⊥ (Finset.univ.sup fun ii : Fin 512 => score3 V c j 0 ii)
    ∧ ll 0 = Ideal.exp (⊥ - mm 0) * 0 + ∑ ii : Fin 512, Ideal.exp (score3 V c j 0 ii - mm 0)
    ∧ (∀ b : Fin 15, mm b.succ = max (mm b.castSucc) (Finset.univ.sup fun ii : Fin 512 => score3 V c j b.succ ii)
        ∧ ll b.succ = Ideal.exp (mm b.castSucc - mm b.succ) * ll b.castSucc
            + ∑ ii : Fin 512, Ideal.exp (score3 V c j b.succ ii - mm b.succ))
    ∧ (dat3 (F := Ideal) V c).arrAt 2 cfg3.N (ix2 j (0 : Fin 1)) = mm (Fin.last 15) + Ideal.log (ll (Fin.last 15)) := by
  have hj := j.isLt
  have ej : kRow3 ⟨j.val / 2048, by omega⟩ ⟨j.val % 2048, by omega⟩ = j := Fin.ext (by show 2048 * (j.val / 2048) + j.val % 2048 = j.val; omega)
  refine ⟨mm3 V c ⟨j.val / 2048, by omega⟩ ⟨j.val % 2048, by omega⟩, ll3 V c ⟨j.val / 2048, by omega⟩ ⟨j.val % 2048, by omega⟩, ?_, ?_, ?_, ?_⟩
  · have h := (row_first3 V c ⟨j.val / 2048, by omega⟩ ⟨j.val % 2048, by omega⟩).1
    rw [ej] at h; exact h
  · have h := (row_first3 V c ⟨j.val / 2048, by omega⟩ ⟨j.val % 2048, by omega⟩).2
    rw [ej] at h; exact h
  · intro b
    have h := row_next3 V c ⟨j.val / 2048, by omega⟩ ⟨j.val % 2048, by omega⟩ b
    rw [ej] at h; exact h
  · exact arrAt3_apply_of_rows V c (lse3 V c) (fun t h15 jj hj' => out_rows3 V c t h15 jj ⟨_, hj'⟩ rfl) j

end Cert.KernelIdeal.Val

end
-- ==== Proof.KernelIdeal.Val4.Pieces.lean ====
import proofs.«101729_j45303315038988_2_alg».proof.Proof.KernelIdeal.Reg4
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Hand

/-! # Region 4: what each case of the body leaves, as the payloads of the blocks it was handed

Generic in the float semantics. At a first key block the accumulator ends at the accumulating step applied to the
cleared block; at every other key block at the accumulating step applied to what the point before left; at a last key
block the output block is the residual block plus that. -/

variable {F : FTy → Type} [FloatOps F]

theorem hz4 : (![0, 0] : Fin 2 → Nat) = fun _ => 0 := funext fun a => by fin_cases a <;> rfl

/-- A middle key block: the accumulator ends at the accumulating step of the point's four blocks over what it held. -/
theorem soutB_eq4 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) :
    sout4_B_0 c i arg2 harg2 arg3 harg3 arg4 harg4 arg5 harg5 arg6 harg6 arg7 harg7 arg8 harg8 hc0 hc1 x0 x1 x2 x3 x4 xs0 = k4_pay2 x0 x1 x2 x3 xs0 := by
  unfold sout4_B_0
  rw [View.read_writes_eq_canon _ _ _ (scover4_B_0 c i arg2 harg2 arg3 harg3 arg4 harg4 arg5 harg5 arg6 harg6 arg7 harg7 arg8 harg8 hc0 hc1 x0 x1 x2 x3 x4 xs0)]
  unfold kernelRun4_B
  dsimp only
  try sl_unfold_words
  rw [View.canon_unit_zero hz4]
  simp only [View.readAt_eq_ld, harg2.read_unread, harg3.read_unread, harg4.read_unread, harg5.read_unread, harg8.read_unread, View.ld_unit_zero (S := S1024x1024) hz4, View.ld_unit_zero (S := S512x1024) hz4, View.ld_unit_zero (S := S1x512) hz4]

/-- A last key block: the accumulator likewise. -/
theorem soutC_eq4 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) :
    sout4_C_0 c i arg2 harg2 arg3 harg3 arg4 harg4 arg5 harg5 arg6 harg6 arg7 harg7 arg8 harg8 hc0 hc1 x0 x1 x2 x3 x4 xs0 = k4_pay2 x0 x1 x2 x3 xs0 := by
  unfold sout4_C_0
  rw [View.read_writes_eq_canon _ _ _ (scover4_C_0 c i arg2 harg2 arg3 harg3 arg4 harg4 arg5 harg5 arg6 harg6 arg7 harg7 arg8 harg8 hc0 hc1 x0 x1 x2 x3 x4 xs0)]
  unfold kernelRun4_C
  dsimp only
  try sl_unfold_words
  rw [View.canon_unit_zero hz4]
  simp only [View.readAt_eq_ld, harg2.read_unread, harg3.read_unread, harg4.read_unread, harg5.read_unread, harg8.read_unread, View.ld_unit_zero (S := S1024x1024) hz4, View.ld_unit_zero (S := S512x1024) hz4, View.ld_unit_zero (S := S1x512) hz4]

/-- A last key block: the output block is the residual block plus the finished accumulator. -/
theorem outC_eq4 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S1024x1024 .bf16) (x1 : Vec F S512x1024 .bf16) (x2 : Vec F S1x512 .f32) (x3 : Vec F S512x1024 .bf16) (x4 : Vec F S1024x1024 .f32) (xs0 : Vec F S1024x1024 .f32) :
    out4_C_5 c i arg2 harg2 arg3 harg3 arg4 harg4 arg5 harg5 arg6 harg6 arg7 harg7 arg8 harg8 hc0 hc1 x0 x1 x2 x3 x4 xs0 = k4_pay3 x4 (k4_pay2 x0 x1 x2 x3 xs0) := by
  unfold out4_C_5
  rw [View.read_writes_eq_canon _ _ _ (cover4_C_5 c i arg2 harg2 arg3 harg3 arg4 harg4 arg5 harg5 arg6 harg6 arg7 harg7 arg8 harg8 hc0 hc1 x0 x1 x2 x3 x4 xs0)]
  unfold kernelRun4_C
  dsimp only
  try sl_unfold_words
  rw [View.canon_unit_zero hz4, View.readCov_unit_zero (S := S1024x1024) _ hz4]
  simp only [View.readAt_eq_ld, harg2.read_unread, harg3.read_unread, harg4.read_unread, harg5.read_unread, harg6.read_unread, harg8.read_unread, View.ld_unit_zero (S := S1024x1024) hz4, View.ld_unit_zero (S := S512x1024) hz4, View.ld_unit_zero (S := S1x512) hz4]

/-- A first key block: the accumulator is cleared, read back, and ends at the accumulating step over the cleared block. -/
theorem soutA_eq4 (c : Dev nD) (i : grid4.Coords) (arg2 : Memref sig .tc .vmem S1024x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S1024x1024 .bf16) (x1 : Vec F S512x1024 .bf16) (x2 : Vec F S1x512 .f32) (x3 : Vec F S512x1024 .bf16) (x4 : Vec F S1024x1024 .f32) :
    sout4_A_0 c i arg2 harg2 arg3 harg3 arg4 harg4 arg5 harg5 arg6 harg6 arg7 harg7 arg8 harg8 hc0 hc1 x0 x1 x2 x3 x4 = k4_pay2 x0 x1 x2 x3 (k4_pay1 (F := F)) := by
  unfold sout4_A_0
  rw [View.read_writes_eq_canon _ _ _ (scover4_A_0 c i arg2 harg2 arg3 harg3 arg4 harg4 arg5 harg5 arg6 harg6 arg7 harg7 arg8 harg8 hc0 hc1 x0 x1 x2 x3 x4)]
  unfold kernelRun4_A
  dsimp only
  try sl_unfold_words
  rw [View.canon_cons_unit_zero (S := S1024x1024) hz4, View.readCov_unit_zero (S := S1024x1024) _ hz4]
  simp only [View.readAt_eq_ld, harg2.read_unread, harg3.read_unread, harg4.read_unread, harg5.read_unread, View.ld_unit_zero (S := S1024x1024) hz4, View.ld_unit_zero (S := S512x1024) hz4, View.ld_unit_zero (S := S1x512) hz4]

end Cert.KernelIdeal.Val

end
-- ==== Proof.KernelIdeal.Val4.Row.lean ====
import proofs.«101729_j45303315038988_2_alg».proof.Proof.KernelIdeal.Val4.Pieces
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Hand

open Idealize.ShloMosaic.ValueIdx

/-! # Region 4 along the grid: the accumulator after each point, the output block at a row's last point, and each
window's block as entries of its array

Point `t` is key block `t % 16` of query block `t / 16`. The accumulator after a first key block is the accumulating
step over the cleared block; after any other point it is the accumulating step over what the point before left; at a
last key block the output block is the residual block plus the accumulator. -/

variable {F : FTy → Type} [FloatOps F]
variable (V : (c : Dev nD) → (b : Ref sig .tc) → Buf (Elt F) ((c : Thread nD τ).loc b))

/-- What the accumulator holds after point `t`. -/
def accAt4 (c : Dev nD) (t : Fin cfg4.N) : Vec F S1024x1024 .f32 := (outsAt4 V c t.val t.isLt).2
/-- What the output window's staging buffer holds after point `t`. -/
def outAt4 (c : Dev nD) (t : Fin cfg4.N) : Vec F S1024x1024 .f32 := (outsAt4 V c t.val t.isLt).1

/-- After a first key block: the accumulating step over the cleared block. -/
theorem accAt4_first (c : Dev nD) (t : Fin cfg4.N) (h0 : t.val % 16 = 0) :
    accAt4 V c t = k4_pay2 (iblk4 V c 0 t) (iblk4 V c 1 t) (iblk4 V c 2 t) (iblk4 V c 3 t) (k4_pay1 (F := F)) := by
  have h1 : ¬t.val % 16 = 15 := by omega
  unfold accAt4
  rw [outsAt4_A V c t h0 h1]
  dsimp only
  exact soutA_eq4 (F := F) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t)

/-- After any other point: the accumulating step over what the point before left. -/
theorem accAt4_next (c : Dev nD) (t t' : Fin cfg4.N) (h0 : ¬t.val % 16 = 0) (hp : t'.val = t.val - 1) :
    accAt4 V c t = k4_pay2 (iblk4 V c 0 t) (iblk4 V c 1 t) (iblk4 V c 2 t) (iblk4 V c 3 t) (accAt4 V c t') := by
  have ht' : t' = ⟨t.val - 1, Nat.lt_of_le_of_lt (Nat.sub_le _ _) t.isLt⟩ := Fin.ext hp
  subst ht'
  unfold accAt4
  by_cases h1 : t.val % 16 = 15
  · rw [outsAt4_C V c t h0 h1]
    dsimp only
    exact soutC_eq4 (F := F) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2
  · rw [outsAt4_B V c t h0 h1]
    dsimp only
    exact soutB_eq4 (F := F) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2

/-- At a last key block the output block is the residual block plus the accumulator. -/
theorem outAt4_last (c : Dev nD) (t : Fin cfg4.N) (h1 : t.val % 16 = 15) :
    outAt4 V c t = k4_pay3 (iblk4 V c 4 t) (accAt4 V c t) := by
  have h0 : ¬t.val % 16 = 0 := by omega
  unfold outAt4 accAt4
  rw [outsAt4_C V c t h0 h1]
  dsimp only
  exact (outC_eq4 (F := F) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2).trans
    (congrArg (k4_pay3 (iblk4 V c 4 t)) (soutC_eq4 (F := F) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2).symm)

/-! ## The index maps over the grid, and the blocks as entries of the arrays -/

/-- The printed index maps, decided once over the grid: the query, residual and output windows move with the query
    block `t / 16`; the key, value and log-sum-exp windows with the key block `t % 16`. -/
theorem idx4 : ∀ t : Fin cfg4.N,
    win4_0.index t (0 : Fin 2) = t.val / 16 ∧ win4_0.index t (1 : Fin 2) = 0
    ∧ win4_1.index t (0 : Fin 2) = t.val % 16 ∧ win4_1.index t (1 : Fin 2) = 0
    ∧ win4_2.index t (0 : Fin 2) = 0 ∧ win4_2.index t (1 : Fin 2) = t.val % 16
    ∧ win4_3.index t (0 : Fin 2) = t.val % 16 ∧ win4_3.index t (1 : Fin 2) = 0
    ∧ win4_4.index t (0 : Fin 2) = t.val / 16 ∧ win4_4.index t (1 : Fin 2) = 0
    ∧ win4_5.index t (0 : Fin 2) = t.val / 16 ∧ win4_5.index t (1 : Fin 2) = 0 :=
  (by decide +kernel : ∀ t : Fin grid4.N, _)

/-- Window 0's block at point `t`, entry (a, b): the array's entry at the block's offset plus (a, b). -/
theorem iblk4_0_apply (c : Dev nD) (t : Fin cfg4.N) (a : Fin 1024) (b : Fin 1024) (k : S8192x1024.Idx)
    (hk0 : (k 0).val = 1024 * (t.val / 16) + a.val) (hk1 : (k 1).val = 1024 * (0) + b.val) :
    (iblk4 V c 0 t : Vec F S1024x1024 .bf16) (ix2 a b) = (V c (Pipeline.arrRef spec4 0) : S8192x1024.Idx → Elt F .bf16) k := by
  have hi : win4_0.index t (0 : Fin 2) = t.val / 16 ∧ win4_0.index t (1 : Fin 2) = 0 := by
    obtain ⟨e00, e01, e10, e11, e20, e21, e30, e31, e40, e41, e50, e51⟩ := idx4 t
    exact ⟨e00, e01⟩
  unfold iblk4
  rw [View.read_apply]
  show V c main_v7 _ = V c main_v7 _
  congr 1
  funext ax
  apply Fin.ext
  match ax with
  | ⟨0, _⟩ => show win4_0.index t 0 * 1024 + 1 * a.val = (k 0).val; rw [hi.1, hk0]; omega
  | ⟨1, _⟩ => show win4_0.index t 1 * 1024 + 1 * b.val = (k 1).val; rw [hi.2, hk1]; omega

/-- Window 1's block at point `t`, entry (a, b): the array's entry at the block's offset plus (a, b). -/
theorem iblk4_1_apply (c : Dev nD) (t : Fin cfg4.N) (a : Fin 512) (b : Fin 1024) (k : S8192x1024.Idx)
    (hk0 : (k 0).val = 512 * (t.val % 16) + a.val) (hk1 : (k 1).val = 1024 * (0) + b.val) :
    (iblk4 V c 1 t : Vec F S512x1024 .bf16) (ix2 a b) = (V c (Pipeline.arrRef spec4 1) : S8192x1024.Idx → Elt F .bf16) k := by
  have hi : win4_1.index t (0 : Fin 2) = t.val % 16 ∧ win4_1.index t (1 : Fin 2) = 0 := by
    obtain ⟨e00, e01, e10, e11, e20, e21, e30, e31, e40, e41, e50, e51⟩ := idx4 t
    exact ⟨e10, e11⟩
  unfold iblk4
  rw [View.read_apply]
  show V c main_v9 _ = V c main_v9 _
  congr 1
  funext ax
  apply Fin.ext
  match ax with
  | ⟨0, _⟩ => show win4_1.index t 0 * 512 + 1 * a.val = (k 0).val; rw [hi.1, hk0]; omega
  | ⟨1, _⟩ => show win4_1.index t 1 * 1024 + 1 * b.val = (k 1).val; rw [hi.2, hk1]; omega

/-- Window 2's block at point `t`, entry (a, b): the array's entry at the block's offset plus (a, b). -/
theorem iblk4_2_apply (c : Dev nD) (t : Fin cfg4.N) (a : Fin 1) (b : Fin 512) (k : S1x8192.Idx)
    (hk0 : (k 0).val = 1 * (0) + a.val) (hk1 : (k 1).val = 512 * (t.val % 16) + b.val) :
    (iblk4 V c 2 t : Vec F S1x512 .f32) (ix2 a b) = (V c (Pipeline.arrRef spec4 2) : S1x8192.Idx → Elt F .f32) k := by
  have hi : win4_2.index t (0 : Fin 2) = 0 ∧ win4_2.index t (1 : Fin 2) = t.val % 16 := by
    obtain ⟨e00, e01, e10, e11, e20, e21, e30, e31, e40, e41, e50, e51⟩ := idx4 t
    exact ⟨e20, e21⟩
  unfold iblk4
  rw [View.read_apply]
  show V c main_v13 _ = V c main_v13 _
  congr 1
  funext ax
  apply Fin.ext
  match ax with
  | ⟨0, _⟩ => show win4_2.index t 0 * 1 + 1 * a.val = (k 0).val; rw [hi.1, hk0]; omega
  | ⟨1, _⟩ => show win4_2.index t 1 * 512 + 1 * b.val = (k 1).val; rw [hi.2, hk1]; omega

/-- Window 3's block at point `t`, entry (a, b): the array's entry at the block's offset plus (a, b). -/
theorem iblk4_3_apply (c : Dev nD) (t : Fin cfg4.N) (a : Fin 512) (b : Fin 1024) (k : S8192x1024.Idx)
    (hk0 : (k 0).val = 512 * (t.val % 16) + a.val) (hk1 : (k 1).val = 1024 * (0) + b.val) :
    (iblk4 V c 3 t : Vec F S512x1024 .bf16) (ix2 a b) = (V c (Pipeline.arrRef spec4 3) : S8192x1024.Idx → Elt F .bf16) k := by
  have hi : win4_3.index t (0 : Fin 2) = t.val % 16 ∧ win4_3.index t (1 : Fin 2) = 0 := by
    obtain ⟨e00, e01, e10, e11, e20, e21, e30, e31, e40, e41, e50, e51⟩ := idx4 t
    exact ⟨e30, e31⟩
  unfold iblk4
  rw [View.read_apply]
  show V c main_v11 _ = V c main_v11 _
  congr 1
  funext ax
  apply Fin.ext
  match ax with
  | ⟨0, _⟩ => show win4_3.index t 0 * 512 + 1 * a.val = (k 0).val; rw [hi.1, hk0]; omega
  | ⟨1, _⟩ => show win4_3.index t 1 * 1024 + 1 * b.val = (k 1).val; rw [hi.2, hk1]; omega

/-- Window 4's block at point `t`, entry (a, b): the array's entry at the block's offset plus (a, b). -/
theorem iblk4_4_apply (c : Dev nD) (t : Fin cfg4.N) (a : Fin 1024) (b : Fin 1024) (k : S8192x1024.Idx)
    (hk0 : (k 0).val = 1024 * (t.val / 16) + a.val) (hk1 : (k 1).val = 1024 * (0) + b.val) :
    (iblk4 V c 4 t : Vec F S1024x1024 .f32) (ix2 a b) = (V c (Pipeline.arrRef spec4 4) : S8192x1024.Idx → Elt F .f32) k := by
  have hi : win4_4.index t (0 : Fin 2) = t.val / 16 ∧ win4_4.index t (1 : Fin 2) = 0 := by
    obtain ⟨e00, e01, e10, e11, e20, e21, e30, e31, e40, e41, e50, e51⟩ := idx4 t
    exact ⟨e40, e41⟩
  unfold iblk4
  rw [View.read_apply]
  show V c main_arg0 _ = V c main_arg0 _
  congr 1
  funext ax
  apply Fin.ext
  match ax with
  | ⟨0, _⟩ => show win4_4.index t 0 * 1024 + 1 * a.val = (k 0).val; rw [hi.1, hk0]; omega
  | ⟨1, _⟩ => show win4_4.index t 1 * 1024 + 1 * b.val = (k 1).val; rw [hi.2, hk1]; omega

end Cert.KernelIdeal.Val

end
-- ==== Proof.KernelIdeal.Pay4.lean ====
import proofs.«101729_j45303315038988_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.ValueIdx
open Cert.KernelIdeal Cert.KernelIdeal.Gen

/-! # The weighted-sum kernel's stored values at an index

For a block of 1024 query rows and a block of 512 key rows, at exact values: the scores are s(i, j) = ∑ₑ q(i,e)·k(j,e);
the row of log-sum-exps is repeated down the query rows; the weights exp (s(i,j) − lse(j)) multiply the value block
over the key rows; and the result is added to the running total:
  entry (i, d) of the stored block is  acc(i,d) + ∑ⱼ exp (∑ₑ q(i,e)·k(j,e) − lse(0,j)) · v(j,d). -/

/-! ## The score product q·kᵀ: both operands contracted over their feature axis -/

/-- The left operand's index at output (i, j) and contraction coordinate c is (i, c), -/
theorem scoreLhs_0 (i : S1024x512.Idx) (c : dot_S1024x1024_S512x1024_S1024x512_1_1_0_0_n_n.contr.Idx) :
    (dot_S1024x1024_S512x1024_S1024x512_1_1_0_0_n_n.lhsIdx i c 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem scoreLhs_1 (i : S1024x512.Idx) (c : dot_S1024x1024_S512x1024_S1024x512_1_1_0_0_n_n.contr.Idx) :
    (dot_S1024x1024_S512x1024_S1024x512_1_1_0_0_n_n.lhsIdx i c 1).val = (c ⟨0, by decide⟩).val :=
  dot_S1024x1024_S512x1024_S1024x512_1_1_0_0_n_n.lhsIdx_val_of_single rfl i c
/-- and the right operand's is (j, c). -/
theorem scoreRhs_0 (i : S1024x512.Idx) (c : dot_S1024x1024_S512x1024_S1024x512_1_1_0_0_n_n.contr.Idx) :
    (dot_S1024x1024_S512x1024_S1024x512_1_1_0_0_n_n.rhsIdx i c 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem scoreRhs_1 (i : S1024x512.Idx) (c : dot_S1024x1024_S512x1024_S1024x512_1_1_0_0_n_n.contr.Idx) :
    (dot_S1024x1024_S512x1024_S1024x512_1_1_0_0_n_n.rhsIdx i c 1).val = (c ⟨0, by decide⟩).val :=
  dot_S1024x1024_S512x1024_S1024x512_1_1_0_0_n_n.rhsIdx_val_of_single rfl i c

/-- Entry (i, j) of the score block: the inner product of query row i and key row j. -/
theorem score_apply (q : FVec Ideal S1024x1024 .bf16) (k : FVec Ideal S512x1024 .bf16) (ii : Fin 1024) (jj : Fin 512) :
    FloatOps.matmul dot_S1024x1024_S512x1024_S1024x512_1_1_0_0_n_n none q k (constant (F := Ideal) S1024x512 .f32 0x00000000#32) (ix2 ii jj)
      = ∑ e : Fin 1024, q (ix2 ii e) * k (ix2 jj e) := by
  rw [Ideal.matmul_constant_zero_apply, ← Equiv.sum_comp (contrEquiv1 dot_S1024x1024_S512x1024_S1024x512_1_1_0_0_n_n 1024 rfl rfl).symm]
  refine Finset.sum_congr rfl fun e _ => ?_
  have he := contrEquiv1_symm_val dot_S1024x1024_S512x1024_S1024x512_1_1_0_0_n_n 1024 rfl rfl e
  have el : dot_S1024x1024_S512x1024_S1024x512_1_1_0_0_n_n.lhsIdx (ix2 ii jj) ((contrEquiv1 dot_S1024x1024_S512x1024_S1024x512_1_1_0_0_n_n 1024 rfl rfl).symm e) = ix2 ii e := funext fun a => Fin.ext (by
    match a with
    | ⟨0, _⟩ => exact scoreLhs_0 _ _
    | ⟨1, _⟩ => exact (scoreLhs_1 _ _).trans he)
  have er : dot_S1024x1024_S512x1024_S1024x512_1_1_0_0_n_n.rhsIdx (ix2 ii jj) ((contrEquiv1 dot_S1024x1024_S512x1024_S1024x512_1_1_0_0_n_n 1024 rfl rfl).symm e) = ix2 jj e := funext fun a => Fin.ext (by
    match a with
    | ⟨0, _⟩ => exact scoreRhs_0 _ _
    | ⟨1, _⟩ => exact (scoreRhs_1 _ _).trans he)
  rw [el, er]

/-! ## The weighted sum w·v: the weights' key axis against the value block's row axis -/

theorem mixLhs_0 (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem mixLhs_1 (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c
theorem mixRhs_0 (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c
theorem mixRhs_1 (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- Entry (i, d) of the product of a weight block with the value block: the sum over the key rows. -/
theorem mix_apply (w : FVec Ideal S1024x512 .bf16) (v : FVec Ideal S512x1024 .bf16) (ii d : Fin 1024) :
    FloatOps.matmul dot_S1024x512_S512x1024_S1024x1024_1_0_0_1_n_n none w v (constant (F := Ideal) S1024x1024 .f32 0x00000000#32) (ix2 ii d)
      = ∑ jj : Fin 512, w (ix2 ii jj) * v (ix2 jj d) := by
  rw [Ideal.matmul_constant_zero_apply, ← Equiv.sum_comp (contrEquiv1 dot_S1024x512_S512x1024_S1024x1024_1_0_0_1_n_n 512 rfl rfl).symm]
  refine Finset.sum_congr rfl fun jj _ => ?_
  have hj := contrEquiv1_symm_val dot_S1024x512_S512x1024_S1024x1024_1_0_0_1_n_n 512 rfl rfl jj
  have el : dot_S1024x512_S512x1024_S1024x1024_1_0_0_1_n_n.lhsIdx (ix2 ii d) ((contrEquiv1 dot_S1024x512_S512x1024_S1024x1024_1_0_0_1_n_n 512 rfl rfl).symm jj) = ix2 ii jj := funext fun a => Fin.ext (by
    match a with
    | ⟨0, _⟩ => exact mixLhs_0 _ _
    | ⟨1, _⟩ => exact (mixLhs_1 _ _).trans hj)
  have er : dot_S1024x512_S512x1024_S1024x1024_1_0_0_1_n_n.rhsIdx (ix2 ii d) ((contrEquiv1 dot_S1024x512_S512x1024_S1024x1024_1_0_0_1_n_n 512 rfl rfl).symm jj) = ix2 jj d := funext fun a => Fin.ext (by
    match a with
    | ⟨0, _⟩ => exact (mixRhs_0 _ _).trans hj
    | ⟨1, _⟩ => exact mixRhs_1 _ _)
  rw [el, er]

/-! ## The three stored blocks -/

/-- The exponential of a block at an index, at exact values. -/
theorem exp_apply {s : Shape} {φ : FTy} (a : FVec Ideal s φ) (i : s.Idx) : exp a i = Ideal.exp (a i) := rfl

/-- The accumulating step: entry (i, d) of the block written back to the running total. -/
theorem mix_pay_apply (q : Vec Ideal S1024x1024 .bf16) (k : Vec Ideal S512x1024 .bf16) (lse : Vec Ideal S1x512 .f32)
    (v : Vec Ideal S512x1024 .bf16) (acc : Vec Ideal S1024x1024 .f32) (ii d : Fin 1024) :
    k4_pay2 (F := Ideal) q k lse v acc (ix2 ii d)
      = acc (ix2 ii d) + ∑ jj : Fin 512,
          Ideal.exp ((∑ e : Fin 1024, q (ix2 ii e) * k (ix2 jj e)) - lse (ix2 (0 : Fin 1) jj)) * v (ix2 jj d) := by
  unfold k4_pay2
  simp only [shapeCast_self, matmul]
  rw [addf_apply, mix_apply]
  refine congrArg (acc (ix2 ii d) + ·) (Finset.sum_congr rfl fun jj _ => ?_)
  rw [truncf_apply, exp_apply, subf_apply, score_apply, broadcastTo_1b_ab_apply]

/-- The last step adds the residual block to the total, entry by entry. -/
theorem out_pay_apply (t r : Vec Ideal S1024x1024 .f32) (ii d : Fin 1024) :
    k4_pay3 (F := Ideal) t r (ix2 ii d) = t (ix2 ii d) + r (ix2 ii d) := rfl

/-- The first step clears the running total. -/
theorem init_pay_apply (ii d : Fin 1024) : k4_pay1 (F := Ideal) (ix2 ii d) = 0 := by
  unfold k4_pay1
  rw [shapeCast_self, broadcast_apply]
  exact Ideal.ofBits_zero_f32

end Cert.KernelIdeal.Val

end
-- ==== Proof.KernelIdeal.Val4.Recur.lean ====
import proofs.«101729_j45303315038988_2_alg».proof.Proof.KernelIdeal.Val4.Row
import proofs.«101729_j45303315038988_2_alg».proof.Proof.KernelIdeal.Pay4

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Hand

open Idealize.ShloMosaic.ValueIdx
open scoped BigOperators

/-! # Region 4 at exact values: the accumulation recurrence along a query row

For query row `i` (row `i % 1024` of query block `i / 1024`) and feature `d`, the accumulator's entry after key block
`kb` is what it held after the block before plus the block's weighted sum ∑ⱼ exp (q(i)·k(j) − lse(j)) · v(j, d) over
the block's 512 key rows; after the first key block it is 0 plus that sum; and the output block's entry at the last
key block is the residual's entry plus the accumulator's. -/

variable (V : (c : Dev nD) → (b : Ref sig .tc) → Buf (Elt Ideal) ((c : Thread nD τ).loc b))

/-- The arrays as the region finds them: queries, keys, the row of log-sum-exps, values, the residual. -/
abbrev qA4 (c : Dev nD) : S8192x1024.Idx → Elt Ideal .bf16 := V c (Pipeline.arrRef spec4 0)
abbrev kA4 (c : Dev nD) : S8192x1024.Idx → Elt Ideal .bf16 := V c (Pipeline.arrRef spec4 1)
abbrev lseRow4 (c : Dev nD) : S1x8192.Idx → Elt Ideal .f32 := V c (Pipeline.arrRef spec4 2)
abbrev vA4 (c : Dev nD) : S8192x1024.Idx → Elt Ideal .bf16 := V c (Pipeline.arrRef spec4 3)
abbrev pA4 (c : Dev nD) : S8192x1024.Idx → Elt Ideal .f32 := V c (Pipeline.arrRef spec4 4)

/-- Key row `jj` of key block `kb`. -/
def kr (kb : Fin 16) (jj : Fin 512) : Fin 8192 := ⟨512 * kb.val + jj.val, by have := kb.isLt; have := jj.isLt; omega⟩
/-- The grid point of key block `kb` in query block `ib`. -/
def pt4 (ib : Fin 8) (kb : Fin 16) : Fin cfg4.N :=
  ⟨16 * ib.val + kb.val, by rw [show cfg4.N = 128 from N_4]; have := ib.isLt; have := kb.isLt; omega⟩
/-- Query row `i`'s block and its row inside the block. -/
def qb (i : Fin 8192) : Fin 8 := ⟨i.val / 1024, by have := i.isLt; omega⟩
def qr (i : Fin 8192) : Fin 1024 := ⟨i.val % 1024, by omega⟩

/-- The accumulating step at point `t` over the arrays: entry (ii, d) of the stored block is the old entry plus the
    weighted sum over the key rows of the point's key block. -/
theorem mix_row (c : Dev nD) (t : Fin cfg4.N) (acc : Vec Ideal S1024x1024 .f32) (ii d : Fin 1024) (i : Fin 8192) (kb : Fin 16)
    (hi : i.val = 1024 * (t.val / 16) + ii.val) (hkb : t.val % 16 = kb.val) :
    k4_pay2 (F := Ideal) (iblk4 V c 0 t) (iblk4 V c 1 t) (iblk4 V c 2 t) (iblk4 V c 3 t) acc (ix2 ii d)
      = acc (ix2 ii d) + ∑ jj : Fin 512,
          Ideal.exp ((∑ e : Fin 1024, qA4 V c (ix2 i e) * kA4 V c (ix2 (kr kb jj) e)) - lseRow4 V c (ix2 (0 : Fin 1) (kr kb jj)))
            * vA4 V c (ix2 (kr kb jj) d) := by
  refine (mix_pay_apply (iblk4 V c 0 t) (iblk4 V c 1 t) (iblk4 V c 2 t) (iblk4 V c 3 t) acc ii d).trans ?_
  refine congrArg (acc (ix2 ii d) + ·) (Finset.sum_congr rfl fun jj _ => ?_)
  have hk : (kr kb jj).val = 512 * (t.val % 16) + jj.val := by show 512 * kb.val + jj.val = _; rw [hkb]
  refine congrArg₂ (fun s v => Ideal.exp s * v) ?_ (iblk4_3_apply V c t jj d (ix2 (kr kb jj) d) (by show (kr kb jj).val = _; exact hk) (by show d.val = _; omega))
  refine congrArg₂ (fun s l => s - l) (Finset.sum_congr rfl fun e _ => congrArg₂ (· * ·)
      (iblk4_0_apply V c t ii e (ix2 i e) (by show i.val = _; exact hi) (by show e.val = _; omega))
      (iblk4_1_apply V c t jj e (ix2 (kr kb jj) e) (by show (kr kb jj).val = _; exact hk) (by show e.val = _; omega)))
    (iblk4_2_apply V c t 0 jj (ix2 (0 : Fin 1) (kr kb jj)) (by show (0 : Fin 1).val = _; simp) (by show (kr kb jj).val = _; exact hk))

/-- The accumulator's entry for query row `i` and feature `d` after key block `kb` of the row's query block. -/
def accRow (c : Dev nD) (i : Fin 8192) (d : Fin 1024) (kb : Fin 16) : EReal :=
  accAt4 V c (pt4 (qb i) kb) (ix2 (qr i) d)

/-- After the first key block: zero (the cleared block) plus the first block's weighted sum. -/
theorem accRow_zero (c : Dev nD) (i : Fin 8192) (d : Fin 1024) :
    accRow V c i d 0 = 0 + ∑ jj : Fin 512,
        Ideal.exp ((∑ e : Fin 1024, qA4 V c (ix2 i e) * kA4 V c (ix2 (kr 0 jj) e)) - lseRow4 V c (ix2 (0 : Fin 1) (kr 0 jj)))
          * vA4 V c (ix2 (kr 0 jj) d) := by
  have h0 : (pt4 (qb i) 0).val % 16 = 0 := by show (16 * (i.val / 1024) + 0) % 16 = 0; omega
  unfold accRow
  refine (congrFun (accAt4_first V c (pt4 (qb i) 0) h0) (ix2 (qr i) d)).trans ?_
  refine (mix_row V c (pt4 (qb i) 0) (k4_pay1 (F := Ideal)) (qr i) d i 0 ?_ ?_).trans ?_
  · show i.val = 1024 * ((16 * (i.val / 1024) + 0) / 16) + i.val % 1024; omega
  · show (16 * (i.val / 1024) + 0) % 16 = 0; omega
  · exact congrArg (· + _) (init_pay_apply (qr i) d)

/-- After each later key block: what the block before left plus this block's weighted sum. -/
theorem accRow_succ (c : Dev nD) (i : Fin 8192) (d : Fin 1024) (kb : Fin 15) :
    accRow V c i d kb.succ = accRow V c i d kb.castSucc + ∑ jj : Fin 512,
        Ideal.exp ((∑ e : Fin 1024, qA4 V c (ix2 i e) * kA4 V c (ix2 (kr kb.succ jj) e)) - lseRow4 V c (ix2 (0 : Fin 1) (kr kb.succ jj)))
          * vA4 V c (ix2 (kr kb.succ jj) d) := by
  have hkb := kb.isLt
  have h0 : ¬(pt4 (qb i) kb.succ).val % 16 = 0 := by show ¬(16 * (i.val / 1024) + (kb.val + 1)) % 16 = 0; omega
  have hp : (pt4 (qb i) kb.castSucc).val = (pt4 (qb i) kb.succ).val - 1 := by
    show 16 * (i.val / 1024) + kb.val = 16 * (i.val / 1024) + (kb.val + 1) - 1; omega
  unfold accRow
  refine (congrFun (accAt4_next V c (pt4 (qb i) kb.succ) (pt4 (qb i) kb.castSucc) h0 hp) (ix2 (qr i) d)).trans ?_
  refine mix_row V c (pt4 (qb i) kb.succ) (accAt4 V c (pt4 (qb i) kb.castSucc)) (qr i) d i kb.succ ?_ ?_
  · show i.val = 1024 * ((16 * (i.val / 1024) + (kb.val + 1)) / 16) + i.val % 1024; omega
  · show (16 * (i.val / 1024) + (kb.val + 1)) % 16 = kb.val + 1; omega

/-- At a row's last point `t` the output block's entry (ii, d) is the residual's entry plus the accumulator's after the
    last key block, for the query row `i` that entry is. -/
theorem outRow_last (c : Dev nD) (t : Fin cfg4.N) (h1 : t.val % 16 = 15) (ii d : Fin 1024) (i : Fin 8192)
    (hi : i.val = 1024 * (t.val / 16) + ii.val) :
    (outsAt4 V c t.val t.isLt).1 (ix2 ii d) = pA4 V c (ix2 i d) + accRow V c i d (Fin.last 15) := by
  have hN : t.val < 128 := lt_of_lt_of_eq t.isLt (show cfg4.N = 128 from N_4)
  have ht : pt4 (qb i) (Fin.last 15) = t := Fin.ext (by show 16 * (i.val / 1024) + 15 = t.val; omega)
  have hr : qr i = ii := Fin.ext (by show i.val % 1024 = ii.val; have := ii.isLt; omega)
  show outAt4 V c t (ix2 ii d) = _
  refine (congrFun (outAt4_last V c t h1) (ix2 ii d)).trans ?_
  refine (out_pay_apply (iblk4 V c 4 t) (accAt4 V c t) ii d).trans ?_
  refine congrArg₂ (· + ·) (iblk4_4_apply V c t ii d (ix2 i d) (by show i.val = _; exact hi) (by show d.val = _; omega)) ?_
  unfold accRow
  rw [ht, hr]

end Cert.KernelIdeal.Val

end
-- ==== Proof.KernelIdeal.Cover4.lean ====
import proofs.«101729_j45303315038988_2_alg».proof.Proof.KernelIdeal.Reg4
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable {F : FTy → Type} [FloatOps F]
variable (V : (c : Dev nD) → (b : Ref sig .tc) → Buf (Elt F) ((c : Thread nD τ).loc b))

/-! # From the query blocks to the whole output array (the weighted-sum kernel)

The output array has 8 blocks of 1024 rows. The 16 points of a query block share one output block, which is
written back at the block's last point only. So if, at each such point, the output block holds rows
1024·b … 1024·b + 1023 of a function `G` of the whole array (b the query block), the array ends holding `G`. -/

/-- The output window's block index at point t is (t / 16, 0). -/
theorem outIndex4 : ∀ t : Fin cfg4.N, win4_5.index t (0 : Fin 2) = t.val / 16 ∧ win4_5.index t (1 : Fin 2) = 0 :=
  (by decide +kernel : ∀ t : Fin grid4.N, _)

/-- What a last point of a query block writes back is that block of `G`, when the point's output block is. -/
theorem wroteBack4 (c : Dev nD) (G : S8192x1024.Idx → Elt F .f32)
    (hrow : ∀ t : Fin cfg4.N, t.val % 16 = 15 → ∀ (ii d : Fin 1024) (hi : 1024 * (t.val / 16) + ii.val < 8192),
      (outsAt4 V c t.val t.isLt).1 (ix2 ii d) = G (ix2 ⟨1024 * (t.val / 16) + ii.val, hi⟩ d))
    (t : Fin cfg4.N) (hf : (cfg4.win 5).flush t = true) :
    (dat4 V c).flushed 5 t = ((cfg4.win 5).blk t).view.read (Elt F) G := by
  have h15 : t.val % 16 = 15 := (flush4_5 t).mp hf
  have hN : cfg4.N = 128 := N_4
  have ht := t.isLt
  obtain ⟨e0, e1⟩ := outIndex4 t
  show (cfg4.win 5).cut (grid4.coords t) ((dat4 V c).after 5 t) = _
  rw [after4_5]
  funext j
  have hj0 : (j 0).val < 1024 := (j 0).isLt
  have hj1 : (j 1).val < 1024 := (j 1).isLt
  have hl : (cfg4.win 5).xinj (grid4.coords t) j = ix2 (⟨(j 0).val, hj0⟩ : Fin 1024) (⟨(j 1).val, hj1⟩ : Fin 1024) :=
    funext fun a => by
      match a with
      | ⟨0, _⟩ => rfl
      | ⟨1, _⟩ => rfl
  show (outsAt4 V c t.val t.isLt).1 ((cfg4.win 5).xinj (grid4.coords t) j) = G (((cfg4.win 5).blk t).view.emb j)
  rw [hl, hrow t h15 _ _ (by dsimp only; omega)]
  refine congrArg G (funext fun a => Fin.ext ?_)
  match a with
  | ⟨0, _⟩ => show 1024 * (t.val / 16) + (j 0).val = win4_5.index t (0 : Fin 2) * 1024 + 1 * (j 0).val; omega
  | ⟨1, _⟩ => show (j 1).val = win4_5.index t (1 : Fin 2) * 1024 + 1 * (j 1).val; omega

/-- An index of the array is in point t's output block iff each coordinate is in the block's range on its axis. -/
theorem mem_outBlock4 (t : Fin cfg4.N) (i : S8192x1024.Idx) :
    i ∈ ((cfg4.win 5).blk t).view.set ↔ ∀ a : Fin 2, win4_5.index t a * S1024x1024.size a ≤ (i a).val ∧ (i a).val < win4_5.index t a * S1024x1024.size a + S1024x1024.size a := by
  show i ∈ ((View.whole main_v14).slice (win4_5.rect t)).set ↔ _
  rw [View.set_slice_whole, Rect.mem_set_unit]
  exact Iff.rfl

/-- Row r of the array is covered by the last point of its query block r / 1024. -/
theorem covered4 (i : S8192x1024.Idx) :
    ∃ t : Fin cfg4.N, (cfg4.win 5).flush t = true ∧ i ∈ ((cfg4.win 5).blk t).view.set := by
  have hN : cfg4.N = 128 := N_4
  have hi0 : (i 0).val < 8192 := (i 0).isLt
  have hi1 : (i 1).val < 1024 := (i 1).isLt
  let t : Fin cfg4.N := ⟨16 * ((i 0).val / 1024) + 15, by omega⟩
  have htv : t.val = 16 * ((i 0).val / 1024) + 15 := rfl
  obtain ⟨e0, e1⟩ := outIndex4 t
  refine ⟨t, (flush4_5 t).mpr (by omega), ?_⟩
  rw [mem_outBlock4]
  intro a
  match a with
  | ⟨0, _⟩ => show win4_5.index t (0 : Fin 2) * 1024 ≤ (i 0).val ∧ (i 0).val < win4_5.index t (0 : Fin 2) * 1024 + 1024; omega
  | ⟨1, _⟩ => show win4_5.index t (1 : Fin 2) * 1024 ≤ (i 1).val ∧ (i 1).val < win4_5.index t (1 : Fin 2) * 1024 + 1024; omega

/-- THE ARRAY after the region: `G`, when every query block's last point leaves that block of `G` in the output block. -/
theorem arrAt4_of_rows (c : Dev nD) (G : S8192x1024.Idx → Elt F .f32)
    (hrow : ∀ t : Fin cfg4.N, t.val % 16 = 15 → ∀ (ii d : Fin 1024) (hi : 1024 * (t.val / 16) + ii.val < 8192),
      (outsAt4 V c t.val t.isLt).1 (ix2 ii d) = G (ix2 ⟨1024 * (t.val / 16) + ii.val, hi⟩ d)) :
    (dat4 V c).arrAt 5 cfg4.N = G :=
  (dat4 V c).arrAt_eq_of_cover 5 G (wroteBack4 V c G hrow) covered4

/-- The same, entry by entry, for a function of the row and the feature. -/
theorem arrAt4_apply_of_rows (c : Dev nD) (G : Fin 8192 → Fin 1024 → Elt F .f32)
    (hrow : ∀ t : Fin cfg4.N, t.val % 16 = 15 → ∀ (ii d : Fin 1024) (hi : 1024 * (t.val / 16) + ii.val < 8192),
      (outsAt4 V c t.val t.isLt).1 (ix2 ii d) = G ⟨1024 * (t.val / 16) + ii.val, hi⟩ d)
    (i : Fin 8192) (d : Fin 1024) : (dat4 V c).arrAt 5 cfg4.N (ix2 i d) = G i d :=
  congrFun (arrAt4_of_rows V c (fun x => G (x 0) (x 1)) hrow) (ix2 i d)

end Cert.KernelIdeal.Val

end
-- ==== Proof.KernelIdeal.Val4.lean ====
import proofs.«101729_j45303315038988_2_alg».proof.Proof.KernelIdeal.Val4.Recur
import proofs.«101729_j45303315038988_2_alg».proof.Proof.KernelIdeal.Cover4

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Hand

open Idealize.ShloMosaic.ValueIdx
open scoped BigOperators

/-! # Region 4 at exact values: what the output array holds after the region

Entry (i, d) of the output array is the residual's entry plus the accumulator's entry after the last of the 16 key
blocks, where the accumulator starts at 0 plus the first key block's weighted sum and each later key block adds its own
weighted sum ∑ⱼ exp (q(i)·k(j) − lse(j)) · v(j, d) over its 512 key rows. -/

variable (V : (c : Dev nD) → (b : Ref sig .tc) → Buf (Elt Ideal) ((c : Thread nD τ).loc b))

/-- THE VALUE of region 4, entry by entry, as the accumulation recurrence over the 16 key blocks. -/
theorem final4 (c : Dev nD) (i : Fin 8192) (d : Fin 1024) : ∃ acc : Fin 16 → EReal,
    acc 0 = 0 + ∑ jj : Fin 512,
        Ideal.exp ((∑ e : Fin 1024, qA4 V c (ix2 i e) * kA4 V c (ix2 (kr 0 jj) e)) - lseRow4 V c (ix2 (0 : Fin 1) (kr 0 jj)))
          * vA4 V c (ix2 (kr 0 jj) d)
    ∧ (∀ kb : Fin 15, acc kb.succ = acc kb.castSucc + ∑ jj : Fin 512,
        Ideal.exp ((∑ e : Fin 1024, qA4 V c (ix2 i e) * kA4 V c (ix2 (kr kb.succ jj) e)) - lseRow4 V c (ix2 (0 : Fin 1) (kr kb.succ jj)))
          * vA4 V c (ix2 (kr kb.succ jj) d))
    ∧ (dat4 (F := Ideal) V c).arrAt 5 cfg4.N (ix2 i d) = pA4 V c (ix2 i d) + acc (Fin.last 15) :=
  ⟨accRow V c i d, accRow_zero V c i d, fun kb => accRow_succ V c i d kb,
    arrAt4_apply_of_rows V c (fun i d => pA4 V c (ix2 i d) + accRow V c i d (Fin.last 15))
      (fun t h15 ii d hi => outRow_last V c t h15 ii d ⟨1024 * (t.val / 16) + ii.val, hi⟩ rfl) i d⟩

end Cert.KernelIdeal.Val

end
-- ==== Proof.KernelIdeal.Result.lean ====
/-
  The kernel's result buffer holds the specification's value of the eight arguments: the three projections' arrays,
  the two attention regions' streaming recurrences and the precondition's real entries, put together.
-/
import proofs.«101729_j45303315038988_2_alg».proof.Proof.KernelIdeal.Compose
import proofs.«101729_j45303315038988_2_alg».proof.Proof.KernelIdeal.ValLin
import proofs.«101729_j45303315038988_2_alg».proof.Proof.KernelIdeal.Val3
import proofs.«101729_j45303315038988_2_alg».proof.Proof.KernelIdeal.Val4

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen Cert.KernelIdeal.Hand

/-- The first attention region leaves, per key row, the logarithm of the sum of exponentials built by the streaming
    recurrence over the 16 query blocks. -/
theorem reg3Value (c : Dev nD) : Reg3Value c := fun V j => final3 V c j

/-- The second attention region leaves, per query row and feature, the residual plus the sum accumulated over the 16
    key blocks. -/
theorem reg4Value (c : Dev nD) : Reg4Value c := fun V i d => final4 V c i d

/-- The result buffer at the end of the run is the specification's value of the eight arguments. -/
theorem kernel_result [Cert.Pre_finite_inputs.Facts] (m : (ℓ : Loc nD τ sig) → Buf (Elt Ideal) ℓ) (ρ : Dev nD → PrngReg)
    (hpre : Cert.Pre_KernelIdeal m) (c : Dev nD) :
    W9 (F := Ideal) m ρ c (Proc.devRef .tc main_v14)
      = Cert.Spec.out (aP c m) (aR c m) (aWh c m) (aBh c m) (aWl c m) (aBl c m) (aWg c m) (aBg c m) :=
  result_eq_of_pre c m ρ hpre (q_eq m ρ c) (k_eq m ρ c) (v_eq m ρ c) (reg3Value c) (reg4Value c)

end Cert.KernelIdeal.Val

end
-- ==== Proof.lean ====
/- The certificate of the column-softmax cross-attention kernel against its reference.

   The kernel is five pallas_calls: three linear projections q = p·Whᵀ + bh, k = r·Wlᵀ + bl, v = p·Wgᵀ + bg (one row block
   of 1024 per grid point, the weight and the bias staged once); a pass that, for each key row j, carries a running maximum
   and a running rescaled sum of exp over the 16 query blocks and ends with lse j = max_i s(i,j) + log ∑_i exp (s(i,j) − max);
   and a pass that accumulates ∑_j exp (s(i,j) − lse j) · v(j,·) over the 16 key blocks and adds p. The reference computes
   softmax over the query axis as exp (s − max) / ∑ exp (s − max) and one product with v.

   Frames: each region's proof data and body obligation are proved at a parameter for the region-entry contents, then the
   regions are joined along @main; the same text serves the word-level program and the idealized one. Value: at the ideal
   instance every stage is read index by index; on finite inputs the scores are reals, the carried pair is the maximum and
   the sum of the blocks seen so far, exp (s − (M + log L)) = exp (s − M) / L, and the block-wise accumulation is the whole
   sum. -/
import proofs.«101729_j45303315038988_2_alg».proof.Defs
import proofs.«101729_j45303315038988_2_alg».proof.Proof.Gen.Kernel
import proofs.«101729_j45303315038988_2_alg».proof.Proof.Gen.KernelIdeal
import proofs.«101729_j45303315038988_2_alg».proof.Proof.Gen.ReferenceIdeal
import proofs.«101729_j45303315038988_2_alg».proof.Proof.Gen.Pre_finite_inputs
import proofs.«101729_j45303315038988_2_alg».proof.Proof.Kernel.Run
import proofs.«101729_j45303315038988_2_alg».proof.Proof.KernelIdeal.Run
import proofs.«101729_j45303315038988_2_alg».proof.Proof.RefClaims
import proofs.«101729_j45303315038988_2_alg».proof.Proof.KernelIdeal.Result

noncomputable section

namespace Cert.Proof

open Idealize.ShloMosaic Idealize.SL.Sem

/-- The word-level program runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The idealization rewrote nothing. -/
theorem preserves : Cert.preserves_Kernel_KernelIdeal := trivial

/-- On finite inputs both idealized programs end with the same array: the reference's run is the specification of its
    arguments, and the kernel's last region leaves the specification of its own; the arguments agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Val.kernel_result m ρ hpre c), (h c).2⟩)
      (Cert.KernelIdeal.Hand.run_result (F := Ideal) m ρ)
  · refine Cert.ReferenceIdeal.RefValue.run_at m' ρ' _ (fun c => ?_)
    rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, Cert.Proof.ReferenceClaims.frame_ri, preserves, algebraic⟩

end Cert.Proof

end
